-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S800000x1 : Shape := ⟨2, ![800000, 1]⟩
abbrev S2x800000 : Shape := ⟨2, ![2, 800000]⟩
abbrev S1x128 : Shape := ⟨2, ![1, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S256x1 : Shape := ⟨2, ![256, 1]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S256x1 : S_.BroadcastsInDim S256x1 (![] : Fin 0 → Fin S256x1.rank)
  reducesTo_S256x1_S_d0_1 : S256x1.ReducesTo [0, 1] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg15 : FVec F S128x128 .f32) (main_arg16 : FVec F S128 .f32) (main_arg17 : FVec F S256x1 .f32) (main_arg18 : FVec F S1 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S256x1 .f32 := Host.absf main_arg17
  let main_cst_30 : FVec F S_ .f32 := constant S_ .f32 0x7F800000#32
  let main_v80 : FVec F S256x1 .f32 := broadcastInDim S256x1 ![] bcast_S_S256x1 main_cst_30
  let main_v81 : IVec S256x1 1 := cmpf .olt main_v79 main_v80
  let main_c_31 : IVec S_ 1 := constantI S_ 1 1#1
  let main_v82 : IVec S_ 1 := (fun x v => Host.reduce IntOp.andi x v reducesTo_S256x1_S_d0_1 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128x128 .f32) (main_arg14 : FVec F S128 .f32) (main_arg15 : FVec F S128x128 .f32) (main_arg16 : FVec F S128 .f32) (main_arg17 : FVec F S256x1 .f32) (main_arg18 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S256x1 .f32) (main_arg18 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S128x1 .f32) (main_arg6 : FVec F S1 .f32) (main_arg7 : FVec F S1x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S256x1 .f32) (main_arg18 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg5
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x128 .f32 := Host.absf main_arg7
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x1 .f32) (main_arg1 : FVec F S800000x1 .f32) (main_arg2 : IVec S2x800000 32) (main_arg3 : FVec F S1x128 .f32) (main_arg4 : FVec F S128 .f32) (main_arg5 : FVec F S128x1 .f32) (main_arg6 : FVec F S1 .f32) (main_arg7 : FVec F S1x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S256x1 .f32) (main_arg18 : FVec F S1 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S800000x1 .f32 := Host.absf main_arg1
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x1 : Shape := ⟨2, ![50000, 1]⟩
abbrev S800000x1 : Shape := ⟨2, ![800000, 1]⟩
abbrev S2x800000 : Shape := ⟨2, ![2, 800000]⟩
abbrev S1x128 : Shape := ⟨2, ![1, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S256x1 : Shape := ⟨2, ![256, 1]⟩
abbrev S1x800000 : Shape := ⟨2, ![1, 800000]⟩
abbrev S800000 : Shape := ⟨1, ![800000]⟩
abbrev S1x1 : Shape := ⟨2, ![1, 1]⟩
abbrev S800000x128 : Shape := ⟨2, ![800000, 128]⟩
abbrev S8000x1 : Shape := ⟨2, ![8000, 1]⟩
abbrev S8000x128 : Shape := ⟨2, ![8000, 128]⟩
abbrev S_ : Shape := ⟨0, ![]⟩
abbrev S4000x1 : Shape := ⟨2, ![4000, 1]⟩
abbrev S50000x128 : Shape := ⟨2, ![50000, 128]⟩
abbrev S2000x1 : Shape := ⟨2, ![2000, 1]⟩
abbrev S2000x128 : Shape := ⟨2, ![2000, 128]⟩
abbrev S4000x128 : Shape := ⟨2, ![4000, 128]⟩

abbrev nBuf : Space → Nat
  | .hbm => 111
  | .vmem => 65
  | .smem => 0
  | _ => 0

abbrev bufTy : (tb : Table) → Fin (tcTables nBuf tb) → BufTy
  | .hbm, ⟨0, _⟩ => ⟨S50000x1, .f32⟩
  | .hbm, ⟨1, _⟩ => ⟨S800000x1, .f32⟩
  | .hbm, ⟨2, _⟩ => ⟨S2x800000, .i32⟩
  | .hbm, ⟨3, _⟩ => ⟨S1x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S1x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S256x1, .f32⟩
  | .hbm, ⟨18, _⟩ => ⟨S1, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S1x1, .f32⟩
  | .hbm, ⟨24, _⟩ => ⟨S1x128, .f32⟩
  | .hbm, ⟨25, _⟩ => ⟨S1x1, .f32⟩
  | .hbm, ⟨26, _⟩ => ⟨S1x1, .f32⟩
  | .hbm, ⟨27, _⟩ => ⟨S1x1, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S800000x1, .f32⟩
  | .hbm, ⟨39, _⟩ => ⟨S800000x128, .f32⟩
  | .hbm, ⟨40, _⟩ => ⟨S800000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x1, .f32⟩
  | .hbm, ⟨50, _⟩ => ⟨S800000x1, .f32⟩
  | .hbm, ⟨51, _⟩ => ⟨S_, .f32⟩
  | .hbm, ⟨52, _⟩ => ⟨S50000x1, .f32⟩
  | .hbm, ⟨53, _⟩ => ⟨S800000x1, .i32⟩
  | .hbm, ⟨54, _⟩ => ⟨S50000x1, .f32⟩
  | .hbm, ⟨55, _⟩ => ⟨S1x128, .f32⟩
  | .hbm, ⟨56, _⟩ => ⟨S50000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S800000x128, .f32⟩
  | .hbm, ⟨83, _⟩ => ⟨S_, .f32⟩
  | .hbm, ⟨84, _⟩ => ⟨S50000x128, .f32⟩
  | .hbm, ⟨85, _⟩ => ⟨S800000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S_, .i32⟩
  | .hbm, ⟨90, _⟩ => ⟨S800000, .i32⟩
  | .hbm, ⟨91, _⟩ => ⟨S800000, .i1⟩
  | .hbm, ⟨92, _⟩ => ⟨S_, .i32⟩
  | .hbm, ⟨93, _⟩ => ⟨S800000, .i32⟩
  | .hbm, ⟨94, _⟩ => ⟨S800000, .i32⟩
  | .hbm, ⟨95, _⟩ => ⟨S800000, .i32⟩
  | .hbm, ⟨96, _⟩ => ⟨S800000x1, .i32⟩
  | .hbm, ⟨97, _⟩ => ⟨S800000x128, .f32⟩
  | .hbm, ⟨98, _⟩ => ⟨S_, .i32⟩
  | .hbm, ⟨99, _⟩ => ⟨S800000, .i32⟩
  | .hbm, ⟨100, _⟩ => ⟨S800000, .i1⟩
  | .hbm, ⟨101, _⟩ => ⟨S_, .i32⟩
  | .hbm, ⟨102, _⟩ => ⟨S800000, .i32⟩
  | .hbm, ⟨103, _⟩ => ⟨S800000, .i32⟩
  | .hbm, ⟨104, _⟩ => ⟨S800000, .i32⟩
  | .hbm, ⟨105, _⟩ => ⟨S800000x1, .i32⟩
  | .hbm, ⟨106, _⟩ => ⟨S800000x128, .f32⟩
  | .hbm, ⟨107, _⟩ => ⟨S128x1, .f32⟩
  | .hbm, ⟨108, _⟩ => ⟨S128x1, .f32⟩
  | .hbm, ⟨109, _⟩ => ⟨S1x1, .f32⟩
  | .hbm, ⟨110, _⟩ => ⟨S800000x1, .f32⟩
  | .local _ .vmem, ⟨0, _⟩ => ⟨S8000x1, .f32⟩
  | .local _ .vmem, ⟨1, _⟩ => ⟨S8000x1, .f32⟩
  | .local _ .vmem, ⟨2, _⟩ => ⟨S1x1, .f32⟩
  | .local _ .vmem, ⟨3, _⟩ => ⟨S1x1, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S8000x1, .f32⟩
  | .local _ .vmem, ⟨9, _⟩ => ⟨S8000x1, .f32⟩
  | .local _ .vmem, ⟨10, _⟩ => ⟨S8000x128, .f32⟩
  | .local _ .vmem, ⟨11, _⟩ => ⟨S8000x128, .f32⟩
  | .local _ .vmem, ⟨12, _⟩ => ⟨S8000x128, .f32⟩
  | .local _ .vmem, ⟨13, _⟩ => ⟨S8000x128, .f32⟩
  | .local _ .vmem, ⟨14, _⟩ => ⟨S4000x1, .f32⟩
  | .local _ .vmem, ⟨15, _⟩ => ⟨S4000x1, .f32⟩
  | .local _ .vmem, ⟨16, _⟩ => ⟨S4000x1, .f32⟩
  | .local _ .vmem, ⟨17, _⟩ => ⟨S4000x1, .f32⟩
  | .local _ .vmem, ⟨18, _⟩ => ⟨S4000x1, .f32⟩
  | .local _ .vmem, ⟨19, _⟩ => ⟨S4000x1, .f32⟩
  | .local _ .vmem, ⟨20, _⟩ => ⟨S2000x1, .f32⟩
  | .local _ .vmem, ⟨21, _⟩ => ⟨S2000x1, .f32⟩
  | .local _ .vmem, ⟨22, _⟩ => ⟨S2000x1, .f32⟩
  | .local _ .vmem, ⟨23, _⟩ => ⟨S2000x1, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S4000x128, .f32⟩
  | .local _ .vmem, ⟨43, _⟩ => ⟨S4000x128, .f32⟩
  | .local _ .vmem, ⟨44, _⟩ => ⟨S4000x128, .f32⟩
  | .local _ .vmem, ⟨45, _⟩ => ⟨S4000x128, .f32⟩
  | .local _ .vmem, ⟨46, _⟩ => ⟨S4000x128, .f32⟩
  | .local _ .vmem, ⟨47, _⟩ => ⟨S4000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S128x128, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | .local _ .vmem, ⟨56, _⟩ => ⟨S4000x128, .f32⟩
  | .local _ .vmem, ⟨57, _⟩ => ⟨S4000x128, .f32⟩
  | .local _ .vmem, ⟨58, _⟩ => ⟨S4000x128, .f32⟩
  | .local _ .vmem, ⟨59, _⟩ => ⟨S4000x128, .f32⟩
  | .local _ .vmem, ⟨60, _⟩ => ⟨S128x1, .f32⟩
  | .local _ .vmem, ⟨61, _⟩ => ⟨S128x1, .f32⟩
  | .local _ .vmem, ⟨62, _⟩ => ⟨S1x1, .f32⟩
  | .local _ .vmem, ⟨63, _⟩ => ⟨S4000x1, .f32⟩
  | .local _ .vmem, ⟨64, _⟩ => ⟨S4000x1, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19_0 : Ref sig .tc := ⟨.hbm, 38, rfl⟩
abbrev main_v19_1 : Ref sig .tc := ⟨.hbm, 39, rfl⟩
abbrev main_v19_2 : Ref sig .tc := ⟨.hbm, 40, rfl⟩
abbrev main_c : Ref sig .tc := ⟨.hbm, 41, rfl⟩
abbrev main_v20 : Ref sig .tc := ⟨.hbm, 42, rfl⟩
abbrev main_v21 : Ref sig .tc := ⟨.hbm, 43, rfl⟩
abbrev main_c_0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_1 : Ref sig .tc := ⟨.hbm, 57, rfl⟩
abbrev main_v33 : Ref sig .tc := ⟨.hbm, 58, rfl⟩
abbrev main_v34 : Ref sig .tc := ⟨.hbm, 59, rfl⟩
abbrev main_c_2 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_3 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_4 : Ref sig .tc := ⟨.hbm, 73, rfl⟩
abbrev main_v46 : Ref sig .tc := ⟨.hbm, 74, rfl⟩
abbrev main_v47 : Ref sig .tc := ⟨.hbm, 75, rfl⟩
abbrev main_c_5 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_6 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_7 : Ref sig .tc := ⟨.hbm, 89, rfl⟩
abbrev main_v59 : Ref sig .tc := ⟨.hbm, 90, rfl⟩
abbrev main_v60 : Ref sig .tc := ⟨.hbm, 91, rfl⟩
abbrev main_c_8 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_9 : Ref sig .tc := ⟨.hbm, 98, rfl⟩
abbrev main_v66 : Ref sig .tc := ⟨.hbm, 99, rfl⟩
abbrev main_v67 : Ref sig .tc := ⟨.hbm, 100, rfl⟩
abbrev main_c_10 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg4_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg4_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg5_0 : Ref sig .tc := ⟨.vmem, 63, rfl⟩
abbrev cc7_stg5_1 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem4_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem4_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem3_0 : DmaSem sig := 61
abbrev cc7_sem4_0 : DmaSem sig := 62
abbrev cc7_sem5_0 : DmaSem sig := 63
abbrev cc7_sem5_1 : DmaSem sig := 64

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![200], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S4000x1 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1_S1x1_1 : S1.BroadcastsInDim S1x1 (![1] : Fin 1 → Fin S1x1.rank)
  inb_S8000x1_S8000x1_0_0 : ∀ a, (![0, 0] : Fin 2 → Nat) a + S8000x1.size a ≤ S8000x1.size a
  h_S8000x1 : 0 < S8000x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S8000x1_S8000x128 : S8000x1.Broadcasts S8000x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S800000 : S_.BroadcastsInDim S800000 (![] : Fin 0 → Fin S800000.rank)
  bcast_S800000_S800000x1_0 : S800000.BroadcastsInDim S800000x1 (![0] : Fin 1 → Fin S800000x1.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  bcast_S_S50000x1 : S_.BroadcastsInDim S50000x1 (![] : Fin 0 → Fin S50000x1.rank)
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  bitsLt_bf16_f32 : FTy.bits .bf16 < FTy.bits .f32
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bcast_S_S50000x128 : S_.BroadcastsInDim S50000x128 (![] : Fin 0 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  slices_S256x1_S128x1_0_0 : S256x1.Slices ![0, 0] S128x1
  slices_S256x1_S128x1_128_0 : S256x1.Slices ![128, 0] S128x1
  shapeCasts_S1_S1x1 : S1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S1x1_S4000x1 : S1x1.Broadcasts S4000x1
  dot_S1x128_S128x1_S1x1_1_0_0_1_n_n_wf : DotDims.WF S1x128 S128x1 S1x1 [1] [0] [0] [1] [] []
  dot_S1x128_S128x128_S1x128_1_0_0_1_n_n_wf : DotDims.WF S1x128 S128x128 S1x128 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  dot_S2000x1_S1x128_S2000x128_1_0_0_1_n_n_wf : DotDims.WF S2000x1 S1x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S800000x1.size a
  hwx0_0 : ∀ i : grid0.Coords, EltTy.bits .f32 = 32 ∨ (Rect.block (s := S800000x1) S8000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x1.size a ≤ S800000x1.size a
  hwx0_7 : ∀ i : grid0.Coords, EltTy.bits .f32 = 32 ∨ (Rect.block (s := S800000x1) S8000x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x128.size a ≤ S800000x128.size a
  hwx0_8 : ∀ i : grid0.Coords, EltTy.bits .f32 = 32 ∨ (Rect.block (s := S800000x128) S8000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x128.size a ≤ S800000x128.size a
  hwx0_9 : ∀ i : grid0.Coords, EltTy.bits .f32 = 32 ∨ (Rect.block (s := S800000x128) S8000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x1.size a ≤ S800000x1.size a
  hwx1_0 : ∀ i : grid1.Coords, EltTy.bits .f32 = 32 ∨ (Rect.block (s := S800000x1) S4000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S800000x1.size a
  hwx1_1 : ∀ i : grid1.Coords, EltTy.bits .f32 = 32 ∨ (Rect.block (s := S800000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S800000x1.size a
  hwx1_2 : ∀ i : grid1.Coords, EltTy.bits .f32 = 32 ∨ (Rect.block (s := S800000x1) S4000x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1.size a ≤ S50000x1.size a
  hwx2_0 : ∀ i : grid2.Coords, EltTy.bits .f32 = 32 ∨ (Rect.block (s := S50000x1) S2000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S800000x128.size a
  hwx3_0 : ∀ i : grid3.Coords, EltTy.bits .f32 = 32 ∨ (Rect.block (s := S800000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S800000x128.size a
  hwx3_1 : ∀ i : grid3.Coords, EltTy.bits .f32 = 32 ∨ (Rect.block (s := S800000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S800000x128.size a
  hwx3_2 : ∀ i : grid3.Coords, EltTy.bits .f32 = 32 ∨ (Rect.block (s := S800000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S50000x128.size a
  hwx4_4 : ∀ i : grid4.Coords, EltTy.bits .f32 = 32 ∨ (Rect.block (s := S50000x128) S2000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S800000x128.size a
  hwx5_0 : ∀ i : grid5.Coords, EltTy.bits .f32 = 32 ∨ (Rect.block (s := S800000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S800000x128.size a
  hwx5_1 : ∀ i : grid5.Coords, EltTy.bits .f32 = 32 ∨ (Rect.block (s := S800000x128) S4000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x128.size a ≤ S800000x128.size a
  hwx5_2 : ∀ i : grid5.Coords, EltTy.bits .f32 = 32 ∨ (Rect.block (s := S800000x128) S4000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x128.size a ≤ S50000x128.size a
  hwx6_4 : ∀ i : grid6.Coords, EltTy.bits .f32 = 32 ∨ (Rect.block (s := S50000x128) S2000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S800000x128.size a
  hwx7_0 : ∀ i : grid7.Coords, EltTy.bits .f32 = 32 ∨ (Rect.block (s := S800000x128) S4000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x128.size a ≤ S800000x128.size a
  hwx7_1 : ∀ i : grid7.Coords, EltTy.bits .f32 = 32 ∨ (Rect.block (s := S800000x128) S4000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x1.size a ≤ S128x1.size a
  hwx7_2 : ∀ i : grid7.Coords, EltTy.bits .f32 = 32 ∨ (Rect.block (s := S128x1) S128x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x1.size a ≤ S128x1.size a
  hwx7_3 : ∀ i : grid7.Coords, EltTy.bits .f32 = 32 ∨ (Rect.block (s := S128x1) S128x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4000x1.size a ≤ S800000x1.size a
  hwx7_5 : ∀ i : grid7.Coords, EltTy.bits .f32 = 32 ∨ (Rect.block (s := S800000x1) S4000x1.size (cc7_transform_5 i) (hinb7_5 i)).WholeWords (EltTy.packing .f32)

variable [Facts₀]

def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S2000x1_S1x128_S2000x128_1_0_0_1_n_n : DotDims S2000x1 S1x128 S2000x128 where
  lhsContracting := [1]
  rhsContracting := [0]
  lhsNonContracting := [0]
  rhsNonContracting := [1]
  lhsBatch := []
  rhsBatch := []
  wf := dot_S2000x1_S1x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_arg1) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19_0) S8000x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v19_1) S8000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v19_2) S8000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v26) S4000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_0) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S4000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S2000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v39) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19_1) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v32) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v44) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v45) S2000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v52) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v19_2) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v53) S4000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v45) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v56) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg15) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v57) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v58) S2000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v65) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v72) S4000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v73) S128x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v74) S128x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v75) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v76) S4000x1.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x1 : Shape := ⟨2, ![50000, 1]⟩
abbrev S800000x1 : Shape := ⟨2, ![800000, 1]⟩
abbrev S2x800000 : Shape := ⟨2, ![2, 800000]⟩
abbrev S1x128 : Shape := ⟨2, ![1, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S256x1 : Shape := ⟨2, ![256, 1]⟩
abbrev S800000x128 : Shape := ⟨2, ![800000, 128]⟩
abbrev S1x800000 : Shape := ⟨2, ![1, 800000]⟩
abbrev S800000 : Shape := ⟨1, ![800000]⟩
abbrev S1x1 : Shape := ⟨2, ![1, 1]⟩
abbrev S_ : Shape := ⟨0, ![]⟩
abbrev S50000x128 : Shape := ⟨2, ![50000, 128]⟩
abbrev S800000x256 : Shape := ⟨2, ![800000, 256]⟩

abbrev nBuf : Space → Nat
  | .hbm => 143
  | .vmem => 0
  | .smem => 0
  | _ => 0

abbrev hbmTy0_0 (i : Nat) : BufTy := match i % 128 with
  | 0 => ⟨S50000x1, .f32⟩
  | 1 => ⟨S800000x1, .f32⟩
  | 2 => ⟨S2x800000, .i32⟩
  | 3 => ⟨S1x128, .f32⟩
  | 4 => ⟨S128, .f32⟩
  | 5 => ⟨S128x1, .f32⟩
  | 6 => ⟨S1, .f32⟩
  | 7 => ⟨S1x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S256x1, .f32⟩
  | 18 => ⟨S1, .f32⟩
  | 19 => ⟨S800000x128, .f32⟩
  | 20 => ⟨S1x128, .f32⟩
  | 21 => ⟨S800000x128, .f32⟩
  | 22 => ⟨S800000x128, .f32⟩
  | 23 => ⟨S1x800000, .i32⟩
  | 24 => ⟨S800000, .i32⟩
  | 25 => ⟨S1x800000, .i32⟩
  | 26 => ⟨S800000, .i32⟩
  | 27 => ⟨S800000x1, .f32⟩
  | 28 => ⟨S1x1, .f32⟩
  | 29 => ⟨S800000x1, .f32⟩
  | 30 => ⟨S800000x1, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x1, .f32⟩
  | 40 => ⟨S800000x1, .f32⟩
  | 41 => ⟨S_, .f32⟩
  | 42 => ⟨S800000x1, .f32⟩
  | 43 => ⟨S800000x1, .f32⟩
  | 44 => ⟨S_, .f32⟩
  | 45 => ⟨S50000x1, .f32⟩
  | 46 => ⟨S800000x1, .i32⟩
  | 47 => ⟨S50000x1, .f32⟩
  | 48 => ⟨S50000x1, .f32⟩
  | 49 => ⟨S50000x128, .f32⟩
  | 50 => ⟨S1x128, .f32⟩
  | 51 => ⟨S50000x128, .f32⟩
  | 52 => ⟨S50000x128, .f32⟩
  | 53 => ⟨S1x800000, .i32⟩
  | 54 => ⟨S800000, .i32⟩
  | 55 => ⟨S1x800000, .i32⟩
  | 56 => ⟨S800000, .i32⟩
  | 57 => ⟨S800000x128, .f32⟩
  | 58 => ⟨S1x128, .f32⟩
  | 59 => ⟨S800000x128, .f32⟩
  | 60 => ⟨S800000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S800000x128, .f32⟩
  | 71 => ⟨S_, .f32⟩
  | 72 => ⟨S800000x128, .f32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S1x800000, .i32⟩
  | 87 => ⟨S800000, .i32⟩
  | 88 => ⟨S1x800000, .i32⟩
  | 89 => ⟨S800000, .i32⟩
  | 90 => ⟨S800000x128, .f32⟩
  | 91 => ⟨S1x128, .f32⟩
  | 92 => ⟨S800000x128, .f32⟩
  | 93 => ⟨S800000x128, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S800000x128, .f32⟩
  | 104 => ⟨S_, .f32⟩
  | 105 => ⟨S800000x128, .f32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S1x800000, .i32⟩
  | 117 => ⟨S800000, .i32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x128, .f32⟩
  | 127 => ⟨S1x800000, .i32⟩
  | _ => ⟨S50000x1, .f32⟩

abbrev hbmTy0_1 (i : Nat) : BufTy := match i % 128 with
  | 0 => ⟨S800000, .i32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S800000x256, .f32⟩
  | 11 => ⟨S800000x1, .f32⟩
  | 12 => ⟨S1x1, .f32⟩
  | 13 => ⟨S800000x1, .f32⟩
  | 14 => ⟨S800000x1, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call0_cst : Ref sig .tc := ⟨.hbm, 41, rfl⟩
abbrev main_call0_v0 : Ref sig .tc := ⟨.hbm, 42, rfl⟩
abbrev main_v20 : Ref sig .tc := ⟨.hbm, 43, rfl⟩
abbrev main_cst : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_1 : Ref sig .tc := ⟨.hbm, 61, rfl⟩
abbrev main_v37 : Ref sig .tc := ⟨.hbm, 62, rfl⟩
abbrev main_v38 : Ref sig .tc := ⟨.hbm, 63, rfl⟩
abbrev main_c_2 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call1_cst : Ref sig .tc := ⟨.hbm, 71, rfl⟩
abbrev main_call1_v0 : Ref sig .tc := ⟨.hbm, 72, rfl⟩
abbrev main_v45 : Ref sig .tc := ⟨.hbm, 73, rfl⟩
abbrev main_cst_3 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call2_cst : Ref sig .tc := ⟨.hbm, 83, rfl⟩
abbrev main_call2_v0 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_4 : Ref sig .tc := ⟨.hbm, 94, rfl⟩
abbrev main_v63 : Ref sig .tc := ⟨.hbm, 95, rfl⟩
abbrev main_v64 : Ref sig .tc := ⟨.hbm, 96, rfl⟩
abbrev main_c_5 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call3_cst : Ref sig .tc := ⟨.hbm, 104, rfl⟩
abbrev main_call3_v0 : Ref sig .tc := ⟨.hbm, 105, rfl⟩
abbrev main_v71 : Ref sig .tc := ⟨.hbm, 106, rfl⟩
abbrev main_cst_6 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_7 : Ref sig .tc := ⟨.hbm, 118, rfl⟩
abbrev main_v82 : Ref sig .tc := ⟨.hbm, 119, rfl⟩
abbrev main_v83 : Ref sig .tc := ⟨.hbm, 120, rfl⟩
abbrev main_c_8 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_9 : Ref sig .tc := ⟨.hbm, 129, rfl⟩
abbrev main_v91 : Ref sig .tc := ⟨.hbm, 130, rfl⟩
abbrev main_v92 : Ref sig .tc := ⟨.hbm, 131, rfl⟩
abbrev main_c_10 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S_S50000x1 : S_.BroadcastsInDim S50000x1 (![] : Fin 0 → Fin S50000x1.rank)
  bcast_S1x128_S50000x128_0_1 : S1x128.BroadcastsInDim S50000x128 (![0, 1] : Fin 2 → Fin S50000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S800000x128_S800000x128_S800000x256_d1 : Shape.Concatenates [S800000x128, S800000x128] S800000x256 1
  dot_S800000x1_S1x128_S800000x128_1_0_0_1_n_n_wf : DotDims.WF S800000x1 S1x128 S800000x128 [1] [0] [0] [1] [] []
  dot_S800000x128_S128x1_S800000x1_1_0_0_1_n_n_wf : DotDims.WF S800000x128 S128x1 S800000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  dot_S50000x1_S1x128_S50000x128_1_0_0_1_n_n_wf : DotDims.WF S50000x1 S1x128 S50000x128 [1] [0] [0] [1] [] []
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S800000x256_S256x1_S800000x1_1_0_0_1_n_n_wf : DotDims.WF S800000x256 S256x1 S800000x1 [1] [0] [0] [1] [] []

variable [Facts₀]

def dot_S800000x1_S1x128_S800000x128_1_0_0_1_n_n : DotDims S800000x1 S1x128 S800000x128 where
  lhsContracting := [1]
  rhsContracting := [0]
  lhsNonContracting := [0]
  rhsNonContracting := [1]
  lhsBatch := []
  rhsBatch := []
  wf := dot_S800000x1_S1x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x1_S1x128_S50000x128_1_0_0_1_n_n : DotDims S50000x1 S1x128 S50000x128 where
  lhsContracting := [1]
  rhsContracting := [0]
  lhsNonContracting := [0]
  rhsNonContracting := [1]
  lhsBatch := []
  rhsBatch := []
  wf := dot_S50000x1_S1x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x256_S256x1_S800000x1_1_0_0_1_n_n : DotDims S800000x256 S256x1 S800000x1 where
  lhsContracting := [1]
  rhsContracting := [0]
  lhsNonContracting := [0]
  rhsNonContracting := [1]
  lhsBatch := []
  rhsBatch := []
  wf := dot_S800000x256_S256x1_S800000x1_1_0_0_1_n_n_wf

class Facts : Prop extends Facts₀ where

variable [Facts]
-- ==== Proof.KernelRun.lean ====
/-
  The idealized kernel's run with its result named.

  @main is sixteen segments: eight stretches of host operations and eight kernel regions in alternation. The run
  of the segments leaves every buffer that outlives a region at the last boundary's contents, the fold of all
  sixteen segments over the launch memory (`run_boundary`: any property of the final memory that follows from that
  holds after every weakly fair execution). Read at the result buffer this says what the execution leaves there;
  read at an argument it says the argument is as launched (`run_value`).
-/
import proofs.«107775_j22110491640097_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, in a memory that holds every buffer outliving
    the regions at the last boundary's contents; so any property `Q` of final memories that follows from this holds. -/
theorem run_boundary {Q : PUnit × MemSt nD τ sig (Elt F) → Prop}
    (hQ : ∀ s : MemSt nD τ sig (Elt F),
      (∀ c : Dev nD, ∀ b ∈ Pipeline.ucRefs τ sig, s.mem (((c : Thread nD τ)).1, b) = W16 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := hQ)

/-- The result buffer ends at the last boundary's contents and every argument as launched. -/
theorem run_value : θ_run defs (onTc (τ := τ) (main (F := F))) ⟨m, fun _ => 0, ρ⟩ (fun r => ∀ c : Dev nD,
      r.2.mem ((c.tc : Thread nD τ).loc main_v76) = W16 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  run_boundary m ρ (fun s h c =>
      ⟨h c _ (mem_uc main_v76 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c),
       (h c _ (mem_uc main_arg18 (by decide))).trans (W16_main_arg18 m ρ c)⟩)

end Cert.KernelIdeal.ValueRun

end
-- ==== Proof.Folds.lean ====
/-
  The two places where the kernel arranges its arithmetic differently from the reference, as functions of whole
  arrays read index by index on the extended reals.

  The edge layer. The reference embeds each edge attribute a into 128 features a·w_h + b_h and then applies a linear
  layer L with bias: e(i, j) = (∑_h (a_i·w_h + b_h)·L(h, j)) + lb_j. The kernel folds the two steps into one affine
  map of the attribute: with W(j) = ∑_h w_h·L(h, j) and B(j) = (∑_h b_h·L(h, j)) + lb_j it stores a_i·W(j) + B(j).
  `edgeFold` is that stored array as a function of the attribute column and the two folded rows.

  The messages and the node projections are the same arithmetic on both sides; `msgFold`, `projFold` and
  `projReluFold` name them entry by entry so that a kernel's blocks and the host's whole arrays can both be read as them.

  The decoder. The reference joins the two gathered 128-wide rows of an edge into one 256-wide row and contracts it
  with a [256, 1] weight; the kernel contracts each half with its half of the weight and adds the two sums, then
  the bias. `decodeFold` is the kernel's arrangement.
-/
import Idealize.ShloMosaic.Lib.ValueIdx
import Idealize.ShloMosaic.PureOps.Ideal

noncomputable section

open scoped BigOperators

namespace Cert.Bridge

open Idealize.ShloMosaic Idealize.ShloMosaic.ValueIdx

/-- Every entry of the array is a real number. -/
def IsReal {s : Shape} (a : s.Idx → EReal) : Prop := ∀ i, ∃ r : ℝ, a i = (r : EReal)

/-- The folded edge layer at width `N`: entry (i, j) is a(i, 0)·w(0, j) + b(0, j). -/
def edgeFold {E N : ℕ} (a : (⟨2, ![E, 1]⟩ : Shape).Idx → EReal) (w b : (⟨2, ![1, N]⟩ : Shape).Idx → EReal) :
    (⟨2, ![E, N]⟩ : Shape).Idx → EReal :=
  fun i => a (ix2 (i 0) (0 : Fin 1)) * w (ix2 (0 : Fin 1) (i 1)) + b (ix2 (0 : Fin 1) (i 1))

theorem edgeFold_ix2 {E N : ℕ} (a : (⟨2, ![E, 1]⟩ : Shape).Idx → EReal) (w b : (⟨2, ![1, N]⟩ : Shape).Idx → EReal)
    (r : Fin E) (j : Fin N) :
    edgeFold a w b (ix2 r j) = a (ix2 r (0 : Fin 1)) * w (ix2 (0 : Fin 1) j) + b (ix2 (0 : Fin 1) j) := rfl

/-- The decoder in two halves: entry (i, 0) is (∑ₖ h1(i, k)·w1(k, 0) + ∑ₖ h2(i, k)·w2(k, 0)) + b(0, 0). -/
def decodeFold {E K : ℕ} (h1 h2 : (⟨2, ![E, K]⟩ : Shape).Idx → EReal) (w1 w2 : (⟨2, ![K, 1]⟩ : Shape).Idx → EReal)
    (b : (⟨2, ![1, 1]⟩ : Shape).Idx → EReal) : (⟨2, ![E, 1]⟩ : Shape).Idx → EReal :=
  fun i => ((∑ k : Fin K, h1 (ix2 (i 0) k) * w1 (ix2 k (0 : Fin 1)))
      + (∑ k : Fin K, h2 (ix2 (i 0) k) * w2 (ix2 k (0 : Fin 1)))) + b (ix2 (0 : Fin 1) (0 : Fin 1))

theorem decodeFold_ix2 {E K : ℕ} (h1 h2 : (⟨2, ![E, K]⟩ : Shape).Idx → EReal) (w1 w2 : (⟨2, ![K, 1]⟩ : Shape).Idx → EReal)
    (b : (⟨2, ![1, 1]⟩ : Shape).Idx → EReal) (r : Fin E) :
    decodeFold h1 h2 w1 w2 b (ix2 r (0 : Fin 1))
      = ((∑ k : Fin K, h1 (ix2 r k) * w1 (ix2 k (0 : Fin 1))) + (∑ k : Fin K, h2 (ix2 r k) * w2 (ix2 k (0 : Fin 1))))
        + b (ix2 (0 : Fin 1) (0 : Fin 1)) := rfl

/-- The f32 zero word on the extended reals. -/
abbrev zeroW : EReal := Ideal.ofBits .f32 0x00000000#32

/-- A message: the rectified sum of a gathered feature and an edge feature, entry by entry. -/
def msgFold {s : Shape} (x e : s.Idx → EReal) : s.Idx → EReal := fun i => max (x i + e i) zeroW

/-- A node projection: entry (r, j) is (∑ₖ (x(r, k) + a(r, k))·w(k, j)) + b(0, j). -/
def projFold {n K N : ℕ} (x a : (⟨2, ![n, K]⟩ : Shape).Idx → EReal) (w : (⟨2, ![K, N]⟩ : Shape).Idx → EReal)
    (b : (⟨2, ![1, N]⟩ : Shape).Idx → EReal) : (⟨2, ![n, N]⟩ : Shape).Idx → EReal :=
  fun i => (∑ k : Fin K, (x (ix2 (i 0) k) + a (ix2 (i 0) k)) * w (ix2 k (i 1))) + b (ix2 (0 : Fin 1) (i 1))

theorem projFold_ix2 {n K N : ℕ} (x a : (⟨2, ![n, K]⟩ : Shape).Idx → EReal) (w : (⟨2, ![K, N]⟩ : Shape).Idx → EReal)
    (b : (⟨2, ![1, N]⟩ : Shape).Idx → EReal) (r : Fin n) (j : Fin N) :
    projFold x a w b (ix2 r j) = (∑ k : Fin K, (x (ix2 r k) + a (ix2 r k)) * w (ix2 k j)) + b (ix2 (0 : Fin 1) j) := rfl

/-- The rectified node projection. -/
def projReluFold {n K N : ℕ} (x a : (⟨2, ![n, K]⟩ : Shape).Idx → EReal) (w : (⟨2, ![K, N]⟩ : Shape).Idx → EReal)
    (b : (⟨2, ![1, N]⟩ : Shape).Idx → EReal) : (⟨2, ![n, N]⟩ : Shape).Idx → EReal :=
  fun i => max (projFold x a w b i) zeroW

end Cert.Bridge

end
-- ==== Proof.LibFiniteEntry.lean ====
/-
  An extended real whose absolute value is below +∞ is a real number.

  A precondition "every input is finite" is stated entry by entry as the comparison |x| < +∞, with |x| = max x (−x) and
  +∞ given by its float pattern.  At an infinity the absolute value is +∞ and the comparison fails; so an entry that
  passes it is neither infinity.
-/
import Idealize.ShloMosaic.PureOps.Ideal

noncomputable section

namespace Idealize.ShloMosaic.FiniteEntry

/-- The f32 pattern 0x7F800000 is +∞. -/
theorem pinf_f32 : Ideal.ofBits .f32 0x7F800000#32 = ⊤ := by simp [Ideal.ofBits, Ideal.ieee]

/-- An extended real whose absolute value compares (ordered, less-than) below the pattern of +∞ is a real. -/
theorem real_of_abs_lt_inf (x : EReal) (h : Ideal.cmp .olt (max x (-x)) (Ideal.ofBits .f32 0x7F800000#32) = 1#1) :
    ∃ r : ℝ, x = (r : EReal) := by
  rw [pinf_f32] at h
  change BitVec.ofBool (decide (max x (-x) < (⊤ : EReal))) = 1#1 at h
  have hlt : max x (-x) < (⊤ : EReal) := by
    by_contra hn
    rw [show decide (max x (-x) < (⊤ : EReal)) = false from decide_eq_false hn] at h
    exact absurd h (by decide)
  induction x using EReal.rec with
  | bot => exact absurd hlt (by simp)
  | coe r => exact ⟨r, rfl⟩
  | top => exact absurd hlt (by simp)

end Idealize.ShloMosaic.FiniteEntry

end
-- ==== Proof.RealInputs.lean ====
/-
  Finite inputs are arrays of real numbers.

  The precondition says, array by array, that every entry passes the comparison |x| < +∞, where |x| = max x (−x) and +∞
  is given by its f32 pattern; the per-array verdicts (each the conjunction of the entrywise verdicts over the whole
  array) are joined by "and", and the result is required to be true. A conjunction that is true has every conjunct
  true, so each array's verdict is true, so each of its entries passes the comparison; and an extended real whose
  absolute value is below +∞ is neither infinity, that is, a real number. The statement collects this for the nine
  arrays the folded edge layers read.
-/
import proofs.«107775_j22110491640097_1_alg».proof.Defs
import proofs.«107775_j22110491640097_1_alg».proof.Proof.Folds
import proofs.«107775_j22110491640097_1_alg».proof.Proof.LibFiniteEntry
import Idealize.ShloMosaic.Lib.ReduceAll

noncomputable section

namespace Cert.Bridge

open Idealize.ShloMosaic Idealize.ShloMosaic.ValueIdx

/-- The shape with no axes has exactly one index. -/
instance subsingleton_scalar_idx : Subsingleton (⟨0, ![]⟩ : Shape).Idx := ⟨fun _ _ => funext fun d => d.elim0⟩

/-- An array whose entrywise comparison |x| < +∞ has a true conjunction over all its entries has only real entries. -/
theorem real_of_all {s : Shape} {axes : List (Fin s.rank)} (x : FVec Ideal s .f32)
    (bc : (⟨0, ![]⟩ : Shape).BroadcastsInDim s ![]) (hr : s.ReducesTo axes (⟨0, ![]⟩ : Shape))
    (hu : 0 < (⟨0, ![]⟩ : Shape).numel) (init : IVec (⟨0, ![]⟩ : Shape) 1)
    (e : Host.reduce IntOp.andi
        (cmpf .olt (Host.absf x) (broadcastInDim s ![] bc (constant (F := Ideal) (⟨0, ![]⟩ : Shape) .f32 0x7F800000#32)))
        init hr hu ix0 = 1#1) :
    IsReal x := fun i =>
  FiniteEntry.real_of_abs_lt_inf (x i) (Host.reduce_andi_all _ init hr hu ix0 e i)

/-- Under the precondition, the nine arrays the folded edge layers read hold real numbers only. -/
theorem real_inputs [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    IsReal (s := Cert.KernelIdeal.S800000x1) (m ((c.tc : Thread Cert.KernelIdeal.nD Cert.KernelIdeal.τ).loc Cert.KernelIdeal.main_arg1))
    ∧ IsReal (s := Cert.KernelIdeal.S1x128) (m ((c.tc : Thread Cert.KernelIdeal.nD Cert.KernelIdeal.τ).loc Cert.KernelIdeal.main_arg3))
    ∧ IsReal (s := Cert.KernelIdeal.S128) (m ((c.tc : Thread Cert.KernelIdeal.nD Cert.KernelIdeal.τ).loc Cert.KernelIdeal.main_arg4))
    ∧ IsReal (s := Cert.KernelIdeal.S128x1) (m ((c.tc : Thread Cert.KernelIdeal.nD Cert.KernelIdeal.τ).loc Cert.KernelIdeal.main_arg5))
    ∧ IsReal (s := Cert.KernelIdeal.S1) (m ((c.tc : Thread Cert.KernelIdeal.nD Cert.KernelIdeal.τ).loc Cert.KernelIdeal.main_arg6))
    ∧ IsReal (s := Cert.KernelIdeal.S128x128) (m ((c.tc : Thread Cert.KernelIdeal.nD Cert.KernelIdeal.τ).loc Cert.KernelIdeal.main_arg9))
    ∧ IsReal (s := Cert.KernelIdeal.S128) (m ((c.tc : Thread Cert.KernelIdeal.nD Cert.KernelIdeal.τ).loc Cert.KernelIdeal.main_arg10))
    ∧ IsReal (s := Cert.KernelIdeal.S128x128) (m ((c.tc : Thread Cert.KernelIdeal.nD Cert.KernelIdeal.τ).loc Cert.KernelIdeal.main_arg13))
    ∧ IsReal (s := Cert.KernelIdeal.S128) (m ((c.tc : Thread Cert.KernelIdeal.nD Cert.KernelIdeal.τ).loc Cert.KernelIdeal.main_arg14)) := by
  have h0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5, andi] at h0
  simp only [IntOp.andi_eq_one] at h0
  obtain ⟨⟨⟨⟨⟨⟨⟨⟨⟨⟨⟨⟨⟨⟨⟨⟨⟨_, a1⟩, a3⟩, a4⟩, a5⟩, a6⟩, _⟩, _⟩, a9⟩, a10⟩, _⟩, _⟩, a13⟩, a14⟩, _⟩, _⟩, _⟩, _⟩ := h0
  exact ⟨real_of_all _ _ _ _ _ a1, real_of_all _ _ _ _ _ a3, real_of_all _ _ _ _ _ a4, real_of_all _ _ _ _ _ a5,
    real_of_all _ _ _ _ _ a6, real_of_all _ _ _ _ _ a9, real_of_all _ _ _ _ _ a10, real_of_all _ _ _ _ _ a13,
    real_of_all _ _ _ _ _ a14⟩

end Cert.Bridge

end
-- ==== Proof.RegionCommon.lean ====
/-
  Facts shared by the regions' closed forms: the origin of every block, and how a value built from arrays read at
  a block's own indices is the whole-array value read at the output block's index once the blocks are aligned.
-/
import proofs.«107775_j22110491640097_1_alg».proof.Proof.Folds
import Idealize.ShloMosaic.Lib.Pipeline.Value
import Idealize.ShloMosaic.Lib.ValueIdx

set_option maxRecDepth 16384

noncomputable section

namespace Cert.KernelIdeal.Regions

open Cert.Bridge Idealize.ShloMosaic Idealize.ShloMosaic.ValueIdx
open scoped BigOperators

theorem origin2 : (![0, 0] : Fin 2 → Nat) = fun _ => 0 := funext fun a => by fin_cases a <;> rfl

/-- Two arrays read at indices that agree with a third are the rectified sum read at the third. -/
theorem msg_read {s : Shape} (X E : s.Idx → EReal) (i0 i1 i2 : s.Idx) (h0 : i0 = i2) (h1 : i1 = i2) :
    max (X i0 + E i1) zeroW = msgFold X E i2 := by subst h0 h1; rfl

/-- A projection entry assembled from arrays read at indices that are, coordinate by coordinate, row r of the
    features, column j of the weight and entry j of the bias row, is the projection read at (r, j). -/
theorem proj_read {n K N : ℕ} (X A : (⟨2, ![n, K]⟩ : Shape).Idx → EReal) (W : (⟨2, ![K, N]⟩ : Shape).Idx → EReal)
    (B : (⟨2, ![1, N]⟩ : Shape).Idx → EReal)
    (fx fa : Fin K → (⟨2, ![n, K]⟩ : Shape).Idx) (fw : Fin K → (⟨2, ![K, N]⟩ : Shape).Idx) (ib : (⟨2, ![1, N]⟩ : Shape).Idx)
    (r : Fin n) (j : Fin N) (io : (⟨2, ![n, N]⟩ : Shape).Idx)
    (hx : ∀ k, fx k = ix2 r k) (ha : ∀ k, fa k = ix2 r k) (hw : ∀ k, fw k = ix2 k j) (hb : ib = ix2 (0 : Fin 1) j) (ho : io = ix2 r j) :
    (∑ k : Fin K, (X (fx k) + A (fa k)) * W (fw k)) + B ib = projFold X A W B io := by
  subst hb ho
  simp only [hx, ha, hw]
  rfl

/-- The same under the maximum with zero. -/
theorem projRelu_read {n K N : ℕ} (X A : (⟨2, ![n, K]⟩ : Shape).Idx → EReal) (W : (⟨2, ![K, N]⟩ : Shape).Idx → EReal)
    (B : (⟨2, ![1, N]⟩ : Shape).Idx → EReal)
    (fx fa : Fin K → (⟨2, ![n, K]⟩ : Shape).Idx) (fw : Fin K → (⟨2, ![K, N]⟩ : Shape).Idx) (ib : (⟨2, ![1, N]⟩ : Shape).Idx)
    (r : Fin n) (j : Fin N) (io : (⟨2, ![n, N]⟩ : Shape).Idx)
    (hx : ∀ k, fx k = ix2 r k) (ha : ∀ k, fa k = ix2 r k) (hw : ∀ k, fw k = ix2 k j) (hb : ib = ix2 (0 : Fin 1) j) (ho : io = ix2 r j) :
    max ((∑ k : Fin K, (X (fx k) + A (fa k)) * W (fw k)) + B ib) zeroW = projReluFold X A W B io :=
  congrArg (fun z => max z zeroW) (proj_read X A W B fx fa fw ib r j io hx ha hw hb ho)

end Cert.KernelIdeal.Regions

end
-- ==== Proof.Region5.lean ====
/-
  Region 5: the third layer's messages. Each of the 200 grid points loads rows 4000·t … 4000·t + 3999 of the
  gathered node features and of the layer's edge features, adds them, takes the maximum with zero and writes the same
  rows of the message array. So the message array ends as max(x + e, 0) entry by entry, whatever the region finds
  in its two input arrays.
-/
import proofs.«107775_j22110491640097_1_alg».proof.Proof.Gen.KernelIdeal.Frame
import proofs.«107775_j22110491640097_1_alg».proof.Proof.RegionCommon

set_option maxRecDepth 16384

noncomputable section

namespace Cert.KernelIdeal.Regions

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's stored value at an entry: the rectified sum of the two loaded blocks' entries. -/
theorem msg5_entry (x0 x1 : Vec Ideal S4000x128 .f32) (y : S4000x128.Idx) :
    k5_pay1 x0 x1 y = max (x0 y + x1 y) zeroW := by
  unfold k5_pay1
  simp only [shapeCast_self]
  rfl

/-- Point t's three blocks sit at rows 4000·t of their arrays. -/
theorem rows5 : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) = t.val ∧ win5_2.index t (1 : Fin 2) = 0 :=
  (by decide +kernel : ∀ t : Fin grid5.N, _)

/-- What point t writes back is block t of the rectified sum of the two arrays. -/
theorem written5 (c : Dev nD) (t : Fin cfg5.N) :
    (dat5 V c).flushed 2 t
      = ((cfg5.win 2).blk t).view.read (Elt Ideal) (msgFold (V c main_v52 : S800000x128.Idx → EReal) (V c main_v19_2 : S800000x128.Idx → EReal)) := by
  show (cfg5.win 2).cut (grid5.coords t) ((dat5 V c).after 2 t) = _
  rw [after5_2]
  unfold out5_2
  rw [View.canon_unit_zero origin2]
  simp only [View.ld_unit_zero (S := S4000x128) origin2]
  obtain ⟨e0, e1, e2, e3, e4, e5⟩ := rows5 t
  funext j
  have h0 : ((cfg5.win 0).blk t).view.emb j = ((cfg5.win 2).blk t).view.emb j := by
    funext a; apply Fin.ext
    match a with
    | ⟨0, _⟩ => show win5_0.index t (0 : Fin 2) * 4000 + 1 * (j 0).val = win5_2.index t (0 : Fin 2) * 4000 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb j = ((cfg5.win 2).blk t).view.emb j := by
    funext a; apply Fin.ext
    match a with
    | ⟨0, _⟩ => show win5_1.index t (0 : Fin 2) * 4000 + 1 * (j 0).val = win5_2.index t (0 : Fin 2) * 4000 + 1 * (j 0).val; omega
    | ⟨1, _⟩ => show win5_1.index t (1 : Fin 2) * 128 + 1 * (j 1).val = win5_2.index t (1 : Fin 2) * 128 + 1 * (j 1).val; omega
  refine (msg5_entry _ _ j).trans ?_
  exact msg_read (V c main_v52) (V c main_v19_2) _ _ _ h0 h1

/-- An index of the message array is in point t's block iff each coordinate is in the block's range. -/
theorem inBlock5 (t : Fin cfg5.N) (i : S800000x128.Idx) :
    i ∈ ((cfg5.win 2).blk t).view.set ↔ ∀ a : Fin 2, win5_2.index t a * S4000x128.size a ≤ (i a).val ∧ (i a).val < win5_2.index t a * S4000x128.size a + S4000x128.size a := by
  show i ∈ ((View.whole main_v53).slice (win5_2.rect t)).set ↔ _
  rw [View.set_slice_whole, Rect.mem_set_unit]
  exact Iff.rfl

/-- Row r lies in the block of point r / 4000: the blocks tile the array. -/
theorem tiled5 (i : S800000x128.Idx) : ∃ t : Fin cfg5.N, (cfg5.win 2).flush t = true ∧ i ∈ ((cfg5.win 2).blk t).view.set := by
  have hi0 : (i 0).val < 800000 := (i 0).isLt
  have hi1 : (i 1).val < 128 := (i 1).isLt
  have hN : (i 0).val / 4000 < cfg5.N := by show (i 0).val / 4000 < 200; omega
  obtain ⟨e0, e1, e2, e3, e4, e5⟩ := rows5 ⟨(i 0).val / 4000, hN⟩
  refine ⟨⟨(i 0).val / 4000, hN⟩, flush5_2 _, ?_⟩
  rw [inBlock5]
  intro a
  match a with
  | ⟨0, _⟩ => show win5_2.index ⟨(i 0).val / 4000, hN⟩ (0 : Fin 2) * 4000 ≤ (i 0).val ∧ (i 0).val < win5_2.index ⟨(i 0).val / 4000, hN⟩ (0 : Fin 2) * 4000 + 4000; rw [e4]; show (i 0).val / 4000 * 4000 ≤ (i 0).val ∧ (i 0).val < (i 0).val / 4000 * 4000 + 4000; omega
  | ⟨1, _⟩ => show win5_2.index ⟨(i 0).val / 4000, hN⟩ (1 : Fin 2) * 128 ≤ (i 1).val ∧ (i 1).val < win5_2.index ⟨(i 0).val / 4000, hN⟩ (1 : Fin 2) * 128 + 128; rw [e5]; omega

/-- The message array after the region: the rectified sum of the two input arrays as the region found them. -/
theorem region5_out (c : Dev nD) :
    (dat5 V c).arrAt 2 cfg5.N = msgFold (V c main_v52 : S800000x128.Idx → EReal) (V c main_v19_2 : S800000x128.Idx → EReal) :=
  (dat5 V c).arrAt_eq_of_cover 2 _ (fun t _ => written5 V c t) (tiled5)

end Cert.KernelIdeal.Regions

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«107775_j22110491640097_1_alg».proof.Proof.LibContract
import proofs.«107775_j22110491640097_1_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.Region6.lean ====
/-
  Region 6: the third layer's node projection. Each of the 25 grid points loads rows 2000·t … 2000·t + 1999 of
  the node features and of the aggregated messages, the whole weight matrix and the bias row, and writes the same rows
  of (x + a)·w + b. So the output array ends, entry (r, j), at (∑ₖ (x(r, k) + a(r, k))·w(k, j)) + b(0, j),
  whatever the region finds in its four input arrays.
-/
import proofs.«107775_j22110491640097_1_alg».proof.Proof.Gen.KernelIdeal.Frame
import proofs.«107775_j22110491640097_1_alg».proof.Proof.RegionCommon
import proofs.«107775_j22110491640097_1_alg».proof.Proof.LibDenseVec
import Idealize.ShloMosaic.Lib.ValueLayout

set_option maxRecDepth 16384

noncomputable section

namespace Cert.KernelIdeal.Regions

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The product's dimension record contracts the left operand's columns with the right operand's rows. -/
theorem plain6 : DenseVec.Plain dot_S2000x128_S128x128_S2000x128_1_0_0_1_n_n :=
  ⟨rfl, fun _ => rfl, rfl, rfl,
   fun j q => by
    unfold DotDims.lhsIdx
    rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
    rfl,
   fun j q => by
    unfold DotDims.rhsIdx
    rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
    rfl⟩

/-- The body's stored value at entry (p, j) of its block. -/
theorem proj6_entry (x0 x1 : Vec Ideal S2000x128 .f32) (x2 : Vec Ideal S128x128 .f32) (x3 : Vec Ideal S1x128 .f32) (p : Fin 2000) (j : Fin 128) :
    k6_pay1 x0 x1 x2 x3 (ix2 p j) = (∑ k : Fin 128, (x0 (ix2 p k) + x1 (ix2 p k)) * x2 (ix2 k j)) + x3 (ix2 (0 : Fin 1) j) := by
  unfold k6_pay1
  simp only [shapeCast_self]
  refine (addf_apply _ _ _).trans ?_
  refine congrArg₂ (· + ·) ?_ ?_
  · exact DenseVec.matmul_zero_ix2 plain6 none _ _ p j
  · exact ValueIdx.broadcastTo_1b_ab_apply _ _ p j

/-- Point t's row blocks sit at rows 2000·t; the weight and the bias are whole. -/
theorem rows6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- What point t writes back is block t of the projection of the four arrays. -/
theorem written6 (c : Dev nD) (t : Fin cfg6.N) :
    (dat6 V c).flushed 4 t
      = ((cfg6.win 4).blk t).view.read (Elt Ideal) (projFold (V c main_v45 : S50000x128.Idx → EReal) (V c main_v56 : S50000x128.Idx → EReal) (V c main_arg15 : S128x128.Idx → EReal) (V c main_v57 : S1x128.Idx → EReal)) := by
  show (cfg6.win 4).cut (grid6.coords t) ((dat6 V c).after 4 t) = _
  rw [after6_4]
  unfold out6_4
  rw [View.canon_unit_zero origin2]
  simp only [View.ld_unit_zero (S := S2000x128) origin2, View.ld_unit_zero (S := S128x128) origin2, View.ld_unit_zero (S := S1x128) origin2]
  obtain ⟨e00, e01, e10, e11, e20, e21, e30, e31, e40, e41⟩ := rows6 t
  have ht : t.val < 25 := t.isLt
  funext j
  obtain ⟨p, q, rfl⟩ : ∃ (p : Fin 2000) (q : Fin 128), j = ix2 p q := ⟨j 0, j 1, eq_ix2 j⟩
  refine (proj6_entry _ _ _ _ p q).trans ?_
  have hp : p.val < 2000 := p.isLt
  have hq : q.val < 128 := q.isLt
  refine proj_read (V c main_v45) (V c main_v56) (V c main_arg15) (V c main_v57)
    (fun k => ((cfg6.win 0).blk t).view.emb (ix2 p k)) (fun k => ((cfg6.win 1).blk t).view.emb (ix2 p k))
    (fun k => ((cfg6.win 2).blk t).view.emb (ix2 k q)) (((cfg6.win 3).blk t).view.emb (ix2 (0 : Fin 1) q))
    (⟨t.val * 2000 + p.val, by omega⟩ : Fin 50000) q (((cfg6.win 4).blk t).view.emb (ix2 p q)) ?_ ?_ ?_ ?_ ?_
  · intro k; funext a; apply Fin.ext
    have hk : k.val < 128 := k.isLt
    match a with
    | ⟨0, _⟩ => show win6_0.index t (0 : Fin 2) * 2000 + 1 * p.val = t.val * 2000 + p.val; omega
    | ⟨1, _⟩ => show win6_0.index t (1 : Fin 2) * 128 + 1 * k.val = k.val; omega
  · intro k; funext a; apply Fin.ext
    have hk : k.val < 128 := k.isLt
    match a with
    | ⟨0, _⟩ => show win6_1.index t (0 : Fin 2) * 2000 + 1 * p.val = t.val * 2000 + p.val; omega
    | ⟨1, _⟩ => show win6_1.index t (1 : Fin 2) * 128 + 1 * k.val = k.val; omega
  · intro k; funext a; apply Fin.ext
    have hk : k.val < 128 := k.isLt
    match a with
    | ⟨0, _⟩ => show win6_2.index t (0 : Fin 2) * 128 + 1 * k.val = k.val; omega
    | ⟨1, _⟩ => show win6_2.index t (1 : Fin 2) * 128 + 1 * q.val = q.val; omega
  · funext a; apply Fin.ext
    match a with
    | ⟨0, _⟩ => show win6_3.index t (0 : Fin 2) * 1 + 1 * 0 = 0; omega
    | ⟨1, _⟩ => show win6_3.index t (1 : Fin 2) * 128 + 1 * q.val = q.val; omega
  · funext a; apply Fin.ext
    match a with
    | ⟨0, _⟩ => show win6_4.index t (0 : Fin 2) * 2000 + 1 * p.val = t.val * 2000 + p.val; omega
    | ⟨1, _⟩ => show win6_4.index t (1 : Fin 2) * 128 + 1 * q.val = q.val; omega

/-- An index of the output array is in point t's block iff each coordinate is in the block's range. -/
theorem inBlock6 (t : Fin cfg6.N) (i : S50000x128.Idx) :
    i ∈ ((cfg6.win 4).blk t).view.set ↔ ∀ a : Fin 2, win6_4.index t a * S2000x128.size a ≤ (i a).val ∧ (i a).val < win6_4.index t a * S2000x128.size a + S2000x128.size a := by
  show i ∈ ((View.whole main_v58).slice (win6_4.rect t)).set ↔ _
  rw [View.set_slice_whole, Rect.mem_set_unit]
  exact Iff.rfl

/-- Row r lies in the block of point r / 2000: the blocks tile the array. -/
theorem tiled6 (i : S50000x128.Idx) : ∃ t : Fin cfg6.N, (cfg6.win 4).flush t = true ∧ i ∈ ((cfg6.win 4).blk t).view.set := by
  have hi0 : (i 0).val < 50000 := (i 0).isLt
  have hi1 : (i 1).val < 128 := (i 1).isLt
  have hN : (i 0).val / 2000 < cfg6.N := by show (i 0).val / 2000 < 25; omega
  obtain ⟨e00, e01, e10, e11, e20, e21, e30, e31, e40, e41⟩ := rows6 ⟨(i 0).val / 2000, hN⟩
  refine ⟨⟨(i 0).val / 2000, hN⟩, flush6_4 _, ?_⟩
  rw [inBlock6]
  intro a
  match a with
  | ⟨0, _⟩ => show win6_4.index ⟨(i 0).val / 2000, hN⟩ (0 : Fin 2) * 2000 ≤ (i 0).val ∧ (i 0).val < win6_4.index ⟨(i 0).val / 2000, hN⟩ (0 : Fin 2) * 2000 + 2000; rw [e40]; show (i 0).val / 2000 * 2000 ≤ (i 0).val ∧ (i 0).val < (i 0).val / 2000 * 2000 + 2000; omega
  | ⟨1, _⟩ => show win6_4.index ⟨(i 0).val / 2000, hN⟩ (1 : Fin 2) * 128 ≤ (i 1).val ∧ (i 1).val < win6_4.index ⟨(i 0).val / 2000, hN⟩ (1 : Fin 2) * 128 + 128; rw [e41]; omega

/-- The output array after the region: the projection of the four input arrays as the region found them. -/
theorem region6_out (c : Dev nD) :
    (dat6 V c).arrAt 4 cfg6.N = projFold (V c main_v45 : S50000x128.Idx → EReal) (V c main_v56 : S50000x128.Idx → EReal) (V c main_arg15 : S128x128.Idx → EReal) (V c main_v57 : S1x128.Idx → EReal) :=
  (dat6 V c).arrAt_eq_of_cover 4 _ (fun t _ => written6 V c t) (tiled6)

end Cert.KernelIdeal.Regions

end
-- ==== Proof.Region7.lean ====
/-
  Region 7: the decoder. Each of the 200 grid points loads rows 4000·t … 4000·t + 3999 of the two gathered hidden
  arrays, the two halves of the decoding weight and the bias, and writes the same rows of h1·w1 + h2·w2 + b. So the
  output ends, entry (r, 0), at (∑ₖ h1(r, k)·w1(k, 0) + ∑ₖ h2(r, k)·w2(k, 0)) + b(0, 0), whatever the region finds in
  its five input arrays.
-/
import proofs.«107775_j22110491640097_1_alg».proof.Proof.Gen.KernelIdeal.Frame
import proofs.«107775_j22110491640097_1_alg».proof.Proof.RegionCommon
import proofs.«107775_j22110491640097_1_alg».proof.Proof.LibDenseVec
import Idealize.ShloMosaic.Lib.ValueLayout

set_option maxRecDepth 16384

noncomputable section

namespace Cert.KernelIdeal.Regions

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The product's dimension record contracts the left operand's columns with the right operand's rows. -/
theorem plain7 : DenseVec.Plain dot_S4000x128_S128x1_S4000x1_1_0_0_1_n_n :=
  ⟨rfl, fun _ => rfl, rfl, rfl,
   fun j q => by
    unfold DotDims.lhsIdx
    rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
    rfl,
   fun j q => by
    unfold DotDims.rhsIdx
    rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
    rfl⟩

/-- The body's stored value at entry (p, q) of its block. -/
theorem decode7_entry (x0 x1 : Vec Ideal S4000x128 .f32) (x2 x3 : Vec Ideal S128x1 .f32) (x4 : Vec Ideal S1x1 .f32) (p : Fin 4000) (q : Fin 1) :
    k7_pay1 x0 x1 x2 x3 x4 (ix2 p q)
      = ((∑ k : Fin 128, x0 (ix2 p k) * x2 (ix2 k q)) + (∑ k : Fin 128, x1 (ix2 p k) * x3 (ix2 k q))) + x4 (ix2 (0 : Fin 1) q) := by
  unfold k7_pay1
  simp only [shapeCast_self]
  refine (addf_apply _ _ _).trans ?_
  refine congrArg₂ (· + ·) ?_ ?_
  · refine (addf_apply _ _ _).trans ?_
    refine congrArg₂ (· + ·) ?_ ?_
    · exact DenseVec.matmul_zero_ix2 plain7 none _ _ p q
    · exact DenseVec.matmul_zero_ix2 plain7 none _ _ p q
  · exact ValueIdx.broadcastTo_1b_ab_apply _ _ p q

/-- Point t's row blocks sit at rows 4000·t; the weights and the bias are whole. -/
theorem rows7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- A decoder entry assembled from arrays read at indices that are row r of the two hidden arrays, the columns of
    the two weights and the bias's entry is the decoder read at (r, 0). -/
theorem decode_read {E K : ℕ} (H1 H2 : (⟨2, ![E, K]⟩ : Shape).Idx → EReal) (W1 W2 : (⟨2, ![K, 1]⟩ : Shape).Idx → EReal)
    (B : (⟨2, ![1, 1]⟩ : Shape).Idx → EReal)
    (f1 f2 : Fin K → (⟨2, ![E, K]⟩ : Shape).Idx) (g1 g2 : Fin K → (⟨2, ![K, 1]⟩ : Shape).Idx) (ib : (⟨2, ![1, 1]⟩ : Shape).Idx)
    (r : Fin E) (io : (⟨2, ![E, 1]⟩ : Shape).Idx)
    (h1 : ∀ k, f1 k = ix2 r k) (h2 : ∀ k, f2 k = ix2 r k) (hg1 : ∀ k, g1 k = ix2 k (0 : Fin 1)) (hg2 : ∀ k, g2 k = ix2 k (0 : Fin 1))
    (hb : ib = ix2 (0 : Fin 1) (0 : Fin 1)) (ho : io = ix2 r (0 : Fin 1)) :
    ((∑ k : Fin K, H1 (f1 k) * W1 (g1 k)) + (∑ k : Fin K, H2 (f2 k) * W2 (g2 k))) + B ib = decodeFold H1 H2 W1 W2 B io := by
  subst hb ho
  simp only [h1, h2, hg1, hg2]
  rfl

/-- What point t writes back is block t of the decoder of the five arrays. -/
theorem written7 (c : Dev nD) (t : Fin cfg7.N) :
    (dat7 V c).flushed 5 t
      = ((cfg7.win 5).blk t).view.read (Elt Ideal) (decodeFold (V c main_v65 : S800000x128.Idx → EReal) (V c main_v72 : S800000x128.Idx → EReal)
          (V c main_v73 : S128x1.Idx → EReal) (V c main_v74 : S128x1.Idx → EReal) (V c main_v75 : S1x1.Idx → EReal)) := by
  show (cfg7.win 5).cut (grid7.coords t) ((dat7 V c).after 5 t) = _
  rw [after7_5]
  unfold out7_5
  rw [View.canon_unit_zero origin2]
  simp only [View.ld_unit_zero (S := S4000x128) origin2, View.ld_unit_zero (S := S128x1) origin2, View.ld_unit_zero (S := S1x1) origin2]
  obtain ⟨e00, e01, e10, e11, e20, e21, e30, e31, e40, e41, e50, e51⟩ := rows7 t
  have ht : t.val < 200 := t.isLt
  funext j
  obtain ⟨p, q, rfl⟩ : ∃ (p : Fin 4000) (q : Fin 1), j = ix2 p q := ⟨j 0, j 1, eq_ix2 j⟩
  refine (decode7_entry _ _ _ _ _ p q).trans ?_
  have hp : p.val < 4000 := p.isLt
  have hq : q.val < 1 := q.isLt
  refine decode_read (V c main_v65) (V c main_v72) (V c main_v73) (V c main_v74) (V c main_v75)
    (fun k => ((cfg7.win 0).blk t).view.emb (ix2 p k)) (fun k => ((cfg7.win 1).blk t).view.emb (ix2 p k))
    (fun k => ((cfg7.win 2).blk t).view.emb (ix2 k q)) (fun k => ((cfg7.win 3).blk t).view.emb (ix2 k q))
    (((cfg7.win 4).blk t).view.emb (ix2 (0 : Fin 1) q))
    (⟨t.val * 4000 + p.val, by omega⟩ : Fin 800000) (((cfg7.win 5).blk t).view.emb (ix2 p q)) ?_ ?_ ?_ ?_ ?_ ?_
  · intro k; funext a; apply Fin.ext
    have hk : k.val < 128 := k.isLt
    match a with
    | ⟨0, _⟩ => show win7_0.index t (0 : Fin 2) * 4000 + 1 * p.val = t.val * 4000 + p.val; omega
    | ⟨1, _⟩ => show win7_0.index t (1 : Fin 2) * 128 + 1 * k.val = k.val; omega
  · intro k; funext a; apply Fin.ext
    have hk : k.val < 128 := k.isLt
    match a with
    | ⟨0, _⟩ => show win7_1.index t (0 : Fin 2) * 4000 + 1 * p.val = t.val * 4000 + p.val; omega
    | ⟨1, _⟩ => show win7_1.index t (1 : Fin 2) * 128 + 1 * k.val = k.val; omega
  · intro k; funext a; apply Fin.ext
    have hk : k.val < 128 := k.isLt
    match a with
    | ⟨0, _⟩ => show win7_2.index t (0 : Fin 2) * 128 + 1 * k.val = k.val; omega
    | ⟨1, _⟩ => show win7_2.index t (1 : Fin 2) * 1 + 1 * q.val = 0; omega
  · intro k; funext a; apply Fin.ext
    have hk : k.val < 128 := k.isLt
    match a with
    | ⟨0, _⟩ => show win7_3.index t (0 : Fin 2) * 128 + 1 * k.val = k.val; omega
    | ⟨1, _⟩ => show win7_3.index t (1 : Fin 2) * 1 + 1 * q.val = 0; omega
  · funext a; apply Fin.ext
    match a with
    | ⟨0, _⟩ => show win7_4.index t (0 : Fin 2) * 1 + 1 * 0 = 0; omega
    | ⟨1, _⟩ => show win7_4.index t (1 : Fin 2) * 1 + 1 * q.val = 0; omega
  · funext a; apply Fin.ext
    match a with
    | ⟨0, _⟩ => show win7_5.index t (0 : Fin 2) * 4000 + 1 * p.val = t.val * 4000 + p.val; omega
    | ⟨1, _⟩ => show win7_5.index t (1 : Fin 2) * 1 + 1 * q.val = 0; omega

/-- An index of the output array is in point t's block iff each coordinate is in the block's range. -/
theorem inBlock7 (t : Fin cfg7.N) (i : S800000x1.Idx) :
    i ∈ ((cfg7.win 5).blk t).view.set ↔ ∀ a : Fin 2, win7_5.index t a * S4000x1.size a ≤ (i a).val ∧ (i a).val < win7_5.index t a * S4000x1.size a + S4000x1.size a := by
  show i ∈ ((View.whole main_v76).slice (win7_5.rect t)).set ↔ _
  rw [View.set_slice_whole, Rect.mem_set_unit]
  exact Iff.rfl

/-- Row r lies in the block of point r / 4000: the blocks tile the array. -/
theorem tiled7 (i : S800000x1.Idx) : ∃ t : Fin cfg7.N, (cfg7.win 5).flush t = true ∧ i ∈ ((cfg7.win 5).blk t).view.set := by
  have hi0 : (i 0).val < 800000 := (i 0).isLt
  have hi1 : (i 1).val < 1 := (i 1).isLt
  have hN : (i 0).val / 4000 < cfg7.N := by show (i 0).val / 4000 < 200; omega
  obtain ⟨e00, e01, e10, e11, e20, e21, e30, e31, e40, e41, e50, e51⟩ := rows7 ⟨(i 0).val / 4000, hN⟩
  refine ⟨⟨(i 0).val / 4000, hN⟩, flush7_5 _, ?_⟩
  rw [inBlock7]
  intro a
  match a with
  | ⟨0, _⟩ => show win7_5.index ⟨(i 0).val / 4000, hN⟩ (0 : Fin 2) * 4000 ≤ (i 0).val ∧ (i 0).val < win7_5.index ⟨(i 0).val / 4000, hN⟩ (0 : Fin 2) * 4000 + 4000; rw [e50]; show (i 0).val / 4000 * 4000 ≤ (i 0).val ∧ (i 0).val < (i 0).val / 4000 * 4000 + 4000; omega
  | ⟨1, _⟩ => show win7_5.index ⟨(i 0).val / 4000, hN⟩ (1 : Fin 2) * 1 ≤ (i 1).val ∧ (i 1).val < win7_5.index ⟨(i 0).val / 4000, hN⟩ (1 : Fin 2) * 1 + 1; rw [e51]; omega

/-- The output array after the region: the decoder of the five input arrays as the region found them. -/
theorem region7_out (c : Dev nD) :
    (dat7 V c).arrAt 5 cfg7.N = decodeFold (V c main_v65 : S800000x128.Idx → EReal) (V c main_v72 : S800000x128.Idx → EReal)
      (V c main_v73 : S128x1.Idx → EReal) (V c main_v74 : S128x1.Idx → EReal) (V c main_v75 : S1x1.Idx → EReal) :=
  (dat7 V c).arrAt_eq_of_cover 5 _ (fun t _ => written7 V c t) tiled7

end Cert.KernelIdeal.Regions

end
-- ==== Proof.HostProj.lean ====
/-
  The node projection in the host's spelling.

  A node layer adds the aggregated messages a to the node features x and applies a linear map with bias:
      p(r, j) = (∑ k, (x(r, k) + a(r, k))·w(k, j)) + b_j,
  and, where the layer is rectified, max(p(r, j), 0). The host writes the sum x + a entry by entry, contracts its columns
  with the rows of w, and lays the bias vector along every row in two steps (under a unit axis, then down the rows); the
  other spelling keeps the bias as a one-row matrix, the vector cast to [1, N], and reads its row 0. Read at an entry
  the two are the same expression: the contraction is the sum over the shared axis, the entrywise sum read at (r, k) is
  x(r, k) + a(r, k), and the bias read at (r, j), or at (0, j) of the one-row matrix, is b_j. Nothing here needs the
  entries to be finite. The rectified form takes the maximum with the constant zero on both sides.
-/
import proofs.«107775_j22110491640097_1_alg».proof.KernelIdeal
import proofs.«107775_j22110491640097_1_alg».proof.Proof.Gen.ReferenceIdeal.Read
import proofs.«107775_j22110491640097_1_alg».proof.Proof.Folds
import proofs.«107775_j22110491640097_1_alg».proof.Proof.LibDenseVec
import proofs.«107775_j22110491640097_1_alg».proof.Proof.LibKeepdims
import Idealize.ShloMosaic.Lib.ValueLayout

noncomputable section

open scoped BigOperators

namespace Cert.Bridge

open Idealize.ShloMosaic Idealize.ShloMosaic.ValueIdx

/-- The projection with its bias kept as a one-row matrix is the host's contraction of x + a plus the bias laid along
    every row, for any extents and any dimension record contracting columns with rows. -/
theorem proj_host {n K N : ℕ}
    {D : DotDims (⟨2, ![n, K]⟩ : Shape) (⟨2, ![K, N]⟩ : Shape) (⟨2, ![n, N]⟩ : Shape)} (hD : DenseVec.Plain D)
    (sc : (⟨1, ![N]⟩ : Shape).ShapeCasts ⟨2, ![1, N]⟩)
    (b1 : (⟨1, ![N]⟩ : Shape).BroadcastsInDim ⟨2, ![1, N]⟩ ![1])
    (b2 : (⟨2, ![1, N]⟩ : Shape).BroadcastsInDim ⟨2, ![n, N]⟩ ![0, 1])
    (X A : FVec Ideal (⟨2, ![n, K]⟩ : Shape) .f32) (W : FVec Ideal (⟨2, ![K, N]⟩ : Shape) .f32)
    (b : FVec Ideal (⟨1, ![N]⟩ : Shape) .f32) :
    projFold X A W (shapeCast (⟨2, ![1, N]⟩ : Shape) b sc)
      = addf (Host.dotGeneral D none (addf X A) W)
          (broadcastInDim (⟨2, ![n, N]⟩ : Shape) ![0, 1] b2 (broadcastInDim (⟨2, ![1, N]⟩ : Shape) ![1] b1 b)) := by
  funext i
  obtain ⟨r, j, rfl⟩ : ∃ (r : Fin n) (j : Fin N), i = ix2 r j := ⟨i 0, i 1, eq_ix2 i⟩
  have e1 : shapeCast (⟨2, ![1, N]⟩ : Shape) b sc (ix2 (0 : Fin 1) j) = b (ix1 j) := shapeCast_a_1a_apply b sc 0 j
  have e2 : broadcastInDim (⟨2, ![n, N]⟩ : Shape) ![0, 1] b2 (broadcastInDim (⟨2, ![1, N]⟩ : Shape) ![1] b1 b) (ix2 r j)
      = b (ix1 j) := Keepdims.cols_apply b1 b2 b r j
  rw [projFold_ix2, addf_apply, DenseVec.dotGeneral_ix2 hD, e1, e2]
  rfl

/-- The rectified projection: the maximum with the constant zero on both sides. -/
theorem projRelu_host {n K N : ℕ}
    {D : DotDims (⟨2, ![n, K]⟩ : Shape) (⟨2, ![K, N]⟩ : Shape) (⟨2, ![n, N]⟩ : Shape)} (hD : DenseVec.Plain D)
    (sc : (⟨1, ![N]⟩ : Shape).ShapeCasts ⟨2, ![1, N]⟩)
    (b1 : (⟨1, ![N]⟩ : Shape).BroadcastsInDim ⟨2, ![1, N]⟩ ![1])
    (b2 : (⟨2, ![1, N]⟩ : Shape).BroadcastsInDim ⟨2, ![n, N]⟩ ![0, 1])
    (bz : (⟨0, ![]⟩ : Shape).BroadcastsInDim ⟨2, ![n, N]⟩ ![])
    (X A : FVec Ideal (⟨2, ![n, K]⟩ : Shape) .f32) (W : FVec Ideal (⟨2, ![K, N]⟩ : Shape) .f32)
    (b : FVec Ideal (⟨1, ![N]⟩ : Shape) .f32) :
    projReluFold X A W (shapeCast (⟨2, ![1, N]⟩ : Shape) b sc)
      = maximumf (addf (Host.dotGeneral D none (addf X A) W)
            (broadcastInDim (⟨2, ![n, N]⟩ : Shape) ![0, 1] b2 (broadcastInDim (⟨2, ![1, N]⟩ : Shape) ![1] b1 b)))
          (broadcastInDim (⟨2, ![n, N]⟩ : Shape) ![] bz (constant (F := Ideal) (⟨0, ![]⟩ : Shape) .f32 0x00000000#32)) := by
  funext i
  exact congrArg (fun v => max v zeroW) (congrFun (proj_host hD sc b1 b2 X A W b) i)

/-- The [50000, 1] · [1, 128] record contracts the unit column axis with the unit row axis. -/
theorem plain_node1 :
    DenseVec.Plain (n := 50000) (K := 1) (N := 128) Cert.ReferenceIdeal.dot_S50000x1_S1x128_S50000x128_1_0_0_1_n_n where
  rank := rfl
  size := fun _ => rfl
  lhs := rfl
  rhs := rfl
  row := Cert.ReferenceIdeal.Read.lhs_main_v25_0
  col := Cert.ReferenceIdeal.Read.rhs_main_v25_1

/-- The [50000, 128] · [128, 128] record contracts columns with rows. -/
theorem plain_node128 :
    DenseVec.Plain (n := 50000) (K := 128) (N := 128)
      Cert.ReferenceIdeal.dot_S50000x128_S128x128_S50000x128_1_0_0_1_n_n where
  rank := rfl
  size := fun _ => rfl
  lhs := rfl
  rhs := rfl
  row := Cert.ReferenceIdeal.Read.lhs_main_v50_0
  col := Cert.ReferenceIdeal.Read.rhs_main_v50_1

variable [Cert.KernelIdeal.Facts₀]

/-- The first node projection (one input feature). -/
theorem proj1_host (X A : (⟨Cert.ReferenceIdeal.S50000x1, .f32⟩ : BufTy).Contents (Elt Ideal))
    (W : (⟨Cert.ReferenceIdeal.S1x128, .f32⟩ : BufTy).Contents (Elt Ideal))
    (b : (⟨Cert.ReferenceIdeal.S128, .f32⟩ : BufTy).Contents (Elt Ideal)) :
    projFold X A W (shapeCast Cert.KernelIdeal.S1x128 b Cert.KernelIdeal.Facts₀.shapeCasts_S128_S1x128)
      = addf (F := Ideal)
          (Host.dotGeneral (F := Ideal) (φ₁ := .f32) (φ₂ := .f32)
            Cert.ReferenceIdeal.dot_S50000x1_S1x128_S50000x128_1_0_0_1_n_n none (addf (F := Ideal) X A) W)
          (broadcastInDim Cert.ReferenceIdeal.S50000x128 ![0, 1] Cert.ReferenceIdeal.Facts₀.bcast_S1x128_S50000x128_0_1
            (broadcastInDim Cert.ReferenceIdeal.S1x128 ![1] Cert.ReferenceIdeal.Facts₀.bcast_S128_S1x128_1 b)) :=
  proj_host plain_node1 _ _ _ X A W b

/-- A node projection with 128 input features. -/
theorem proj128_host (X A : (⟨Cert.ReferenceIdeal.S50000x128, .f32⟩ : BufTy).Contents (Elt Ideal))
    (W : (⟨Cert.ReferenceIdeal.S128x128, .f32⟩ : BufTy).Contents (Elt Ideal))
    (b : (⟨Cert.ReferenceIdeal.S128, .f32⟩ : BufTy).Contents (Elt Ideal)) :
    projFold X A W (shapeCast Cert.KernelIdeal.S1x128 b Cert.KernelIdeal.Facts₀.shapeCasts_S128_S1x128)
      = addf (F := Ideal)
          (Host.dotGeneral (F := Ideal) (φ₁ := .f32) (φ₂ := .f32)
            Cert.ReferenceIdeal.dot_S50000x128_S128x128_S50000x128_1_0_0_1_n_n none (addf (F := Ideal) X A) W)
          (broadcastInDim Cert.ReferenceIdeal.S50000x128 ![0, 1] Cert.ReferenceIdeal.Facts₀.bcast_S1x128_S50000x128_0_1
            (broadcastInDim Cert.ReferenceIdeal.S1x128 ![1] Cert.ReferenceIdeal.Facts₀.bcast_S128_S1x128_1 b)) :=
  proj_host plain_node128 _ _ _ X A W b

/-- The rectified node projection with 128 input features. -/
theorem projRelu128_host (X A : (⟨Cert.ReferenceIdeal.S50000x128, .f32⟩ : BufTy).Contents (Elt Ideal))
    (W : (⟨Cert.ReferenceIdeal.S128x128, .f32⟩ : BufTy).Contents (Elt Ideal))
    (b : (⟨Cert.ReferenceIdeal.S128, .f32⟩ : BufTy).Contents (Elt Ideal)) :
    projReluFold X A W (shapeCast Cert.KernelIdeal.S1x128 b Cert.KernelIdeal.Facts₀.shapeCasts_S128_S1x128)
      = maximumf (F := Ideal)
          (addf (F := Ideal)
            (Host.dotGeneral (F := Ideal) (φ₁ := .f32) (φ₂ := .f32)
              Cert.ReferenceIdeal.dot_S50000x128_S128x128_S50000x128_1_0_0_1_n_n none (addf (F := Ideal) X A) W)
            (broadcastInDim Cert.ReferenceIdeal.S50000x128 ![0, 1] Cert.ReferenceIdeal.Facts₀.bcast_S1x128_S50000x128_0_1
              (broadcastInDim Cert.ReferenceIdeal.S1x128 ![1] Cert.ReferenceIdeal.Facts₀.bcast_S128_S1x128_1 b)))
          (broadcastInDim Cert.ReferenceIdeal.S50000x128 ![] Cert.ReferenceIdeal.Facts₀.bcast_S_S50000x128
            (constant (F := Ideal) Cert.ReferenceIdeal.S_ .f32 0x00000000#32)) :=
  projRelu_host plain_node128 _ _ _ _ X A W b

end Cert.Bridge

end
-- ==== Proof.LibJoinCols.lean ====
/-
  Matrices joined along their columns, read at an entry.

  When two or three matrices with the same number of rows are laid side by side, the entry (e, q) of the result is
  the entry of the piece whose column range holds q: for widths w1, w2, w3 the first piece at column q when
  q < w1, the second at q − w1 when w1 ≤ q < w1 + w2, the third at q − w1 − w2 beyond. The result's width is
  kept as a number W of its own, so that a printed shape whose width is written as one literal is met directly.
-/
import Idealize.ShloMosaic.Lib.ValueIdx
import Idealize.ShloMosaic.Lib.Pipeline.Value

noncomputable section

namespace Idealize.ShloMosaic.JoinCols

open Idealize.ShloMosaic Idealize.ShloMosaic.ValueIdx

variable {α : Type}

/-- Two matrices side by side, at a column of the first. -/
theorem pair_left {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w1) (q : Fin W) (hq : q.val = a.val) :
    concatenate (⟨2, ![n, W]⟩ : Shape) 1 [⟨(⟨2, ![n, w1]⟩ : Shape), A⟩, ⟨(⟨2, ![n, w2]⟩ : Shape), B⟩] h (ix2 e q) = A (ix2 e a) :=
  concatenate_pair_apply_left 1 A B h (ix2 e q) rfl (ix2 e a)
    (fun b => match b with | ⟨0, _⟩ => rfl | ⟨1, _⟩ => hq.symm)

/-- Two matrices side by side, at a column of the second. -/
theorem pair_right {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w2) (q : Fin W) (hq : q.val = w1 + a.val) :
    concatenate (⟨2, ![n, W]⟩ : Shape) 1 [⟨(⟨2, ![n, w1]⟩ : Shape), A⟩, ⟨(⟨2, ![n, w2]⟩ : Shape), B⟩] h (ix2 e q) = B (ix2 e a) :=
  concatenate_pair_apply_right 1 A B h (ix2 e q) rfl rfl (ix2 e a)
    (fun b hb => match b with | ⟨0, _⟩ => rfl | ⟨1, _⟩ => absurd rfl hb)
    (by show a.val + w1 = q.val; omega)

/-- Three matrices side by side, at a column of the first. -/
theorem triple_left {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w1) (q : Fin W) (hq : q.val = a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = A (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 0 (by simp) _ A rfl rfl 0 rfl (ix2 e a)
    (fun b hb => match b with | ⟨0, _⟩ => rfl | ⟨1, _⟩ => absurd rfl hb)
    (by show 0 + a.val = q.val; omega)

/-- Three matrices side by side, at a column of the second. -/
theorem triple_mid {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w2) (q : Fin W) (hq : q.val = w1 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = B (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 1 (by simp) _ B rfl rfl w1 (by simp) (ix2 e a)
    (fun b hb => match b with | ⟨0, _⟩ => rfl | ⟨1, _⟩ => absurd rfl hb)
    (by show w1 + a.val = q.val; omega)

/-- Three matrices side by side, at a column of the third. -/
theorem triple_right {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w3) (q : Fin W) (hq : q.val = w1 + w2 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = C (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 2 (by simp) _ C rfl rfl (w1 + w2) (by simp) (ix2 e a)
    (fun b hb => match b with | ⟨0, _⟩ => rfl | ⟨1, _⟩ => absurd rfl hb)
    (by show w1 + w2 + a.val = q.val; omega)

end Idealize.ShloMosaic.JoinCols

end
-- ==== Proof.DecodeLaw.lean ====
/-
  The decoder's contraction, taken in two halves.

  The reference lays the two gathered 128-wide rows of an edge side by side into one 256-wide row c and contracts it
  with a [256, 1] weight d: ∑ q < 256, c(i, q)·d(q, 0), where c(i, q) = h1(i, q) for q < 128 and h2(i, q − 128) beyond.
  A sum over 256 = 128 + 128 indices is the sum over the first 128 plus the sum over the last 128 (addition on the
  extended reals is commutative and associative, so nothing need be finite), that is
  (∑ k < 128, h1(i, k)·d(k, 0)) + (∑ k < 128, h2(i, k)·d(128 + k, 0)): the two halves, each contracted with its own
  128 rows of the weight. The bias is the same number on both sides: one side reads it from the [1] array cast to
  [1, 1], the other from the same array laid under a unit axis and then down the rows.
-/
import proofs.«107775_j22110491640097_1_alg».proof.KernelIdeal
import proofs.«107775_j22110491640097_1_alg».proof.Proof.Gen.ReferenceIdeal.Read
import proofs.«107775_j22110491640097_1_alg».proof.Proof.Folds
import proofs.«107775_j22110491640097_1_alg».proof.Proof.LibDenseVec
import proofs.«107775_j22110491640097_1_alg».proof.Proof.LibJoinCols
import Idealize.ShloMosaic.Lib.ValueLayout

noncomputable section

open scoped BigOperators

namespace Cert.Bridge

open Idealize.ShloMosaic Idealize.ShloMosaic.ValueIdx

variable [Cert.KernelIdeal.Facts₀]

/-- A sum over 256 indices is the sum over the first 128 plus the sum over the last 128. -/
theorem sum_halves {M : Type} [AddCommMonoid M] (f : Fin 256 → M) :
    (∑ q : Fin 256, f q) = (∑ k : Fin 128, f (Fin.castAdd 128 k)) + ∑ k : Fin 128, f (Fin.natAdd 128 k) :=
  Fin.sum_univ_add (a := 128) (b := 128) f

/-- The [800000, 256] · [256, 1] record contracts the left operand's columns with the right operand's rows. -/
theorem plain_decode :
    DenseVec.Plain (n := 800000) (K := 256) (N := 1)
      Cert.ReferenceIdeal.dot_S800000x256_S256x1_S800000x1_1_0_0_1_n_n where
  rank := rfl
  size := fun _ => rfl
  lhs := rfl
  rhs := rfl
  row := Cert.ReferenceIdeal.Read.lhs_main_v99_0
  col := Cert.ReferenceIdeal.Read.rhs_main_v99_1

/-- The two-halves decoder is the reference's contraction of the joined rows, plus the bias. -/
theorem decode_eq (h1 h2 : (⟨Cert.ReferenceIdeal.S800000x128, .f32⟩ : BufTy).Contents (Elt Ideal))
    (x17 : (⟨Cert.KernelIdeal.S256x1, .f32⟩ : BufTy).Contents (Elt Ideal))
    (x18 : (⟨Cert.KernelIdeal.S1, .f32⟩ : BufTy).Contents (Elt Ideal)) :
    decodeFold h1 h2
        (extractStridedSlice Cert.KernelIdeal.S128x1 ![0, 0] x17 Cert.KernelIdeal.Facts₀.slices_S256x1_S128x1_0_0)
        (extractStridedSlice Cert.KernelIdeal.S128x1 ![128, 0] x17 Cert.KernelIdeal.Facts₀.slices_S256x1_S128x1_128_0)
        (shapeCast Cert.KernelIdeal.S1x1 x18 Cert.KernelIdeal.Facts₀.shapeCasts_S1_S1x1)
      = addf (F := Ideal) (Host.dotGeneral (φ₁ := .f32) (φ₂ := .f32) Cert.ReferenceIdeal.dot_S800000x256_S256x1_S800000x1_1_0_0_1_n_n none
               (concatenate Cert.ReferenceIdeal.S800000x256 1
                 [⟨Cert.ReferenceIdeal.S800000x128, h1⟩, ⟨Cert.ReferenceIdeal.S800000x128, h2⟩]
                 Cert.ReferenceIdeal.Facts₀.concatenates_S800000x128_S800000x128_S800000x256_d1
                   : (⟨Cert.ReferenceIdeal.S800000x256, .f32⟩ : BufTy).Contents (Elt Ideal)) x17)
             (Cert.ReferenceIdeal.Read.val_main_v101 (F := Ideal) x18) := by
  funext i
  obtain ⟨r, rfl⟩ : ∃ r : Fin 800000, i = ix2 r (0 : Fin 1) :=
    ⟨i 0, (eq_ix2 i).trans (congrArg (ix2 (i 0)) (Fin.ext (Nat.lt_one_iff.mp (idx2_lt1 i))))⟩
  rw [decodeFold_ix2, addf_apply, DenseVec.dotGeneral_ix2 plain_decode, sum_halves]
  -- the bias
  have hb : shapeCast Cert.KernelIdeal.S1x1 x18 Cert.KernelIdeal.Facts₀.shapeCasts_S1_S1x1 (ix2 (0 : Fin 1) (0 : Fin 1))
      = Cert.ReferenceIdeal.Read.val_main_v101 (F := Ideal) x18 (ix2 r (0 : Fin 1)) := by
    rw [shapeCast_a_1a_apply, Cert.ReferenceIdeal.Read.val_main_v101_apply, Cert.ReferenceIdeal.Read.val_main_v100_apply]
    exact congrArg x18 (funext fun a => match a with | ⟨0, _⟩ => rfl)
  rw [hb]
  congr 2 <;> refine Finset.sum_congr rfl fun k _ => ?_
  · rw [JoinCols.pair_left h1 h2 _ r k (Fin.castAdd 128 k) rfl]
    congr 1
    exact extractStridedSlice_apply _ x17 _ (ix2 k (0 : Fin 1)) (ix2 (Fin.castAdd 128 k) (0 : Fin 1))
      (fun a => match a with
        | ⟨0, _⟩ => by show k.val = 0 + k.val; omega
        | ⟨1, _⟩ => rfl)
  · rw [JoinCols.pair_right h1 h2 _ r k (Fin.natAdd 128 k) rfl]
    congr 1
    exact extractStridedSlice_apply _ x17 _ (ix2 k (0 : Fin 1)) (ix2 (Fin.natAdd 128 k) (0 : Fin 1))
      (fun a => match a with
        | ⟨0, _⟩ => rfl
        | ⟨1, _⟩ => rfl)

end Cert.Bridge

end
-- ==== Proof.Region2.lean ====
/-
  Region 2: the first layer's node projection. Each of the 25 grid points loads rows 2000·t … 2000·t + 1999 of
  the node features and of the aggregated messages, the whole weight matrix and the bias row, and writes the same rows
  of (x + a)·w + b. So the output array ends, entry (r, j), at (∑ₖ (x(r, k) + a(r, k))·w(k, j)) + b(0, j),
  whatever the region finds in its four input arrays.
-/
import proofs.«107775_j22110491640097_1_alg».proof.Proof.Gen.KernelIdeal.Frame
import proofs.«107775_j22110491640097_1_alg».proof.Proof.RegionCommon
import proofs.«107775_j22110491640097_1_alg».proof.Proof.LibDenseVec
import Idealize.ShloMosaic.Lib.ValueLayout

set_option maxRecDepth 16384

noncomputable section

namespace Cert.KernelIdeal.Regions

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The product's dimension record contracts the left operand's columns with the right operand's rows. -/
theorem plain2 : DenseVec.Plain dot_S2000x1_S1x128_S2000x128_1_0_0_1_n_n :=
  ⟨rfl, fun _ => rfl, rfl, rfl,
   fun j q => by
    unfold DotDims.lhsIdx
    rw [dif_neg (show ¬(0 : Fin S2000x1.rank) ∈ dot_S2000x1_S1x128_S2000x128_1_0_0_1_n_n.lhsBatch by decide), dif_pos (show (0 : Fin S2000x1.rank) ∈ dot_S2000x1_S1x128_S2000x128_1_0_0_1_n_n.lhsNonContracting by decide)]
    rfl,
   fun j q => by
    unfold DotDims.rhsIdx
    rw [dif_neg (show ¬(1 : Fin S1x128.rank) ∈ dot_S2000x1_S1x128_S2000x128_1_0_0_1_n_n.rhsBatch by decide), dif_pos (show (1 : Fin S1x128.rank) ∈ dot_S2000x1_S1x128_S2000x128_1_0_0_1_n_n.rhsNonContracting by decide)]
    rfl⟩

/-- The body's stored value at entry (p, j) of its block. -/
theorem proj2_entry (x0 x1 : Vec Ideal S2000x1 .f32) (x2 : Vec Ideal S1x128 .f32) (x3 : Vec Ideal S1x128 .f32) (p : Fin 2000) (j : Fin 128) :
    k2_pay1 x0 x1 x2 x3 (ix2 p j) = (∑ k : Fin 1, (x0 (ix2 p k) + x1 (ix2 p k)) * x2 (ix2 k j)) + x3 (ix2 (0 : Fin 1) j) := by
  unfold k2_pay1
  simp only [shapeCast_self]
  refine (addf_apply _ _ _).trans ?_
  refine congrArg₂ (· + ·) ?_ ?_
  · exact DenseVec.matmul_zero_ix2 plain2 none _ _ p j
  · exact ValueIdx.broadcastTo_1b_ab_apply _ _ p j

/-- Point t's row blocks sit at rows 2000·t; the weight and the bias are whole. -/
theorem rows2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the projection of the four arrays. -/
theorem written2 (c : Dev nD) (t : Fin cfg2.N) :
    (dat2 V c).flushed 4 t
      = ((cfg2.win 4).blk t).view.read (Elt Ideal) (projFold (V c main_arg0 : S50000x1.Idx → EReal) (V c main_v30 : S50000x1.Idx → EReal) (V c main_arg7 : S1x128.Idx → EReal) (V c main_v31 : S1x128.Idx → EReal)) := by
  show (cfg2.win 4).cut (grid2.coords t) ((dat2 V c).after 4 t) = _
  rw [after2_4]
  unfold out2_4
  rw [View.canon_unit_zero origin2]
  simp only [View.ld_unit_zero (S := S2000x1) origin2, View.ld_unit_zero (S := S1x128) origin2]
  obtain ⟨e00, e01, e10, e11, e20, e21, e30, e31, e40, e41⟩ := rows2 t
  have ht : t.val < 25 := t.isLt
  funext j
  obtain ⟨p, q, rfl⟩ : ∃ (p : Fin 2000) (q : Fin 128), j = ix2 p q := ⟨j 0, j 1, eq_ix2 j⟩
  refine (proj2_entry _ _ _ _ p q).trans ?_
  have hp : p.val < 2000 := p.isLt
  have hq : q.val < 128 := q.isLt
  refine proj_read (V c main_arg0) (V c main_v30) (V c main_arg7) (V c main_v31)
    (fun k => ((cfg2.win 0).blk t).view.emb (ix2 p k)) (fun k => ((cfg2.win 1).blk t).view.emb (ix2 p k))
    (fun k => ((cfg2.win 2).blk t).view.emb (ix2 k q)) (((cfg2.win 3).blk t).view.emb (ix2 (0 : Fin 1) q))
    (⟨t.val * 2000 + p.val, by omega⟩ : Fin 50000) q (((cfg2.win 4).blk t).view.emb (ix2 p q)) ?_ ?_ ?_ ?_ ?_
  · intro k; funext a; apply Fin.ext
    have hk : k.val < 1 := k.isLt
    match a with
    | ⟨0, _⟩ => show win2_0.index t (0 : Fin 2) * 2000 + 1 * p.val = t.val * 2000 + p.val; omega
    | ⟨1, _⟩ => show win2_0.index t (1 : Fin 2) * 1 + 1 * k.val = k.val; omega
  · intro k; funext a; apply Fin.ext
    have hk : k.val < 1 := k.isLt
    match a with
    | ⟨0, _⟩ => show win2_1.index t (0 : Fin 2) * 2000 + 1 * p.val = t.val * 2000 + p.val; omega
    | ⟨1, _⟩ => show win2_1.index t (1 : Fin 2) * 1 + 1 * k.val = k.val; omega
  · intro k; funext a; apply Fin.ext
    have hk : k.val < 1 := k.isLt
    match a with
    | ⟨0, _⟩ => show win2_2.index t (0 : Fin 2) * 1 + 1 * k.val = k.val; omega
    | ⟨1, _⟩ => show win2_2.index t (1 : Fin 2) * 128 + 1 * q.val = q.val; omega
  · funext a; apply Fin.ext
    match a with
    | ⟨0, _⟩ => show win2_3.index t (0 : Fin 2) * 1 + 1 * 0 = 0; omega
    | ⟨1, _⟩ => show win2_3.index t (1 : Fin 2) * 128 + 1 * q.val = q.val; omega
  · funext a; apply Fin.ext
    match a with
    | ⟨0, _⟩ => show win2_4.index t (0 : Fin 2) * 2000 + 1 * p.val = t.val * 2000 + p.val; omega
    | ⟨1, _⟩ => show win2_4.index t (1 : Fin 2) * 128 + 1 * q.val = q.val; omega

/-- An index of the output array is in point t's block iff each coordinate is in the block's range. -/
theorem inBlock2 (t : Fin cfg2.N) (i : S50000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v32).slice (win2_4.rect t)).set ↔ _
  rw [View.set_slice_whole, Rect.mem_set_unit]
  exact Iff.rfl

/-- Row r lies in the block of point r / 2000: the blocks tile the array. -/
theorem tiled2 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hN : (i 0).val / 2000 < cfg2.N := by show (i 0).val / 2000 < 25; omega
  obtain ⟨e00, e01, e10, e11, e20, e21, e30, e31, e40, e41⟩ := rows2 ⟨(i 0).val / 2000, hN⟩
  refine ⟨⟨(i 0).val / 2000, hN⟩, flush2_4 _, ?_⟩
  rw [inBlock2]
  intro a
  match a with
  | ⟨0, _⟩ => show win2_4.index ⟨(i 0).val / 2000, hN⟩ (0 : Fin 2) * 2000 ≤ (i 0).val ∧ (i 0).val < win2_4.index ⟨(i 0).val / 2000, hN⟩ (0 : Fin 2) * 2000 + 2000; rw [e40]; show (i 0).val / 2000 * 2000 ≤ (i 0).val ∧ (i 0).val < (i 0).val / 2000 * 2000 + 2000; omega
  | ⟨1, _⟩ => show win2_4.index ⟨(i 0).val / 2000, hN⟩ (1 : Fin 2) * 128 ≤ (i 1).val ∧ (i 1).val < win2_4.index ⟨(i 0).val / 2000, hN⟩ (1 : Fin 2) * 128 + 128; rw [e41]; omega

/-- The output array after the region: the projection of the four input arrays as the region found them. -/
theorem region2_out (c : Dev nD) :
    (dat2 V c).arrAt 4 cfg2.N = projFold (V c main_arg0 : S50000x1.Idx → EReal) (V c main_v30 : S50000x1.Idx → EReal) (V c main_arg7 : S1x128.Idx → EReal) (V c main_v31 : S1x128.Idx → EReal) :=
  (dat2 V c).arrAt_eq_of_cover 4 _ (fun t _ => written2 V c t) (tiled2)

end Cert.KernelIdeal.Regions

end
-- ==== Proof.Region3.lean ====
/-
  Region 3: the second layer's messages. Each of the 200 grid points loads rows 4000·t … 4000·t + 3999 of the
  gathered node features and of the layer's edge features, adds them, takes the maximum with zero and writes the same
  rows of the message array. So the message array ends as max(x + e, 0) entry by entry, whatever the region finds
  in its two input arrays.
-/
import proofs.«107775_j22110491640097_1_alg».proof.Proof.Gen.KernelIdeal.Frame
import proofs.«107775_j22110491640097_1_alg».proof.Proof.RegionCommon

set_option maxRecDepth 16384

noncomputable section

namespace Cert.KernelIdeal.Regions

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's stored value at an entry: the rectified sum of the two loaded blocks' entries. -/
theorem msg3_entry (x0 x1 : Vec Ideal S4000x128 .f32) (y : S4000x128.Idx) :
    k3_pay1 x0 x1 y = max (x0 y + x1 y) zeroW := by
  unfold k3_pay1
  simp only [shapeCast_self]
  rfl

/-- Point t's three blocks sit at rows 4000·t of their arrays. -/
theorem rows3 : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) = t.val ∧ win3_2.index t (1 : Fin 2) = 0 :=
  (by decide +kernel : ∀ t : Fin grid3.N, _)

/-- What point t writes back is block t of the rectified sum of the two arrays. -/
theorem written3 (c : Dev nD) (t : Fin cfg3.N) :
    (dat3 V c).flushed 2 t
      = ((cfg3.win 2).blk t).view.read (Elt Ideal) (msgFold (V c main_v39 : S800000x128.Idx → EReal) (V c main_v19_1 : S800000x128.Idx → EReal)) := by
  show (cfg3.win 2).cut (grid3.coords t) ((dat3 V c).after 2 t) = _
  rw [after3_2]
  unfold out3_2
  rw [View.canon_unit_zero origin2]
  simp only [View.ld_unit_zero (S := S4000x128) origin2]
  obtain ⟨e0, e1, e2, e3, e4, e5⟩ := rows3 t
  funext j
  have h0 : ((cfg3.win 0).blk t).view.emb j = ((cfg3.win 2).blk t).view.emb j := by
    funext a; apply Fin.ext
    match a with
    | ⟨0, _⟩ => show win3_0.index t (0 : Fin 2) * 4000 + 1 * (j 0).val = win3_2.index t (0 : Fin 2) * 4000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = ((cfg3.win 2).blk t).view.emb j := by
    funext a; apply Fin.ext
    match a with
    | ⟨0, _⟩ => show win3_1.index t (0 : Fin 2) * 4000 + 1 * (j 0).val = win3_2.index t (0 : Fin 2) * 4000 + 1 * (j 0).val; omega
    | ⟨1, _⟩ => show win3_1.index t (1 : Fin 2) * 128 + 1 * (j 1).val = win3_2.index t (1 : Fin 2) * 128 + 1 * (j 1).val; omega
  refine (msg3_entry _ _ j).trans ?_
  exact msg_read (V c main_v39) (V c main_v19_1) _ _ _ h0 h1

/-- An index of the message array is in point t's block iff each coordinate is in the block's range. -/
theorem inBlock3 (t : Fin cfg3.N) (i : S800000x128.Idx) :
    i ∈ ((cfg3.win 2).blk t).view.set ↔ ∀ a : Fin 2, win3_2.index t a * S4000x128.size a ≤ (i a).val ∧ (i a).val < win3_2.index t a * S4000x128.size a + S4000x128.size a := by
  show i ∈ ((View.whole main_v40).slice (win3_2.rect t)).set ↔ _
  rw [View.set_slice_whole, Rect.mem_set_unit]
  exact Iff.rfl

/-- Row r lies in the block of point r / 4000: the blocks tile the array. -/
theorem tiled3 (i : S800000x128.Idx) : ∃ t : Fin cfg3.N, (cfg3.win 2).flush t = true ∧ i ∈ ((cfg3.win 2).blk t).view.set := by
  have hi0 : (i 0).val < 800000 := (i 0).isLt
  have hi1 : (i 1).val < 128 := (i 1).isLt
  have hN : (i 0).val / 4000 < cfg3.N := by show (i 0).val / 4000 < 200; omega
  obtain ⟨e0, e1, e2, e3, e4, e5⟩ := rows3 ⟨(i 0).val / 4000, hN⟩
  refine ⟨⟨(i 0).val / 4000, hN⟩, flush3_2 _, ?_⟩
  rw [inBlock3]
  intro a
  match a with
  | ⟨0, _⟩ => show win3_2.index ⟨(i 0).val / 4000, hN⟩ (0 : Fin 2) * 4000 ≤ (i 0).val ∧ (i 0).val < win3_2.index ⟨(i 0).val / 4000, hN⟩ (0 : Fin 2) * 4000 + 4000; rw [e4]; show (i 0).val / 4000 * 4000 ≤ (i 0).val ∧ (i 0).val < (i 0).val / 4000 * 4000 + 4000; omega
  | ⟨1, _⟩ => show win3_2.index ⟨(i 0).val / 4000, hN⟩ (1 : Fin 2) * 128 ≤ (i 1).val ∧ (i 1).val < win3_2.index ⟨(i 0).val / 4000, hN⟩ (1 : Fin 2) * 128 + 128; rw [e5]; omega

/-- The message array after the region: the rectified sum of the two input arrays as the region found them. -/
theorem region3_out (c : Dev nD) :
    (dat3 V c).arrAt 2 cfg3.N = msgFold (V c main_v39 : S800000x128.Idx → EReal) (V c main_v19_1 : S800000x128.Idx → EReal) :=
  (dat3 V c).arrAt_eq_of_cover 2 _ (fun t _ => written3 V c t) (tiled3)

end Cert.KernelIdeal.Regions

end
-- ==== Proof.Region4.lean ====
/-
  Region 4: the second layer's node projection. Each of the 25 grid points loads rows 2000·t … 2000·t + 1999 of
  the node features and of the aggregated messages, the whole weight matrix and the bias row, and writes the same rows
  of (x + a)·w + b, rectified. So the output array ends, entry (r, j), at (∑ₖ (x(r, k) + a(r, k))·w(k, j)) + b(0, j) under the maximum with zero,
  whatever the region finds in its four input arrays.
-/
import proofs.«107775_j22110491640097_1_alg».proof.Proof.Gen.KernelIdeal.Frame
import proofs.«107775_j22110491640097_1_alg».proof.Proof.RegionCommon
import proofs.«107775_j22110491640097_1_alg».proof.Proof.LibDenseVec
import Idealize.ShloMosaic.Lib.ValueLayout

set_option maxRecDepth 16384

noncomputable section

namespace Cert.KernelIdeal.Regions

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The product's dimension record contracts the left operand's columns with the right operand's rows. -/
theorem plain4 : DenseVec.Plain dot_S2000x128_S128x128_S2000x128_1_0_0_1_n_n :=
  ⟨rfl, fun _ => rfl, rfl, rfl,
   fun j q => by
    unfold DotDims.lhsIdx
    rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
    rfl,
   fun j q => by
    unfold DotDims.rhsIdx
    rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
    rfl⟩

/-- The body's stored value at entry (p, j) of its block. -/
theorem proj4_entry (x0 x1 : Vec Ideal S2000x128 .f32) (x2 : Vec Ideal S128x128 .f32) (x3 : Vec Ideal S1x128 .f32) (p : Fin 2000) (j : Fin 128) :
    k4_pay1 x0 x1 x2 x3 (ix2 p j) = max ((∑ k : Fin 128, (x0 (ix2 p k) + x1 (ix2 p k)) * x2 (ix2 k j)) + x3 (ix2 (0 : Fin 1) j)) zeroW := by
  unfold k4_pay1
  simp only [shapeCast_self]
  refine (maximumf_apply _ _ _).trans ?_
  refine congrArg₂ max ?_ rfl
  refine (addf_apply _ _ _).trans ?_
  refine congrArg₂ (· + ·) ?_ ?_
  · exact DenseVec.matmul_zero_ix2 plain4 none _ _ p j
  · exact ValueIdx.broadcastTo_1b_ab_apply _ _ p j

/-- Point t's row blocks sit at rows 2000·t; the weight and the bias are whole. -/
theorem rows4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What point t writes back is block t of the projection of the four arrays. -/
theorem written4 (c : Dev nD) (t : Fin cfg4.N) :
    (dat4 V c).flushed 4 t
      = ((cfg4.win 4).blk t).view.read (Elt Ideal) (projReluFold (V c main_v32 : S50000x128.Idx → EReal) (V c main_v43 : S50000x128.Idx → EReal) (V c main_arg11 : S128x128.Idx → EReal) (V c main_v44 : S1x128.Idx → EReal)) := by
  show (cfg4.win 4).cut (grid4.coords t) ((dat4 V c).after 4 t) = _
  rw [after4_4]
  unfold out4_4
  rw [View.canon_unit_zero origin2]
  simp only [View.ld_unit_zero (S := S2000x128) origin2, View.ld_unit_zero (S := S128x128) origin2, View.ld_unit_zero (S := S1x128) origin2]
  obtain ⟨e00, e01, e10, e11, e20, e21, e30, e31, e40, e41⟩ := rows4 t
  have ht : t.val < 25 := t.isLt
  funext j
  obtain ⟨p, q, rfl⟩ : ∃ (p : Fin 2000) (q : Fin 128), j = ix2 p q := ⟨j 0, j 1, eq_ix2 j⟩
  refine (proj4_entry _ _ _ _ p q).trans ?_
  have hp : p.val < 2000 := p.isLt
  have hq : q.val < 128 := q.isLt
  refine projRelu_read (V c main_v32) (V c main_v43) (V c main_arg11) (V c main_v44)
    (fun k => ((cfg4.win 0).blk t).view.emb (ix2 p k)) (fun k => ((cfg4.win 1).blk t).view.emb (ix2 p k))
    (fun k => ((cfg4.win 2).blk t).view.emb (ix2 k q)) (((cfg4.win 3).blk t).view.emb (ix2 (0 : Fin 1) q))
    (⟨t.val * 2000 + p.val, by omega⟩ : Fin 50000) q (((cfg4.win 4).blk t).view.emb (ix2 p q)) ?_ ?_ ?_ ?_ ?_
  · intro k; funext a; apply Fin.ext
    have hk : k.val < 128 := k.isLt
    match a with
    | ⟨0, _⟩ => show win4_0.index t (0 : Fin 2) * 2000 + 1 * p.val = t.val * 2000 + p.val; omega
    | ⟨1, _⟩ => show win4_0.index t (1 : Fin 2) * 128 + 1 * k.val = k.val; omega
  · intro k; funext a; apply Fin.ext
    have hk : k.val < 128 := k.isLt
    match a with
    | ⟨0, _⟩ => show win4_1.index t (0 : Fin 2) * 2000 + 1 * p.val = t.val * 2000 + p.val; omega
    | ⟨1, _⟩ => show win4_1.index t (1 : Fin 2) * 128 + 1 * k.val = k.val; omega
  · intro k; funext a; apply Fin.ext
    have hk : k.val < 128 := k.isLt
    match a with
    | ⟨0, _⟩ => show win4_2.index t (0 : Fin 2) * 128 + 1 * k.val = k.val; omega
    | ⟨1, _⟩ => show win4_2.index t (1 : Fin 2) * 128 + 1 * q.val = q.val; omega
  · funext a; apply Fin.ext
    match a with
    | ⟨0, _⟩ => show win4_3.index t (0 : Fin 2) * 1 + 1 * 0 = 0; omega
    | ⟨1, _⟩ => show win4_3.index t (1 : Fin 2) * 128 + 1 * q.val = q.val; omega
  · funext a; apply Fin.ext
    match a with
    | ⟨0, _⟩ => show win4_4.index t (0 : Fin 2) * 2000 + 1 * p.val = t.val * 2000 + p.val; omega
    | ⟨1, _⟩ => show win4_4.index t (1 : Fin 2) * 128 + 1 * q.val = q.val; omega

/-- An index of the output array is in point t's block iff each coordinate is in the block's range. -/
theorem inBlock4 (t : Fin cfg4.N) (i : S50000x128.Idx) :
    i ∈ ((cfg4.win 4).blk t).view.set ↔ ∀ a : Fin 2, win4_4.index t a * S2000x128.size a ≤ (i a).val ∧ (i a).val < win4_4.index t a * S2000x128.size a + S2000x128.size a := by
  show i ∈ ((View.whole main_v45).slice (win4_4.rect t)).set ↔ _
  rw [View.set_slice_whole, Rect.mem_set_unit]
  exact Iff.rfl

/-- Row r lies in the block of point r / 2000: the blocks tile the array. -/
theorem tiled4 (i : S50000x128.Idx) : ∃ t : Fin cfg4.N, (cfg4.win 4).flush t = true ∧ i ∈ ((cfg4.win 4).blk t).view.set := by
  have hi0 : (i 0).val < 50000 := (i 0).isLt
  have hi1 : (i 1).val < 128 := (i 1).isLt
  have hN : (i 0).val / 2000 < cfg4.N := by show (i 0).val / 2000 < 25; omega
  obtain ⟨e00, e01, e10, e11, e20, e21, e30, e31, e40, e41⟩ := rows4 ⟨(i 0).val / 2000, hN⟩
  refine ⟨⟨(i 0).val / 2000, hN⟩, flush4_4 _, ?_⟩
  rw [inBlock4]
  intro a
  match a with
  | ⟨0, _⟩ => show win4_4.index ⟨(i 0).val / 2000, hN⟩ (0 : Fin 2) * 2000 ≤ (i 0).val ∧ (i 0).val < win4_4.index ⟨(i 0).val / 2000, hN⟩ (0 : Fin 2) * 2000 + 2000; rw [e40]; show (i 0).val / 2000 * 2000 ≤ (i 0).val ∧ (i 0).val < (i 0).val / 2000 * 2000 + 2000; omega
  | ⟨1, _⟩ => show win4_4.index ⟨(i 0).val / 2000, hN⟩ (1 : Fin 2) * 128 ≤ (i 1).val ∧ (i 1).val < win4_4.index ⟨(i 0).val / 2000, hN⟩ (1 : Fin 2) * 128 + 128; rw [e41]; omega

/-- The output array after the region: the projection of the four input arrays as the region found them. -/
theorem region4_out (c : Dev nD) :
    (dat4 V c).arrAt 4 cfg4.N = projReluFold (V c main_v32 : S50000x128.Idx → EReal) (V c main_v43 : S50000x128.Idx → EReal) (V c main_arg11 : S128x128.Idx → EReal) (V c main_v44 : S1x128.Idx → EReal) :=
  (dat4 V c).arrAt_eq_of_cover 4 _ (fun t _ => written4 V c t) (tiled4)

end Cert.KernelIdeal.Regions

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Region0.lean ====
/-
  Region 0: the three edge-feature arrays. Each of the 100 grid points loads rows 8000·t … 8000·t + 7999 of the edge
  attribute column and six whole rows (a folded weight row and a folded bias row per layer), and writes the same rows
  of a·W + B for each layer: widths 1, 128 and 128. So each output array ends, entry (r, j), at a(r, 0)·W(0, j) + B(0, j),
  whatever the region finds in its seven input arrays.
-/
import proofs.«107775_j22110491640097_1_alg».proof.Proof.Gen.KernelIdeal.Frame
import proofs.«107775_j22110491640097_1_alg».proof.Proof.RegionCommon
import proofs.«107775_j22110491640097_1_alg».proof.Proof.LibColumn
import Idealize.ShloMosaic.Lib.ValueLayout

set_option maxRecDepth 16384

noncomputable section

namespace Cert.KernelIdeal.Regions

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The attribute and output blocks of point t sit at rows 8000·t; the six rows are whole. -/
theorem rows0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- An entry assembled from the attribute read at (r, 0) and the two rows read at (0, j) is the folded layer at (r, j). -/
theorem edge_read {E N : ℕ} (A : (⟨2, ![E, 1]⟩ : Shape).Idx → EReal) (W B : (⟨2, ![1, N]⟩ : Shape).Idx → EReal)
    (ia : (⟨2, ![E, 1]⟩ : Shape).Idx) (iw ib : (⟨2, ![1, N]⟩ : Shape).Idx) (r : Fin E) (j : Fin N) (io : (⟨2, ![E, N]⟩ : Shape).Idx)
    (ha : ia = ix2 r (0 : Fin 1)) (hw : iw = ix2 (0 : Fin 1) j) (hb : ib = ix2 (0 : Fin 1) j) (ho : io = ix2 r j) :
    A ia * W iw + B ib = edgeFold A W B io := by
  subst ha hw hb ho
  rfl

/-! ## Output window 7: the edge features of width 1 -/

/-- The body's stored value at entry (p, j) of its block. -/
theorem embed7_entry (x0 : Vec Ideal S8000x1 .f32) (xw xb : Vec Ideal S1x1 .f32) (p : Fin 8000) (j : Fin 1) :
    k0_pay1 x0 xw xb (ix2 p j) = x0 (ix2 p j) * xw (ix2 (0 : Fin 1) j) + xb (ix2 (0 : Fin 1) j) := by
  unfold k0_pay1
  simp only [shapeCast_self]
  refine (addf_apply _ _ _).trans ?_
  refine congrArg₂ (· + ·) ?_ ?_
  · refine (mulf_apply _ _ _).trans ?_
    exact congrArg₂ (· * ·) rfl (ValueIdx.broadcastTo_1b_ab_apply _ _ p j)
  · exact ValueIdx.broadcastTo_1b_ab_apply _ _ p j

/-- What point t writes back is block t of the folded edge layer of the three arrays. -/
theorem written0_7 (c : Dev nD) (t : Fin cfg0.N) :
    (dat0 V c).flushed 7 t
      = ((cfg0.win 7).blk t).view.read (Elt Ideal) (edgeFold (V c main_arg1 : S800000x1.Idx → EReal) (V c main_v4 : S1x1.Idx → EReal) (V c main_v8 : S1x1.Idx → EReal)) := by
  show (cfg0.win 7).cut (grid0.coords t) ((dat0 V c).after 7 t) = _
  rw [after0_7]
  unfold out0_7
  rw [View.canon_unit_zero origin2]
  simp only [View.ld_unit_zero (S := S8000x1) origin2, View.ld_unit_zero (S := S1x1) origin2]
  obtain ⟨e00, e01, e10, e11, e20, e21, e30, e31, e40, e41, e50, e51, e60, e61, e70, e71, e80, e81, e90, e91⟩ := rows0 t
  have ht : t.val < 100 := t.isLt
  funext j
  obtain ⟨p, q, rfl⟩ : ∃ (p : Fin 8000) (q : Fin 1), j = ix2 p q := ⟨j 0, j 1, eq_ix2 j⟩
  refine (embed7_entry _ _ _ p q).trans ?_
  have hp : p.val < 8000 := p.isLt
  have hq : q.val < 1 := q.isLt
  refine edge_read (V c main_arg1) (V c main_v4) (V c main_v8)
    (((cfg0.win 0).blk t).view.emb (ix2 p q)) (((cfg0.win 1).blk t).view.emb (ix2 (0 : Fin 1) q)) (((cfg0.win 2).blk t).view.emb (ix2 (0 : Fin 1) q))
    (⟨t.val * 8000 + p.val, by omega⟩ : Fin 800000) q (((cfg0.win 7).blk t).view.emb (ix2 p q)) ?_ ?_ ?_ ?_
  · funext a; apply Fin.ext
    match a with
    | ⟨0, _⟩ => show win0_0.index t (0 : Fin 2) * 8000 + 1 * p.val = t.val * 8000 + p.val; omega
    | ⟨1, _⟩ => show win0_0.index t (1 : Fin 2) * 1 + 1 * q.val = 0; omega
  · funext a; apply Fin.ext
    match a with
    | ⟨0, _⟩ => show win0_1.index t (0 : Fin 2) * 1 + 1 * 0 = 0; omega
    | ⟨1, _⟩ => show win0_1.index t (1 : Fin 2) * 1 + 1 * q.val = q.val; omega
  · funext a; apply Fin.ext
    match a with
    | ⟨0, _⟩ => show win0_2.index t (0 : Fin 2) * 1 + 1 * 0 = 0; omega
    | ⟨1, _⟩ => show win0_2.index t (1 : Fin 2) * 1 + 1 * q.val = q.val; omega
  · funext a; apply Fin.ext
    match a with
    | ⟨0, _⟩ => show win0_7.index t (0 : Fin 2) * 8000 + 1 * p.val = t.val * 8000 + p.val; omega
    | ⟨1, _⟩ => show win0_7.index t (1 : Fin 2) * 1 + 1 * q.val = q.val; omega

/-- An index of the array is in point t's block iff each coordinate is in the block's range. -/
theorem inBlock0_7 (t : Fin cfg0.N) (i : S800000x1.Idx) :
    i ∈ ((cfg0.win 7).blk t).view.set ↔ ∀ a : Fin 2, win0_7.index t a * S8000x1.size a ≤ (i a).val ∧ (i a).val < win0_7.index t a * S8000x1.size a + S8000x1.size a := by
  show i ∈ ((View.whole main_v19_0).slice (win0_7.rect t)).set ↔ _
  rw [View.set_slice_whole, Rect.mem_set_unit]
  exact Iff.rfl

/-- Row r lies in the block of point r / 8000: the blocks tile the array. -/
theorem tiled0_7 (i : S800000x1.Idx) : ∃ t : Fin cfg0.N, (cfg0.win 7).flush t = true ∧ i ∈ ((cfg0.win 7).blk t).view.set := by
  have hi0 : (i 0).val < 800000 := (i 0).isLt
  have hi1 : (i 1).val < 1 := (i 1).isLt
  have hN : (i 0).val / 8000 < cfg0.N := by show (i 0).val / 8000 < 100; omega
  obtain ⟨e00, e01, e10, e11, e20, e21, e30, e31, e40, e41, e50, e51, e60, e61, e70, e71, e80, e81, e90, e91⟩ := rows0 ⟨(i 0).val / 8000, hN⟩
  refine ⟨⟨(i 0).val / 8000, hN⟩, flush0_7 _, ?_⟩
  rw [inBlock0_7]
  intro a
  match a with
  | ⟨0, _⟩ => show win0_7.index ⟨(i 0).val / 8000, hN⟩ (0 : Fin 2) * 8000 ≤ (i 0).val ∧ (i 0).val < win0_7.index ⟨(i 0).val / 8000, hN⟩ (0 : Fin 2) * 8000 + 8000; rw [e70]; show (i 0).val / 8000 * 8000 ≤ (i 0).val ∧ (i 0).val < (i 0).val / 8000 * 8000 + 8000; omega
  | ⟨1, _⟩ => show win0_7.index ⟨(i 0).val / 8000, hN⟩ (1 : Fin 2) * 1 ≤ (i 1).val ∧ (i 1).val < win0_7.index ⟨(i 0).val / 8000, hN⟩ (1 : Fin 2) * 1 + 1; rw [e71]; omega

/-- The array after the region: the folded edge layer of the three input arrays as the region found them. -/
theorem region0_out7 (c : Dev nD) :
    (dat0 V c).arrAt 7 cfg0.N = edgeFold (V c main_arg1 : S800000x1.Idx → EReal) (V c main_v4 : S1x1.Idx → EReal) (V c main_v8 : S1x1.Idx → EReal) :=
  (dat0 V c).arrAt_eq_of_cover 7 _ (fun t _ => written0_7 V c t) tiled0_7

/-! ## Output window 8: the edge features of width 128 -/

/-- The body's stored value at entry (p, j) of its block. -/
theorem embed8_entry (x0 : Vec Ideal S8000x1 .f32) (xw xb : Vec Ideal S1x128 .f32) (p : Fin 8000) (j : Fin 128) :
    k0_pay2 x0 xw xb (ix2 p j) = x0 (ix2 p (0 : Fin 1)) * xw (ix2 (0 : Fin 1) j) + xb (ix2 (0 : Fin 1) j) := by
  unfold k0_pay2
  simp only [shapeCast_self]
  refine (addf_apply _ _ _).trans ?_
  refine congrArg₂ (· + ·) ?_ ?_
  · refine (mulf_apply _ _ _).trans ?_
    exact congrArg₂ (· * ·) (ValueIdx.broadcastTo_a1_ab_apply _ _ p j) (ValueIdx.broadcastTo_1b_ab_apply _ _ p j)
  · exact ValueIdx.broadcastTo_1b_ab_apply _ _ p j

/-- What point t writes back is block t of the folded edge layer of the three arrays. -/
theorem written0_8 (c : Dev nD) (t : Fin cfg0.N) :
    (dat0 V c).flushed 8 t
      = ((cfg0.win 8).blk t).view.read (Elt Ideal) (edgeFold (V c main_arg1 : S800000x1.Idx → EReal) (V c main_v9 : S1x128.Idx → EReal) (V c main_v13 : S1x128.Idx → EReal)) := by
  show (cfg0.win 8).cut (grid0.coords t) ((dat0 V c).after 8 t) = _
  rw [after0_8]
  unfold out0_8
  rw [View.canon_unit_zero origin2]
  simp only [View.ld_unit_zero (S := S8000x1) origin2, View.ld_unit_zero (S := S1x128) origin2]
  obtain ⟨e00, e01, e10, e11, e20, e21, e30, e31, e40, e41, e50, e51, e60, e61, e70, e71, e80, e81, e90, e91⟩ := rows0 t
  have ht : t.val < 100 := t.isLt
  funext j
  obtain ⟨p, q, rfl⟩ : ∃ (p : Fin 8000) (q : Fin 128), j = ix2 p q := ⟨j 0, j 1, eq_ix2 j⟩
  refine (embed8_entry _ _ _ p q).trans ?_
  have hp : p.val < 8000 := p.isLt
  have hq : q.val < 128 := q.isLt
  refine edge_read (V c main_arg1) (V c main_v9) (V c main_v13)
    (((cfg0.win 0).blk t).view.emb (ix2 p (0 : Fin 1))) (((cfg0.win 3).blk t).view.emb (ix2 (0 : Fin 1) q)) (((cfg0.win 4).blk t).view.emb (ix2 (0 : Fin 1) q))
    (⟨t.val * 8000 + p.val, by omega⟩ : Fin 800000) q (((cfg0.win 8).blk t).view.emb (ix2 p q)) ?_ ?_ ?_ ?_
  · funext a; apply Fin.ext
    match a with
    | ⟨0, _⟩ => show win0_0.index t (0 : Fin 2) * 8000 + 1 * p.val = t.val * 8000 + p.val; omega
    | ⟨1, _⟩ => show win0_0.index t (1 : Fin 2) * 1 + 1 * 0 = 0; omega
  · funext a; apply Fin.ext
    match a with
    | ⟨0, _⟩ => show win0_3.index t (0 : Fin 2) * 1 + 1 * 0 = 0; omega
    | ⟨1, _⟩ => show win0_3.index t (1 : Fin 2) * 128 + 1 * q.val = q.val; omega
  · funext a; apply Fin.ext
    match a with
    | ⟨0, _⟩ => show win0_4.index t (0 : Fin 2) * 1 + 1 * 0 = 0; omega
    | ⟨1, _⟩ => show win0_4.index t (1 : Fin 2) * 128 + 1 * q.val = q.val; omega
  · funext a; apply Fin.ext
    match a with
    | ⟨0, _⟩ => show win0_8.index t (0 : Fin 2) * 8000 + 1 * p.val = t.val * 8000 + p.val; omega
    | ⟨1, _⟩ => show win0_8.index t (1 : Fin 2) * 128 + 1 * q.val = q.val; omega

/-- An index of the array is in point t's block iff each coordinate is in the block's range. -/
theorem inBlock0_8 (t : Fin cfg0.N) (i : S800000x128.Idx) :
    i ∈ ((cfg0.win 8).blk t).view.set ↔ ∀ a : Fin 2, win0_8.index t a * S8000x128.size a ≤ (i a).val ∧ (i a).val < win0_8.index t a * S8000x128.size a + S8000x128.size a := by
  show i ∈ ((View.whole main_v19_1).slice (win0_8.rect t)).set ↔ _
  rw [View.set_slice_whole, Rect.mem_set_unit]
  exact Iff.rfl

/-- Row r lies in the block of point r / 8000: the blocks tile the array. -/
theorem tiled0_8 (i : S800000x128.Idx) : ∃ t : Fin cfg0.N, (cfg0.win 8).flush t = true ∧ i ∈ ((cfg0.win 8).blk t).view.set := by
  have hi0 : (i 0).val < 800000 := (i 0).isLt
  have hi1 : (i 1).val < 128 := (i 1).isLt
  have hN : (i 0).val / 8000 < cfg0.N := by show (i 0).val / 8000 < 100; omega
  obtain ⟨e00, e01, e10, e11, e20, e21, e30, e31, e40, e41, e50, e51, e60, e61, e70, e71, e80, e81, e90, e91⟩ := rows0 ⟨(i 0).val / 8000, hN⟩
  refine ⟨⟨(i 0).val / 8000, hN⟩, flush0_8 _, ?_⟩
  rw [inBlock0_8]
  intro a
  match a with
  | ⟨0, _⟩ => show win0_8.index ⟨(i 0).val / 8000, hN⟩ (0 : Fin 2) * 8000 ≤ (i 0).val ∧ (i 0).val < win0_8.index ⟨(i 0).val / 8000, hN⟩ (0 : Fin 2) * 8000 + 8000; rw [e80]; show (i 0).val / 8000 * 8000 ≤ (i 0).val ∧ (i 0).val < (i 0).val / 8000 * 8000 + 8000; omega
  | ⟨1, _⟩ => show win0_8.index ⟨(i 0).val / 8000, hN⟩ (1 : Fin 2) * 128 ≤ (i 1).val ∧ (i 1).val < win0_8.index ⟨(i 0).val / 8000, hN⟩ (1 : Fin 2) * 128 + 128; rw [e81]; omega

/-- The array after the region: the folded edge layer of the three input arrays as the region found them. -/
theorem region0_out8 (c : Dev nD) :
    (dat0 V c).arrAt 8 cfg0.N = edgeFold (V c main_arg1 : S800000x1.Idx → EReal) (V c main_v9 : S1x128.Idx → EReal) (V c main_v13 : S1x128.Idx → EReal) :=
  (dat0 V c).arrAt_eq_of_cover 8 _ (fun t _ => written0_8 V c t) tiled0_8

/-! ## Output window 9: the edge features of width 128 -/

/-- The body's stored value at entry (p, j) of its block. -/
theorem embed9_entry (x0 : Vec Ideal S8000x1 .f32) (xw xb : Vec Ideal S1x128 .f32) (p : Fin 8000) (j : Fin 128) :
    k0_pay3 x0 xw xb (ix2 p j) = x0 (ix2 p (0 : Fin 1)) * xw (ix2 (0 : Fin 1) j) + xb (ix2 (0 : Fin 1) j) := by
  unfold k0_pay3
  simp only [shapeCast_self]
  refine (addf_apply _ _ _).trans ?_
  refine congrArg₂ (· + ·) ?_ ?_
  · refine (mulf_apply _ _ _).trans ?_
    exact congrArg₂ (· * ·) (ValueIdx.broadcastTo_a1_ab_apply _ _ p j) (ValueIdx.broadcastTo_1b_ab_apply _ _ p j)
  · exact ValueIdx.broadcastTo_1b_ab_apply _ _ p j

/-- What point t writes back is block t of the folded edge layer of the three arrays. -/
theorem written0_9 (c : Dev nD) (t : Fin cfg0.N) :
    (dat0 V c).flushed 9 t
      = ((cfg0.win 9).blk t).view.read (Elt Ideal) (edgeFold (V c main_arg1 : S800000x1.Idx → EReal) (V c main_v14 : S1x128.Idx → EReal) (V c main_v18 : S1x128.Idx → EReal)) := by
  show (cfg0.win 9).cut (grid0.coords t) ((dat0 V c).after 9 t) = _
  rw [after0_9]
  unfold out0_9
  rw [View.canon_unit_zero origin2]
  simp only [View.ld_unit_zero (S := S8000x1) origin2, View.ld_unit_zero (S := S1x128) origin2]
  obtain ⟨e00, e01, e10, e11, e20, e21, e30, e31, e40, e41, e50, e51, e60, e61, e70, e71, e80, e81, e90, e91⟩ := rows0 t
  have ht : t.val < 100 := t.isLt
  funext j
  obtain ⟨p, q, rfl⟩ : ∃ (p : Fin 8000) (q : Fin 128), j = ix2 p q := ⟨j 0, j 1, eq_ix2 j⟩
  refine (embed9_entry _ _ _ p q).trans ?_
  have hp : p.val < 8000 := p.isLt
  have hq : q.val < 128 := q.isLt
  refine edge_read (V c main_arg1) (V c main_v14) (V c main_v18)
    (((cfg0.win 0).blk t).view.emb (ix2 p (0 : Fin 1))) (((cfg0.win 5).blk t).view.emb (ix2 (0 : Fin 1) q)) (((cfg0.win 6).blk t).view.emb (ix2 (0 : Fin 1) q))
    (⟨t.val * 8000 + p.val, by omega⟩ : Fin 800000) q (((cfg0.win 9).blk t).view.emb (ix2 p q)) ?_ ?_ ?_ ?_
  · funext a; apply Fin.ext
    match a with
    | ⟨0, _⟩ => show win0_0.index t (0 : Fin 2) * 8000 + 1 * p.val = t.val * 8000 + p.val; omega
    | ⟨1, _⟩ => show win0_0.index t (1 : Fin 2) * 1 + 1 * 0 = 0; omega
  · funext a; apply Fin.ext
    match a with
    | ⟨0, _⟩ => show win0_5.index t (0 : Fin 2) * 1 + 1 * 0 = 0; omega
    | ⟨1, _⟩ => show win0_5.index t (1 : Fin 2) * 128 + 1 * q.val = q.val; omega
  · funext a; apply Fin.ext
    match a with
    | ⟨0, _⟩ => show win0_6.index t (0 : Fin 2) * 1 + 1 * 0 = 0; omega
    | ⟨1, _⟩ => show win0_6.index t (1 : Fin 2) * 128 + 1 * q.val = q.val; omega
  · funext a; apply Fin.ext
    match a with
    | ⟨0, _⟩ => show win0_9.index t (0 : Fin 2) * 8000 + 1 * p.val = t.val * 8000 + p.val; omega
    | ⟨1, _⟩ => show win0_9.index t (1 : Fin 2) * 128 + 1 * q.val = q.val; omega

/-- An index of the array is in point t's block iff each coordinate is in the block's range. -/
theorem inBlock0_9 (t : Fin cfg0.N) (i : S800000x128.Idx) :
    i ∈ ((cfg0.win 9).blk t).view.set ↔ ∀ a : Fin 2, win0_9.index t a * S8000x128.size a ≤ (i a).val ∧ (i a).val < win0_9.index t a * S8000x128.size a + S8000x128.size a := by
  show i ∈ ((View.whole main_v19_2).slice (win0_9.rect t)).set ↔ _
  rw [View.set_slice_whole, Rect.mem_set_unit]
  exact Iff.rfl

/-- Row r lies in the block of point r / 8000: the blocks tile the array. -/
theorem tiled0_9 (i : S800000x128.Idx) : ∃ t : Fin cfg0.N, (cfg0.win 9).flush t = true ∧ i ∈ ((cfg0.win 9).blk t).view.set := by
  have hi0 : (i 0).val < 800000 := (i 0).isLt
  have hi1 : (i 1).val < 128 := (i 1).isLt
  have hN : (i 0).val / 8000 < cfg0.N := by show (i 0).val / 8000 < 100; omega
  obtain ⟨e00, e01, e10, e11, e20, e21, e30, e31, e40, e41, e50, e51, e60, e61, e70, e71, e80, e81, e90, e91⟩ := rows0 ⟨(i 0).val / 8000, hN⟩
  refine ⟨⟨(i 0).val / 8000, hN⟩, flush0_9 _, ?_⟩
  rw [inBlock0_9]
  intro a
  match a with
  | ⟨0, _⟩ => show win0_9.index ⟨(i 0).val / 8000, hN⟩ (0 : Fin 2) * 8000 ≤ (i 0).val ∧ (i 0).val < win0_9.index ⟨(i 0).val / 8000, hN⟩ (0 : Fin 2) * 8000 + 8000; rw [e90]; show (i 0).val / 8000 * 8000 ≤ (i 0).val ∧ (i 0).val < (i 0).val / 8000 * 8000 + 8000; omega
  | ⟨1, _⟩ => show win0_9.index ⟨(i 0).val / 8000, hN⟩ (1 : Fin 2) * 128 ≤ (i 1).val ∧ (i 1).val < win0_9.index ⟨(i 0).val / 8000, hN⟩ (1 : Fin 2) * 128 + 128; rw [e91]; omega

/-- The array after the region: the folded edge layer of the three input arrays as the region found them. -/
theorem region0_out9 (c : Dev nD) :
    (dat0 V c).arrAt 9 cfg0.N = edgeFold (V c main_arg1 : S800000x1.Idx → EReal) (V c main_v14 : S1x128.Idx → EReal) (V c main_v18 : S1x128.Idx → EReal) :=
  (dat0 V c).arrAt_eq_of_cover 9 _ (fun t _ => written0_9 V c t) tiled0_9

end Cert.KernelIdeal.Regions

end
-- ==== Proof.Region1.lean ====
/-
  Region 1: the first layer's messages. Each of the 200 grid points loads rows 4000·t … 4000·t + 3999 of the
  gathered node features and of the layer's edge features, adds them, takes the maximum with zero and writes the same
  rows of the message array. So the message array ends as max(x + e, 0) entry by entry, whatever the region finds
  in its two input arrays.
-/
import proofs.«107775_j22110491640097_1_alg».proof.Proof.Gen.KernelIdeal.Frame
import proofs.«107775_j22110491640097_1_alg».proof.Proof.RegionCommon

set_option maxRecDepth 16384

noncomputable section

namespace Cert.KernelIdeal.Regions

open Cert.KernelIdeal Cert.KernelIdeal.Gen Cert.Bridge
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's stored value at an entry: the rectified sum of the two loaded blocks' entries. -/
theorem msg1_entry (x0 x1 : Vec Ideal S4000x1 .f32) (y : S4000x1.Idx) :
    k1_pay1 x0 x1 y = max (x0 y + x1 y) zeroW := by
  unfold k1_pay1
  simp only [shapeCast_self]
  rfl

/-- Point t's three blocks sit at rows 4000·t of their arrays. -/
theorem rows1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) = t.val ∧ win1_2.index t (1 : Fin 2) = 0 :=
  (by decide +kernel : ∀ t : Fin grid1.N, _)

/-- What point t writes back is block t of the rectified sum of the two arrays. -/
theorem written1 (c : Dev nD) (t : Fin cfg1.N) :
    (dat1 V c).flushed 2 t
      = ((cfg1.win 2).blk t).view.read (Elt Ideal) (msgFold (V c main_v26 : S800000x1.Idx → EReal) (V c main_v19_0 : S800000x1.Idx → EReal)) := by
  show (cfg1.win 2).cut (grid1.coords t) ((dat1 V c).after 2 t) = _
  rw [after1_2]
  unfold out1_2
  rw [View.canon_unit_zero origin2]
  simp only [View.ld_unit_zero (S := S4000x1) origin2]
  obtain ⟨e0, e1, e2, e3, e4, e5⟩ := rows1 t
  funext j
  have h0 : ((cfg1.win 0).blk t).view.emb j = ((cfg1.win 2).blk t).view.emb j := by
    funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 1 + 1 * (j 1).val = win1_2.index t (1 : Fin 2) * 1 + 1 * (j 1).val; omega
  have h1 : ((cfg1.win 1).blk t).view.emb j = ((cfg1.win 2).blk t).view.emb j := by
    funext a; apply Fin.ext
    match a with
    | ⟨0, _⟩ => show win1_1.index t (0 : Fin 2) * 4000 + 1 * (j 0).val = win1_2.index t (0 : Fin 2) * 4000 + 1 * (j 0).val; omega
    | ⟨1, _⟩ => show win1_1.index t (1 : Fin 2) * 1 + 1 * (j 1).val = win1_2.index t (1 : Fin 2) * 1 + 1 * (j 1).val; omega
  refine (msg1_entry _ _ j).trans ?_
  exact msg_read (V c main_v26) (V c main_v19_0) _ _ _ h0 h1

/-- An index of the message array is in point t's block iff each coordinate is in the block's range. -/
theorem inBlock1 (t : Fin cfg1.N) (i : S800000x1.Idx) :
    i ∈ ((cfg1.win 2).blk t).view.set ↔ ∀ a : Fin 2, win1_2.index t a * S4000x1.size a ≤ (i a).val ∧ (i a).val < win1_2.index t a * S4000x1.size a + S4000x1.size a := by
  show i ∈ ((View.whole main_v27).slice (win1_2.rect t)).set ↔ _
  rw [View.set_slice_whole, Rect.mem_set_unit]
  exact Iff.rfl

/-- Row r lies in the block of point r / 4000: the blocks tile the array. -/
theorem tiled1 (i : S800000x1.Idx) : ∃ t : Fin cfg1.N, (cfg1.win 2).flush t = true ∧ i ∈ ((cfg1.win 2).blk t).view.set := by
  have hi0 : (i 0).val < 800000 := (i 0).isLt
  have hi1 : (i 1).val < 1 := (i 1).isLt
  have hN : (i 0).val / 4000 < cfg1.N := by show (i 0).val / 4000 < 200; omega
  obtain ⟨e0, e1, e2, e3, e4, e5⟩ := rows1 ⟨(i 0).val / 4000, hN⟩
  refine ⟨⟨(i 0).val / 4000, hN⟩, flush1_2 _, ?_⟩
  rw [inBlock1]
  intro a
  match a with
  | ⟨0, _⟩ => show win1_2.index ⟨(i 0).val / 4000, hN⟩ (0 : Fin 2) * 4000 ≤ (i 0).val ∧ (i 0).val < win1_2.index ⟨(i 0).val / 4000, hN⟩ (0 : Fin 2) * 4000 + 4000; rw [e4]; show (i 0).val / 4000 * 4000 ≤ (i 0).val ∧ (i 0).val < (i 0).val / 4000 * 4000 + 4000; omega
  | ⟨1, _⟩ => show win1_2.index ⟨(i 0).val / 4000, hN⟩ (1 : Fin 2) * 1 ≤ (i 1).val ∧ (i 1).val < win1_2.index ⟨(i 0).val / 4000, hN⟩ (1 : Fin 2) * 1 + 1; rw [e5]; omega

/-- The message array after the region: the rectified sum of the two input arrays as the region found them. -/
theorem region1_out (c : Dev nD) :
    (dat1 V c).arrAt 2 cfg1.N = msgFold (V c main_v26 : S800000x1.Idx → EReal) (V c main_v19_0 : S800000x1.Idx → EReal) :=
  (dat1 V c).arrAt_eq_of_cover 2 _ (fun t _ => written1 V c t) (tiled1)

end Cert.KernelIdeal.Regions

end
-- ==== Proof.LibTripleSum.lean ====
/-
  Associativity of a triple product of finite families.

  For real families a(k), b(k, j), c(j) over any finite index types,
      ∑ k, a(k) · (∑ j, b(k, j) · c(j)) = ∑ j, (∑ k, a(k) · b(k, j)) · c(j):
  distribute both products over the inner sums, exchange the two sums, reassociate each term. This is the
  entrywise content of (A · B) · C = A · (B · C) for matrices. The coercion of the reals into the extended reals is
  additive and multiplicative, so it commutes with finite sums, and the same identity holds for extended reals that
  are coercions of reals — the form a proof about finite inputs meets. (With an infinite entry the two sides can
  differ, for instance through a product 0 · ∞ present on one side only.)
-/
import Mathlib.Data.EReal.Basic
import Mathlib.Algebra.BigOperators.Ring.Finset
import Mathlib.Algebra.BigOperators.Group.Finset.Sigma

noncomputable section

open scoped BigOperators

namespace Idealize.ShloMosaic.TripleSum

/-- The coercion of the reals into the extended reals commutes with finite sums. -/
theorem coe_finsetSum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product over the reals, for arbitrary finite index types. -/
theorem real_sum_assoc {κ ι : Type*} [Fintype κ] [Fintype ι] (a : κ → ℝ) (b : κ → ι → ℝ) (c : ι → ℝ) :
    ∑ k, a k * ∑ j, b k j * c j = ∑ j, (∑ k, a k * b k j) * c j := by
  simp only [Finset.mul_sum, Finset.sum_mul]
  rw [Finset.sum_comm]
  exact Finset.sum_congr rfl fun j _ => Finset.sum_congr rfl fun k _ => (mul_assoc _ _ _).symm

/-- Associativity of the triple product over extended reals that are coercions of reals. -/
theorem ereal_sum_assoc {κ ι : Type*} [Fintype κ] [Fintype ι] (a : κ → ℝ) (b : κ → ι → ℝ) (c : ι → ℝ) :
    ∑ k, (a k : EReal) * ∑ j, (b k j : EReal) * (c j : EReal)
      = ∑ j, (∑ k, (a k : EReal) * (b k j : EReal)) * (c j : EReal) := by
  simp only [← EReal.coe_mul, ← coe_finsetSum]
  exact congrArg _ (real_sum_assoc a b c)

end Idealize.ShloMosaic.TripleSum

end
-- ==== Proof.LibRealEntries.lean ====
/-
  Extended reals that are real numbers.

  The extended reals carry every operation a float program uses; on the two infinities the operations have corner
  values, and the ring laws (distributivity, cancellation) fail there.  On entries that are coercions of real
  numbers nothing of the kind happens: each operation is the coercion of the real operation.  The lemmas below state
  that, one operation at a time, in the direction that pushes a coercion outwards, so that an equation between
  extended reals whose entries are all real becomes the coercion of an equation between reals.
-/
import Idealize.ShloMosaic.PureOps.Ideal
import proofs.«107775_j22110491640097_1_alg».proof.Proof.LibTripleSum

noncomputable section

open scoped BigOperators

namespace Idealize.ShloMosaic.RealEntries

/-- The sum of two real entries is the real sum. -/
theorem add_coe (a b : ℝ) : (a : EReal) + (b : EReal) = ((a + b : ℝ) : EReal) := (EReal.coe_add a b).symm

/-- The product of two real entries is the real product. -/
theorem mul_coe (a b : ℝ) : (a : EReal) * (b : EReal) = ((a * b : ℝ) : EReal) := (EReal.coe_mul a b).symm

/-- The difference of two real entries is the real difference. -/
theorem sub_coe (a b : ℝ) : (a : EReal) - (b : EReal) = ((a - b : ℝ) : EReal) := (EReal.coe_sub a b).symm

/-- The negative of a real entry is the real negative. -/
theorem neg_coe (a : ℝ) : -(a : EReal) = ((-a : ℝ) : EReal) := (EReal.coe_neg a).symm

/-- The extended real `1` is the real `1`. -/
theorem one_coe : (1 : EReal) = ((1 : ℝ) : EReal) := EReal.coe_one.symm

/-- The extended real `0` is the real `0`. -/
theorem zero_coe : (0 : EReal) = ((0 : ℝ) : EReal) := EReal.coe_zero.symm

/-- The larger of two real entries is the real maximum. -/
theorem max_coe (a b : ℝ) : max (a : EReal) (b : EReal) = ((max a b : ℝ) : EReal) :=
  (EReal.coe_strictMono.monotone.map_max (a := a) (b := b)).symm

/-- Division of a real entry by a nonzero real entry is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The exponential of a real entry is the real exponential. -/
theorem exp_coe (a : ℝ) : Ideal.exp (a : EReal) = ((Real.exp a : ℝ) : EReal) := rfl

/-- The logistic function of a real entry is the real `(1 + e^(-a))⁻¹`. -/
theorem logistic_coe (a : ℝ) : Ideal.logistic (a : EReal) = (((1 + Real.exp (-a))⁻¹ : ℝ) : EReal) :=
  Ideal.logistic_coe a

/-- The square root of a nonnegative real entry is the real square root. -/
theorem sqrt_coe_of_nonneg {a : ℝ} (ha : 0 ≤ a) : Ideal.sqrt (a : EReal) = ((Real.sqrt a : ℝ) : EReal) := by
  rw [Ideal.sqrt_coe, if_neg (not_lt.mpr ha)]

/-- A finite sum of real entries is the real sum. -/
theorem sum_coe {ι : Type*} (s : Finset ι) (f : ι → ℝ) : ∑ i ∈ s, (f i : EReal) = ((∑ i ∈ s, f i : ℝ) : EReal) :=
  (TripleSum.coe_finsetSum s f).symm

/-- A sum of real entries over a finite type is the real sum. -/
theorem univ_sum_coe {ι : Type*} [Fintype ι] (f : ι → ℝ) : ∑ i, (f i : EReal) = ((∑ i, f i : ℝ) : EReal) :=
  sum_coe Finset.univ f

/-- The real logistic denominator is positive, hence not zero. -/
theorem one_add_exp_pos (a : ℝ) : 0 < 1 + Real.exp a := by positivity

/-- A sum of squares of reals is nonnegative. -/
theorem sum_mul_self_nonneg {ι : Type*} (s : Finset ι) (f : ι → ℝ) : 0 ≤ ∑ i ∈ s, f i * f i :=
  Finset.sum_nonneg fun i _ => mul_self_nonneg (f i)

/-- A maximum with a positive real is positive. -/
theorem max_pos_of_right (a : ℝ) {e : ℝ} (he : 0 < e) : 0 < max a e := lt_max_of_lt_right he

end Idealize.ShloMosaic.RealEntries

end
-- ==== Proof.EdgeLaw.lean ====
/-
  The edge layer folded into one affine map of the edge attribute.

  Each edge carries one number a_i. The reference first embeds it into H features, t(i, h) = a_i·w_h + b_h (the product
  a_i·w_h is a contraction over an axis of extent one), and then applies a linear layer with bias:
      e(i, j) = (∑ h, (a_i·w_h + b_h)·L(h, j)) + c_j.
  Folding the two steps, with W(j) = ∑ h, w_h·L(h, j) and B(j) = (∑ h, b_h·L(h, j)) + c_j, gives the affine map
      e(i, j) = a_i·W(j) + B(j).
  Over the real numbers the two agree: multiply a_i into the first sum, split (a_i·w_h + b_h)·L(h, j) into its two
  products and the sum of sums into two sums. On the extended reals distributivity fails at the infinities (a product
  0·∞ or a sum ∞ + (−∞) can appear on one side only), so the law is stated for arrays all of whose entries are real
  numbers; there each extended-real operation is the coercion of the real one and the identity is the coercion of the
  real identity. It is proved once for any extents and any dimension records that contract columns with rows, and
  read off for the three layers that use it (output widths 1, 128 and 128).
-/
import proofs.«107775_j22110491640097_1_alg».proof.KernelIdeal
import proofs.«107775_j22110491640097_1_alg».proof.Proof.Gen.ReferenceIdeal.Read
import proofs.«107775_j22110491640097_1_alg».proof.Proof.Folds
import proofs.«107775_j22110491640097_1_alg».proof.Proof.LibDenseVec
import proofs.«107775_j22110491640097_1_alg».proof.Proof.LibKeepdims
import proofs.«107775_j22110491640097_1_alg».proof.Proof.LibRealEntries

noncomputable section

open scoped BigOperators

namespace Cert.Bridge

open Idealize.ShloMosaic Idealize.ShloMosaic.ValueIdx

/-- The fold over the reals: a·(∑ w·L) + ((∑ b·L) + c) = (∑ (a·w + b)·L) + c. -/
theorem real_edge {ι : Type*} [Fintype ι] (a : ℝ) (w b L : ι → ℝ) (c : ℝ) :
    a * (∑ h, w h * L h) + ((∑ h, b h * L h) + c) = (∑ h, (a * w h + b h) * L h) + c := by
  rw [Finset.mul_sum, ← add_assoc, ← Finset.sum_add_distrib]
  congr 1
  exact Finset.sum_congr rfl fun h _ => by ring

/-- The same identity between extended reals that are coercions of reals. -/
theorem ereal_edge {ι : Type*} [Fintype ι] (a : ℝ) (w b L : ι → ℝ) (c : ℝ) :
    (a : EReal) * (∑ h, (w h : EReal) * (L h : EReal)) + ((∑ h, (b h : EReal) * (L h : EReal)) + (c : EReal))
      = (∑ h, ((a : EReal) * (w h : EReal) + (b h : EReal)) * (L h : EReal)) + (c : EReal) := by
  simp only [RealEntries.mul_coe, RealEntries.add_coe, RealEntries.univ_sum_coe]
  exact congrArg _ (real_edge a w b L c)

/-- A vector sent under a unit leading axis: entry (u, j) of the one-row matrix is the vector's entry j. -/
theorem row_apply {α : Type} {b : ℕ} (h1 : (⟨1, ![b]⟩ : Shape).BroadcastsInDim ⟨2, ![1, b]⟩ ![1])
    (v : (⟨1, ![b]⟩ : Shape).Idx → α) (u : Fin 1) (j : Fin b) :
    broadcastInDim (⟨2, ![1, b]⟩ : Shape) ![1] h1 v (ix2 u j) = v (ix1 j) := by
  refine broadcastInDim_apply _ h1 v (ix2 u j) (ix1 j) (fun x => ?_)
  match x with
  | ⟨0, _⟩ =>
    show j.val = if b = 1 then 0 else j.val
    split_ifs with h
    · have := j.isLt; omega
    · rfl

/-- The folded edge layer is the reference's two-step layer, for any number of edges E, hidden width H and output
    width N, any dimension records contracting columns with rows, and arrays whose entries are all real. -/
theorem edge_law {E H N : ℕ}
    {DW : DotDims (⟨2, ![1, H]⟩ : Shape) (⟨2, ![H, N]⟩ : Shape) (⟨2, ![1, N]⟩ : Shape)} (hW : DenseVec.Plain DW)
    {D0 : DotDims (⟨2, ![E, 1]⟩ : Shape) (⟨2, ![1, H]⟩ : Shape) (⟨2, ![E, H]⟩ : Shape)} (h0 : DenseVec.Plain D0)
    {D1 : DotDims (⟨2, ![E, H]⟩ : Shape) (⟨2, ![H, N]⟩ : Shape) (⟨2, ![E, N]⟩ : Shape)} (hD1 : DenseVec.Plain D1)
    (bh1 : (⟨1, ![H]⟩ : Shape).BroadcastsInDim ⟨2, ![1, H]⟩ ![1])
    (bh2 : (⟨2, ![1, H]⟩ : Shape).BroadcastsInDim ⟨2, ![E, H]⟩ ![0, 1])
    (bn1 : (⟨1, ![N]⟩ : Shape).BroadcastsInDim ⟨2, ![1, N]⟩ ![1])
    (bn2 : (⟨2, ![1, N]⟩ : Shape).BroadcastsInDim ⟨2, ![E, N]⟩ ![0, 1])
    (a : FVec Ideal (⟨2, ![E, 1]⟩ : Shape) .f32) (w : FVec Ideal (⟨2, ![1, H]⟩ : Shape) .f32)
    (b : FVec Ideal (⟨1, ![H]⟩ : Shape) .f32) (L : FVec Ideal (⟨2, ![H, N]⟩ : Shape) .f32)
    (c : FVec Ideal (⟨1, ![N]⟩ : Shape) .f32)
    (ha : IsReal a) (hw : IsReal w) (hb : IsReal b) (hL : IsReal L) (hc : IsReal c) :
    edgeFold a (Host.dotGeneral DW none w L)
        (addf (Host.dotGeneral DW none (broadcastInDim (⟨2, ![1, H]⟩ : Shape) ![1] bh1 b) L)
          (broadcastInDim (⟨2, ![1, N]⟩ : Shape) ![1] bn1 c))
      = addf (Host.dotGeneral D1 none
            (addf (Host.dotGeneral D0 none a w)
              (broadcastInDim (⟨2, ![E, H]⟩ : Shape) ![0, 1] bh2 (broadcastInDim (⟨2, ![1, H]⟩ : Shape) ![1] bh1 b))) L)
          (broadcastInDim (⟨2, ![E, N]⟩ : Shape) ![0, 1] bn2 (broadcastInDim (⟨2, ![1, N]⟩ : Shape) ![1] bn1 c)) := by
  funext i
  obtain ⟨r, j, rfl⟩ : ∃ (r : Fin E) (j : Fin N), i = ix2 r j := ⟨i 0, i 1, eq_ix2 i⟩
  choose fa hfa using ha
  choose fw hfw using hw
  choose fb hfb using hb
  choose fL hfL using hL
  choose fc hfc using hc
  have eb1 : ∀ x : Fin H, broadcastInDim (⟨2, ![1, H]⟩ : Shape) ![1] bh1 b (ix2 (0 : Fin 1) x) = b (ix1 x) :=
    fun x => row_apply bh1 b 0 x
  have ec1 : broadcastInDim (⟨2, ![1, N]⟩ : Shape) ![1] bn1 c (ix2 (0 : Fin 1) j) = c (ix1 j) := row_apply bn1 c 0 j
  have eb2 : ∀ x : Fin H, broadcastInDim (⟨2, ![E, H]⟩ : Shape) ![0, 1] bh2
      (broadcastInDim (⟨2, ![1, H]⟩ : Shape) ![1] bh1 b) (ix2 r x) = b (ix1 x) :=
    fun x => Keepdims.cols_apply bh1 bh2 b r x
  have ec2 : broadcastInDim (⟨2, ![E, N]⟩ : Shape) ![0, 1] bn2
      (broadcastInDim (⟨2, ![1, N]⟩ : Shape) ![1] bn1 c) (ix2 r j) = c (ix1 j) := Keepdims.cols_apply bn1 bn2 c r j
  simp only [edgeFold_ix2, addf_apply, DenseVec.dotGeneral_ix2 hW, DenseVec.dotGeneral_ix2 h0, DenseVec.dotGeneral_ix2 hD1,
    Fin.sum_univ_one, eb1, ec1, eb2, ec2]
  simp only [hfa, hfw, hfb, hfL, hfc]
  exact ereal_edge (fa (ix2 r (0 : Fin 1))) (fun h => fw (ix2 (0 : Fin 1) h)) (fun h => fb (ix1 h))
    (fun h => fL (ix2 h j)) (fc (ix1 j))

variable [Cert.KernelIdeal.Facts₀]

/-- The folded rows' [1, 128] · [128, 1] record contracts columns with rows. -/
theorem plain_fold1 :
    DenseVec.Plain (n := 1) (K := 128) (N := 1) Cert.KernelIdeal.dot_S1x128_S128x1_S1x1_1_0_0_1_n_n where
  rank := rfl
  size := fun _ => rfl
  lhs := rfl
  rhs := rfl
  row := fun j q => by
    unfold DotDims.lhsIdx
    rw [dif_neg (show ¬(0 : Fin Cert.KernelIdeal.S1x128.rank) ∈ Cert.KernelIdeal.dot_S1x128_S128x1_S1x1_1_0_0_1_n_n.lhsBatch from List.not_mem_nil),
      dif_pos (show (0 : Fin Cert.KernelIdeal.S1x128.rank) ∈ Cert.KernelIdeal.dot_S1x128_S128x1_S1x1_1_0_0_1_n_n.lhsNonContracting from List.mem_singleton_self _)]
    rfl
  col := fun j q => by
    unfold DotDims.rhsIdx
    rw [dif_neg (show ¬(1 : Fin Cert.KernelIdeal.S128x1.rank) ∈ Cert.KernelIdeal.dot_S1x128_S128x1_S1x1_1_0_0_1_n_n.rhsBatch from List.not_mem_nil),
      dif_pos (show (1 : Fin Cert.KernelIdeal.S128x1.rank) ∈ Cert.KernelIdeal.dot_S1x128_S128x1_S1x1_1_0_0_1_n_n.rhsNonContracting from List.mem_singleton_self _)]
    rfl

/-- The folded rows' [1, 128] · [128, 128] record contracts columns with rows. -/
theorem plain_fold128 :
    DenseVec.Plain (n := 1) (K := 128) (N := 128) Cert.KernelIdeal.dot_S1x128_S128x128_S1x128_1_0_0_1_n_n where
  rank := rfl
  size := fun _ => rfl
  lhs := rfl
  rhs := rfl
  row := fun j q => by
    unfold DotDims.lhsIdx
    rw [dif_neg (show ¬(0 : Fin Cert.KernelIdeal.S1x128.rank) ∈ Cert.KernelIdeal.dot_S1x128_S128x128_S1x128_1_0_0_1_n_n.lhsBatch from List.not_mem_nil),
      dif_pos (show (0 : Fin Cert.KernelIdeal.S1x128.rank) ∈ Cert.KernelIdeal.dot_S1x128_S128x128_S1x128_1_0_0_1_n_n.lhsNonContracting from List.mem_singleton_self _)]
    rfl
  col := fun j q => by
    unfold DotDims.rhsIdx
    rw [dif_neg (show ¬(1 : Fin Cert.KernelIdeal.S128x128.rank) ∈ Cert.KernelIdeal.dot_S1x128_S128x128_S1x128_1_0_0_1_n_n.rhsBatch from List.not_mem_nil),
      dif_pos (show (1 : Fin Cert.KernelIdeal.S128x128.rank) ∈ Cert.KernelIdeal.dot_S1x128_S128x128_S1x128_1_0_0_1_n_n.rhsNonContracting from List.mem_singleton_self _)]
    rfl

/-- The embedding's [800000, 1] · [1, 128] record contracts the unit column axis with the unit row axis. -/
theorem plain_embed :
    DenseVec.Plain (n := 800000) (K := 1) (N := 128) Cert.ReferenceIdeal.dot_S800000x1_S1x128_S800000x128_1_0_0_1_n_n where
  rank := rfl
  size := fun _ => rfl
  lhs := rfl
  rhs := rfl
  row := Cert.ReferenceIdeal.Read.lhs_main_v0_0
  col := Cert.ReferenceIdeal.Read.rhs_main_v0_1

/-- The layer's [800000, 128] · [128, 1] record contracts columns with rows. -/
theorem plain_layer1 :
    DenseVec.Plain (n := 800000) (K := 128) (N := 1) Cert.ReferenceIdeal.dot_S800000x128_S128x1_S800000x1_1_0_0_1_n_n where
  rank := rfl
  size := fun _ => rfl
  lhs := rfl
  rhs := rfl
  row := Cert.ReferenceIdeal.Read.lhs_main_v8_0
  col := Cert.ReferenceIdeal.Read.rhs_main_v8_1

/-- The layer's [800000, 128] · [128, 128] record contracts columns with rows. -/
theorem plain_layer128 :
    DenseVec.Plain (n := 800000) (K := 128) (N := 128)
      Cert.ReferenceIdeal.dot_S800000x128_S128x128_S800000x128_1_0_0_1_n_n where
  rank := rfl
  size := fun _ => rfl
  lhs := rfl
  rhs := rfl
  row := Cert.ReferenceIdeal.Read.lhs_main_v33_0
  col := Cert.ReferenceIdeal.Read.rhs_main_v33_1

/-- The first layer's edge term (output width 1). -/
theorem edge1_eq (x1 : (⟨Cert.KernelIdeal.S800000x1, .f32⟩ : BufTy).Contents (Elt Ideal))
    (x3 : (⟨Cert.KernelIdeal.S1x128, .f32⟩ : BufTy).Contents (Elt Ideal))
    (x4 : (⟨Cert.KernelIdeal.S128, .f32⟩ : BufTy).Contents (Elt Ideal))
    (x5 : (⟨Cert.KernelIdeal.S128x1, .f32⟩ : BufTy).Contents (Elt Ideal))
    (x6 : (⟨Cert.KernelIdeal.S1, .f32⟩ : BufTy).Contents (Elt Ideal))
    (h1 : IsReal x1) (h3 : IsReal x3) (h4 : IsReal x4) (h5 : IsReal x5) (h6 : IsReal x6) :
    edgeFold x1 (Host.dotGeneral (F := Ideal) (φ₁ := .f32) (φ₂ := .f32) Cert.KernelIdeal.dot_S1x128_S128x1_S1x1_1_0_0_1_n_n none x3 x5)
        (addf (F := Ideal)
          (Host.dotGeneral (F := Ideal) (φ₁ := .f32) (φ₂ := .f32) Cert.KernelIdeal.dot_S1x128_S128x1_S1x1_1_0_0_1_n_n none
            (broadcastInDim Cert.KernelIdeal.S1x128 ![1] Cert.KernelIdeal.Facts₀.bcast_S128_S1x128_1 x4) x5)
          (broadcastInDim Cert.KernelIdeal.S1x1 ![1] Cert.KernelIdeal.Facts₀.bcast_S1_S1x1_1 x6))
      = Cert.ReferenceIdeal.Read.val_main_v11 (F := Ideal) x1 x3 x4 x5 x6 :=
  edge_law plain_fold1 plain_embed plain_layer1 _ _ _ _ x1 x3 x4 x5 x6 h1 h3 h4 h5 h6

/-- The second layer's edge term (output width 128). -/
theorem edge2_eq (x1 : (⟨Cert.KernelIdeal.S800000x1, .f32⟩ : BufTy).Contents (Elt Ideal))
    (x3 : (⟨Cert.KernelIdeal.S1x128, .f32⟩ : BufTy).Contents (Elt Ideal))
    (x4 : (⟨Cert.KernelIdeal.S128, .f32⟩ : BufTy).Contents (Elt Ideal))
    (x9 : (⟨Cert.KernelIdeal.S128x128, .f32⟩ : BufTy).Contents (Elt Ideal))
    (x10 : (⟨Cert.KernelIdeal.S128, .f32⟩ : BufTy).Contents (Elt Ideal))
    (h1 : IsReal x1) (h3 : IsReal x3) (h4 : IsReal x4) (h9 : IsReal x9) (h10 : IsReal x10) :
    edgeFold x1 (Host.dotGeneral (F := Ideal) (φ₁ := .f32) (φ₂ := .f32) Cert.KernelIdeal.dot_S1x128_S128x128_S1x128_1_0_0_1_n_n none x3 x9)
        (addf (F := Ideal)
          (Host.dotGeneral (F := Ideal) (φ₁ := .f32) (φ₂ := .f32) Cert.KernelIdeal.dot_S1x128_S128x128_S1x128_1_0_0_1_n_n none
            (broadcastInDim Cert.KernelIdeal.S1x128 ![1] Cert.KernelIdeal.Facts₀.bcast_S128_S1x128_1 x4) x9)
          (broadcastInDim Cert.KernelIdeal.S1x128 ![1] Cert.KernelIdeal.Facts₀.bcast_S128_S1x128_1 x10))
      = Cert.ReferenceIdeal.Read.val_main_v36 (F := Ideal) x1 x3 x4 x9 x10 :=
  edge_law plain_fold128 plain_embed plain_layer128 _ _ _ _ x1 x3 x4 x9 x10 h1 h3 h4 h9 h10

/-- The third layer's edge term (output width 128). -/
theorem edge3_eq (x1 : (⟨Cert.KernelIdeal.S800000x1, .f32⟩ : BufTy).Contents (Elt Ideal))
    (x3 : (⟨Cert.KernelIdeal.S1x128, .f32⟩ : BufTy).Contents (Elt Ideal))
    (x4 : (⟨Cert.KernelIdeal.S128, .f32⟩ : BufTy).Contents (Elt Ideal))
    (x13 : (⟨Cert.KernelIdeal.S128x128, .f32⟩ : BufTy).Contents (Elt Ideal))
    (x14 : (⟨Cert.KernelIdeal.S128, .f32⟩ : BufTy).Contents (Elt Ideal))
    (h1 : IsReal x1) (h3 : IsReal x3) (h4 : IsReal x4) (h13 : IsReal x13) (h14 : IsReal x14) :
    edgeFold x1 (Host.dotGeneral (F := Ideal) (φ₁ := .f32) (φ₂ := .f32) Cert.KernelIdeal.dot_S1x128_S128x128_S1x128_1_0_0_1_n_n none x3 x13)
        (addf (F := Ideal)
          (Host.dotGeneral (F := Ideal) (φ₁ := .f32) (φ₂ := .f32) Cert.KernelIdeal.dot_S1x128_S128x128_S1x128_1_0_0_1_n_n none
            (broadcastInDim Cert.KernelIdeal.S1x128 ![1] Cert.KernelIdeal.Facts₀.bcast_S128_S1x128_1 x4) x13)
          (broadcastInDim Cert.KernelIdeal.S1x128 ![1] Cert.KernelIdeal.Facts₀.bcast_S128_S1x128_1 x14))
      = Cert.ReferenceIdeal.Read.val_main_v62 (F := Ideal) x1 x3 x4 x13 x14 :=
  edge_law plain_fold128 plain_embed plain_layer128 _ _ _ _ x1 x3 x4 x13 x14 h1 h3 h4 h13 h14

end Cert.Bridge

end
-- ==== Proof.WalkA.lean ====
/-
  The idealized kernel's buffers at the first five boundaries of @main. At each place where a later segment reads a
  buffer, the buffer holds one of the reference's stages of the arguments: the index vectors, the three edge-feature
  arrays (by the folded edge layer's law, which needs the nine real arrays), the first gather, the first layer's
  messages and their scatter-sum. A buffer no segment writes is carried from boundary to boundary unchanged.
-/
import proofs.«107775_j22110491640097_1_alg».proof.Proof.Gen.KernelIdeal.Frame
import proofs.«107775_j22110491640097_1_alg».proof.Proof.Gen.ReferenceIdeal.Read
import proofs.«107775_j22110491640097_1_alg».proof.Proof.Folds
import proofs.«107775_j22110491640097_1_alg».proof.Proof.Region0
import proofs.«107775_j22110491640097_1_alg».proof.Proof.Region1
import proofs.«107775_j22110491640097_1_alg».proof.Proof.EdgeLaw
import Idealize.ShloMosaic.Lib.StableHlo.Run

set_option maxRecDepth 16384

noncomputable section

namespace Cert.KernelIdeal.Walk

open Cert.KernelIdeal Cert.KernelIdeal.Gen Cert.Bridge
open Idealize.ShloMosaic Idealize.ShloMosaic.TcCoe Idealize.ShloMosaic.Tactic Idealize.SL.Sem Idealize.ShloMosaic.StableHlo
open Idealize.ShloMosaic.ValueIdx

/-- Argument 0 as launched. -/
abbrev A0 (m : (ℓ : Loc nD τ sig) → Buf (Elt Ideal) ℓ) (c : Dev nD) := m ((c : Thread nD τ).loc main_arg0)
/-- Argument 1 as launched. -/
abbrev A1 (m : (ℓ : Loc nD τ sig) → Buf (Elt Ideal) ℓ) (c : Dev nD) := m ((c : Thread nD τ).loc main_arg1)
/-- Argument 2 as launched. -/
abbrev A2 (m : (ℓ : Loc nD τ sig) → Buf (Elt Ideal) ℓ) (c : Dev nD) := m ((c : Thread nD τ).loc main_arg2)
/-- Argument 3 as launched. -/
abbrev A3 (m : (ℓ : Loc nD τ sig) → Buf (Elt Ideal) ℓ) (c : Dev nD) := m ((c : Thread nD τ).loc main_arg3)
/-- Argument 4 as launched. -/
abbrev A4 (m : (ℓ : Loc nD τ sig) → Buf (Elt Ideal) ℓ) (c : Dev nD) := m ((c : Thread nD τ).loc main_arg4)
/-- Argument 5 as launched. -/
abbrev A5 (m : (ℓ : Loc nD τ sig) → Buf (Elt Ideal) ℓ) (c : Dev nD) := m ((c : Thread nD τ).loc main_arg5)
/-- Argument 6 as launched. -/
abbrev A6 (m : (ℓ : Loc nD τ sig) → Buf (Elt Ideal) ℓ) (c : Dev nD) := m ((c : Thread nD τ).loc main_arg6)
/-- Argument 7 as launched. -/
abbrev A7 (m : (ℓ : Loc nD τ sig) → Buf (Elt Ideal) ℓ) (c : Dev nD) := m ((c : Thread nD τ).loc main_arg7)
/-- Argument 8 as launched. -/
abbrev A8 (m : (ℓ : Loc nD τ sig) → Buf (Elt Ideal) ℓ) (c : Dev nD) := m ((c : Thread nD τ).loc main_arg8)
/-- Argument 9 as launched. -/
abbrev A9 (m : (ℓ : Loc nD τ sig) → Buf (Elt Ideal) ℓ) (c : Dev nD) := m ((c : Thread nD τ).loc main_arg9)
/-- Argument 10 as launched. -/
abbrev A10 (m : (ℓ : Loc nD τ sig) → Buf (Elt Ideal) ℓ) (c : Dev nD) := m ((c : Thread nD τ).loc main_arg10)
/-- Argument 11 as launched. -/
abbrev A11 (m : (ℓ : Loc nD τ sig) → Buf (Elt Ideal) ℓ) (c : Dev nD) := m ((c : Thread nD τ).loc main_arg11)
/-- Argument 12 as launched. -/
abbrev A12 (m : (ℓ : Loc nD τ sig) → Buf (Elt Ideal) ℓ) (c : Dev nD) := m ((c : Thread nD τ).loc main_arg12)
/-- Argument 13 as launched. -/
abbrev A13 (m : (ℓ : Loc nD τ sig) → Buf (Elt Ideal) ℓ) (c : Dev nD) := m ((c : Thread nD τ).loc main_arg13)
/-- Argument 14 as launched. -/
abbrev A14 (m : (ℓ : Loc nD τ sig) → Buf (Elt Ideal) ℓ) (c : Dev nD) := m ((c : Thread nD τ).loc main_arg14)
/-- Argument 15 as launched. -/
abbrev A15 (m : (ℓ : Loc nD τ sig) → Buf (Elt Ideal) ℓ) (c : Dev nD) := m ((c : Thread nD τ).loc main_arg15)
/-- Argument 16 as launched. -/
abbrev A16 (m : (ℓ : Loc nD τ sig) → Buf (Elt Ideal) ℓ) (c : Dev nD) := m ((c : Thread nD τ).loc main_arg16)
/-- Argument 17 as launched. -/
abbrev A17 (m : (ℓ : Loc nD τ sig) → Buf (Elt Ideal) ℓ) (c : Dev nD) := m ((c : Thread nD τ).loc main_arg17)
/-- Argument 18 as launched. -/
abbrev A18 (m : (ℓ : Loc nD τ sig) → Buf (Elt Ideal) ℓ) (c : Dev nD) := m ((c : Thread nD τ).loc main_arg18)

/-- The nine arrays whose entries the folded edge layer needs real. -/
def RealArgs (m : (ℓ : Loc nD τ sig) → Buf (Elt Ideal) ℓ) (c : Dev nD) : Prop :=
  IsReal (s := S800000x1) (A1 m c) ∧ IsReal (s := S1x128) (A3 m c) ∧ IsReal (s := S128) (A4 m c) ∧ IsReal (s := S128x1) (A5 m c)
  ∧ IsReal (s := S1) (A6 m c) ∧ IsReal (s := S128x128) (A9 m c) ∧ IsReal (s := S128) (A10 m c) ∧ IsReal (s := S128x128) (A13 m c)
  ∧ IsReal (s := S128) (A14 m c)

/-- A buffer that no operation of a stretch of host operations writes holds after it what it held before. -/
macro "carry_host " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem edgeFold_congr {E N : ℕ} {a a' : (⟨2, ![E, 1]⟩ : Shape).Idx → EReal} {w w' b b' : (⟨2, ![1, N]⟩ : Shape).Idx → EReal}
    (ha : a = a') (hw : w = w') (hb : b = b') : edgeFold a w b = edgeFold a' w' b' := by subst ha hw hb; rfl

theorem msgFold_congr {s : Shape} {x x' e e' : s.Idx → EReal} (hx : x = x') (he : e = e') : msgFold x e = msgFold x' e' := by
  subst hx he; rfl

theorem projFold_congr {n K N : ℕ} {x x' a a' : (⟨2, ![n, K]⟩ : Shape).Idx → EReal} {w w' : (⟨2, ![K, N]⟩ : Shape).Idx → EReal}
    {b b' : (⟨2, ![1, N]⟩ : Shape).Idx → EReal} (hx : x = x') (ha : a = a') (hw : w = w') (hb : b = b') :
    projFold x a w b = projFold x' a' w' b' := by subst hx ha hw hb; rfl

theorem projReluFold_congr {n K N : ℕ} {x x' a a' : (⟨2, ![n, K]⟩ : Shape).Idx → EReal} {w w' : (⟨2, ![K, N]⟩ : Shape).Idx → EReal}
    {b b' : (⟨2, ![1, N]⟩ : Shape).Idx → EReal} (hx : x = x') (ha : a = a') (hw : w = w') (hb : b = b') :
    projReluFold x a w b = projReluFold x' a' w' b' := by subst hx ha hw hb; rfl

theorem decodeFold_congr {E K : ℕ} {h1 h1' h2 h2' : (⟨2, ![E, K]⟩ : Shape).Idx → EReal} {w1 w1' w2 w2' : (⟨2, ![K, 1]⟩ : Shape).Idx → EReal}
    {b b' : (⟨2, ![1, 1]⟩ : Shape).Idx → EReal} (e1 : h1 = h1') (e2 : h2 = h2') (e3 : w1 = w1') (e4 : w2 = w2') (e5 : b = b') :
    decodeFold h1 h2 w1 w2 b = decodeFold h1' h2' w1' w2' b' := by subst e1 e2 e3 e4 e5; rfl

variable (m : (ℓ : Loc nD τ sig) → Buf (Elt Ideal) ℓ) (ρ : Dev nD → PrngReg)

/-! ## Boundary 1: after the first stretch of host operations -/

theorem at1_arg1 (c : Dev nD) :
    W1 m ρ c (Proc.devRef .tc main_arg1) = (A1 m c) :=
  (by carry_host hostOps0 : W1 m ρ c (Proc.devRef .tc main_arg1) = W0 m ρ c (Proc.devRef .tc main_arg1)).trans rfl

theorem at1_v1 (c : Dev nD) :
    W1 m ρ c (Proc.devRef .tc main_v1) = Cert.ReferenceIdeal.Read.val_main_v5 (F := Ideal) (A2 m c) := by
  show StableHlo.after hostOps0 (W0 m ρ c) (Proc.devRef .tc main_v1) = _
  after_results
  all_goals rfl

theorem at1_v3 (c : Dev nD) :
    W1 m ρ c (Proc.devRef .tc main_v3) = Cert.ReferenceIdeal.Read.val_main_v7 (F := Ideal) (A2 m c) := by
  show StableHlo.after hostOps0 (W0 m ρ c) (Proc.devRef .tc main_v3) = _
  after_results
  all_goals rfl

/-! ## Boundary 2: after region 0 -/

theorem at2_e1 (c : Dev nD) (hr : RealArgs m c) :
    W2 m ρ c (Proc.devRef .tc main_v19_0) = Cert.ReferenceIdeal.Read.val_main_v11 (F := Ideal) (A1 m c) (A3 m c) (A4 m c) (A5 m c) (A6 m c) := by
  obtain ⟨r1, r3, r4, r5, r6, r9, r10, r13, r14⟩ := hr
  refine (W2_arr m ρ c 7).trans ((Regions.region0_out7 (V1 m ρ) c).trans ?_)
  refine Eq.trans ?_ (Cert.Bridge.edge1_eq (A1 m c) (A3 m c) (A4 m c) (A5 m c) (A6 m c) r1 r3 r4 r5 r6)
  refine edgeFold_congr (E := 800000) (N := 1) ?_ ?_ ?_
  · exact at1_arg1 m ρ c
  · show StableHlo.after hostOps0 (W0 m ρ c) (Proc.devRef .tc main_v4) = _
    after_results_simp
    all_goals rfl
  · show StableHlo.after hostOps0 (W0 m ρ c) (Proc.devRef .tc main_v8) = _
    after_results_simp
    all_goals rfl

theorem at2_e2 (c : Dev nD) (hr : RealArgs m c) :
    W2 m ρ c (Proc.devRef .tc main_v19_1) = Cert.ReferenceIdeal.Read.val_main_v36 (F := Ideal) (A1 m c) (A3 m c) (A4 m c) (A9 m c) (A10 m c) := by
  obtain ⟨r1, r3, r4, r5, r6, r9, r10, r13, r14⟩ := hr
  refine (W2_arr m ρ c 8).trans ((Regions.region0_out8 (V1 m ρ) c).trans ?_)
  refine Eq.trans ?_ (Cert.Bridge.edge2_eq (A1 m c) (A3 m c) (A4 m c) (A9 m c) (A10 m c) r1 r3 r4 r9 r10)
  refine edgeFold_congr (E := 800000) (N := 128) ?_ ?_ ?_
  · exact at1_arg1 m ρ c
  · show StableHlo.after hostOps0 (W0 m ρ c) (Proc.devRef .tc main_v9) = _
    after_results_simp
    all_goals rfl
  · show StableHlo.after hostOps0 (W0 m ρ c) (Proc.devRef .tc main_v13) = _
    after_results_simp
    all_goals rfl

theorem at2_e3 (c : Dev nD) (hr : RealArgs m c) :
    W2 m ρ c (Proc.devRef .tc main_v19_2) = Cert.ReferenceIdeal.Read.val_main_v62 (F := Ideal) (A1 m c) (A3 m c) (A4 m c) (A13 m c) (A14 m c) := by
  obtain ⟨r1, r3, r4, r5, r6, r9, r10, r13, r14⟩ := hr
  refine (W2_arr m ρ c 9).trans ((Regions.region0_out9 (V1 m ρ) c).trans ?_)
  refine Eq.trans ?_ (Cert.Bridge.edge3_eq (A1 m c) (A3 m c) (A4 m c) (A13 m c) (A14 m c) r1 r3 r4 r13 r14)
  refine edgeFold_congr (E := 800000) (N := 128) ?_ ?_ ?_
  · exact at1_arg1 m ρ c
  · show StableHlo.after hostOps0 (W0 m ρ c) (Proc.devRef .tc main_v14) = _
    after_results_simp
    all_goals rfl
  · show StableHlo.after hostOps0 (W0 m ρ c) (Proc.devRef .tc main_v18) = _
    after_results_simp
    all_goals rfl

theorem at2_arg0 (c : Dev nD) :
    W2 m ρ c (Proc.devRef .tc main_arg0) = (A0 m c) :=
  ((W2_of_ne m ρ c main_arg0 (by decide)).trans (by carry_host hostOps0 : W1 m ρ c (Proc.devRef .tc main_arg0) = W0 m ρ c (Proc.devRef .tc main_arg0))).trans rfl

theorem at2_v1 (c : Dev nD) :
    W2 m ρ c (Proc.devRef .tc main_v1) = Cert.ReferenceIdeal.Read.val_main_v5 (F := Ideal) (A2 m c) :=
  (W2_of_ne m ρ c main_v1 (by decide)).trans (at1_v1 m ρ c)

/-! ## Boundary 3: after the second stretch -/

theorem at3_v26 (c : Dev nD) :
    W3 m ρ c (Proc.devRef .tc main_v26) = Cert.ReferenceIdeal.Read.val_main_v18 (F := Ideal) (A0 m c) (A2 m c) := by
  show StableHlo.after hostOps1 (W2 m ρ c) (Proc.devRef .tc main_v26) = _
  after_results
  rw [at2_arg0 m ρ c, at2_v1 m ρ c]
  all_goals rfl

theorem at3_e1 (c : Dev nD) (hr : RealArgs m c) :
    W3 m ρ c (Proc.devRef .tc main_v19_0) = Cert.ReferenceIdeal.Read.val_main_v11 (F := Ideal) (A1 m c) (A3 m c) (A4 m c) (A5 m c) (A6 m c) :=
  (by carry_host hostOps1 : W3 m ρ c (Proc.devRef .tc main_v19_0) = W2 m ρ c (Proc.devRef .tc main_v19_0)).trans (at2_e1 m ρ c hr)

/-! ## Boundary 4: after region 1 -/

theorem at4_v27 (c : Dev nD) (hr : RealArgs m c) :
    W4 m ρ c (Proc.devRef .tc main_v27) = Cert.ReferenceIdeal.Read.val_main_v20 (F := Ideal) (A0 m c) (A1 m c) (A2 m c) (A3 m c) (A4 m c) (A5 m c) (A6 m c) := by
  refine (W4_arr m ρ c 2).trans ((Regions.region1_out (V3 m ρ) c).trans ?_)
  refine (msgFold_congr (s := S800000x1) (at3_v26 m ρ c) (at3_e1 m ρ c hr)).trans ?_
  rfl

theorem at4_v3 (c : Dev nD) :
    W4 m ρ c (Proc.devRef .tc main_v3) = Cert.ReferenceIdeal.Read.val_main_v7 (F := Ideal) (A2 m c) :=
  ((W4_of_ne m ρ c main_v3 (by decide)).trans ((by carry_host hostOps1 : W3 m ρ c (Proc.devRef .tc main_v3) = W2 m ρ c (Proc.devRef .tc main_v3)).trans (W2_of_ne m ρ c main_v3 (by decide)))).trans (at1_v3 m ρ c)

theorem at4_arg8 (c : Dev nD) :
    W4 m ρ c (Proc.devRef .tc main_arg8) = (A8 m c) :=
  ((W4_of_ne m ρ c main_arg8 (by decide)).trans ((by carry_host hostOps1 : W3 m ρ c (Proc.devRef .tc main_arg8) = W2 m ρ c (Proc.devRef .tc main_arg8)).trans ((W2_of_ne m ρ c main_arg8 (by decide)).trans (by carry_host hostOps0 : W1 m ρ c (Proc.devRef .tc main_arg8) = W0 m ρ c (Proc.devRef .tc main_arg8))))).trans rfl

/-! ## Boundary 5: after the third stretch -/

theorem at5_v30 (c : Dev nD) (hr : RealArgs m c) :
    W5 m ρ c (Proc.devRef .tc main_v30) = Cert.ReferenceIdeal.Read.val_main_v23 (F := Ideal) (A0 m c) (A1 m c) (A2 m c) (A3 m c) (A4 m c) (A5 m c) (A6 m c) := by
  show StableHlo.after hostOps2 (W4 m ρ c) (Proc.devRef .tc main_v30) = _
  after_results
  rw [at4_v3 m ρ c, at4_v27 m ρ c hr]
  all_goals rfl

theorem at5_v31 (c : Dev nD) :
    W5 m ρ c (Proc.devRef .tc main_v31) = shapeCast S1x128 (A8 m c) shapeCasts_S128_S1x128 := by
  show StableHlo.after hostOps2 (W4 m ρ c) (Proc.devRef .tc main_v31) = _
  after_results
  rw [at4_arg8 m ρ c]
  all_goals rfl

theorem at5_arg0 (c : Dev nD) :
    W5 m ρ c (Proc.devRef .tc main_arg0) = (A0 m c) :=
  ((by carry_host hostOps2 : W5 m ρ c (Proc.devRef .tc main_arg0) = W4 m ρ c (Proc.devRef .tc main_arg0)).trans ((W4_of_ne m ρ c main_arg0 (by decide)).trans ((by carry_host hostOps1 : W3 m ρ c (Proc.devRef .tc main_arg0) = W2 m ρ c (Proc.devRef .tc main_arg0)).trans ((W2_of_ne m ρ c main_arg0 (by decide)).trans (by carry_host hostOps0 : W1 m ρ c (Proc.devRef .tc main_arg0) = W0 m ρ c (Proc.devRef .tc main_arg0)))))).trans rfl

theorem at5_arg7 (c : Dev nD) :
    W5 m ρ c (Proc.devRef .tc main_arg7) = (A7 m c) :=
  ((by carry_host hostOps2 : W5 m ρ c (Proc.devRef .tc main_arg7) = W4 m ρ c (Proc.devRef .tc main_arg7)).trans ((W4_of_ne m ρ c main_arg7 (by decide)).trans ((by carry_host hostOps1 : W3 m ρ c (Proc.devRef .tc main_arg7) = W2 m ρ c (Proc.devRef .tc main_arg7)).trans ((W2_of_ne m ρ c main_arg7 (by decide)).trans (by carry_host hostOps0 : W1 m ρ c (Proc.devRef .tc main_arg7) = W0 m ρ c (Proc.devRef .tc main_arg7)))))).trans rfl

theorem at5_v1 (c : Dev nD) :
    W5 m ρ c (Proc.devRef .tc main_v1) = Cert.ReferenceIdeal.Read.val_main_v5 (F := Ideal) (A2 m c) :=
  ((by carry_host hostOps2 : W5 m ρ c (Proc.devRef .tc main_v1) = W4 m ρ c (Proc.devRef .tc main_v1)).trans ((W4_of_ne m ρ c main_v1 (by decide)).trans (by carry_host hostOps1 : W3 m ρ c (Proc.devRef .tc main_v1) = W2 m ρ c (Proc.devRef .tc main_v1)))).trans (at2_v1 m ρ c)

theorem at5_e2 (c : Dev nD) (hr : RealArgs m c) :
    W5 m ρ c (Proc.devRef .tc main_v19_1) = Cert.ReferenceIdeal.Read.val_main_v36 (F := Ideal) (A1 m c) (A3 m c) (A4 m c) (A9 m c) (A10 m c) :=
  ((by carry_host hostOps2 : W5 m ρ c (Proc.devRef .tc main_v19_1) = W4 m ρ c (Proc.devRef .tc main_v19_1)).trans ((W4_of_ne m ρ c main_v19_1 (by decide)).trans (by carry_host hostOps1 : W3 m ρ c (Proc.devRef .tc main_v19_1) = W2 m ρ c (Proc.devRef .tc main_v19_1)))).trans (at2_e2 m ρ c hr)

theorem at5_e3 (c : Dev nD) (hr : RealArgs m c) :
    W5 m ρ c (Proc.devRef .tc main_v19_2) = Cert.ReferenceIdeal.Read.val_main_v62 (F := Ideal) (A1 m c) (A3 m c) (A4 m c) (A13 m c) (A14 m c) :=
  ((by carry_host hostOps2 : W5 m ρ c (Proc.devRef .tc main_v19_2) = W4 m ρ c (Proc.devRef .tc main_v19_2)).trans ((W4_of_ne m ρ c main_v19_2 (by decide)).trans (by carry_host hostOps1 : W3 m ρ c (Proc.devRef .tc main_v19_2) = W2 m ρ c (Proc.devRef .tc main_v19_2)))).trans (at2_e3 m ρ c hr)

theorem at5_v3 (c : Dev nD) :
    W5 m ρ c (Proc.devRef .tc main_v3) = Cert.ReferenceIdeal.Read.val_main_v7 (F := Ideal) (A2 m c) :=
  (by carry_host hostOps2 : W5 m ρ c (Proc.devRef .tc main_v3) = W4 m ρ c (Proc.devRef .tc main_v3)).trans (at4_v3 m ρ c)

end Cert.KernelIdeal.Walk

end
-- ==== Proof.WalkB.lean ====
/-
  The idealized kernel's buffers at boundaries 6 to 10 of @main: the first layer's node features (the projection's
  host spelling), their gather, the second layer's messages and scatter-sum, and the second layer's rectified node
  features, each the reference's stage of the arguments.
-/
import proofs.«107775_j22110491640097_1_alg».proof.Proof.Gen.KernelIdeal.Frame
import proofs.«107775_j22110491640097_1_alg».proof.Proof.Gen.ReferenceIdeal.Read
import proofs.«107775_j22110491640097_1_alg».proof.Proof.Folds
import proofs.«107775_j22110491640097_1_alg».proof.Proof.Region2
import proofs.«107775_j22110491640097_1_alg».proof.Proof.Region3
import proofs.«107775_j22110491640097_1_alg».proof.Proof.Region4
import proofs.«107775_j22110491640097_1_alg».proof.Proof.HostProj
import proofs.«107775_j22110491640097_1_alg».proof.Proof.WalkA
import Idealize.ShloMosaic.Lib.StableHlo.Run

set_option maxRecDepth 16384

noncomputable section

namespace Cert.KernelIdeal.Walk

open Cert.KernelIdeal Cert.KernelIdeal.Gen Cert.Bridge
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg)

/-! ## Boundary 6: after region 2 -/

theorem at6_v32 (c : Dev nD) (hr : RealArgs m c) :
    W6 m ρ c (Proc.devRef .tc main_v32) = Cert.ReferenceIdeal.Read.val_main_v28 (F := Ideal) (A0 m c) (A1 m c) (A2 m c) (A3 m c) (A4 m c) (A5 m c) (A6 m c) (A7 m c) (A8 m c) := by
  refine (W6_arr m ρ c 4).trans ((Regions.region2_out (V5 m ρ) c).trans ?_)
  refine (projFold_congr (n := 50000) (K := 1) (N := 128) (at5_arg0 m ρ c) (at5_v30 m ρ c hr) (at5_arg7 m ρ c) (at5_v31 m ρ c)).trans ?_
  refine (Cert.Bridge.proj1_host (A0 m c) (Cert.ReferenceIdeal.Read.val_main_v23 (F := Ideal) (A0 m c) (A1 m c) (A2 m c) (A3 m c) (A4 m c) (A5 m c) (A6 m c)) (A7 m c) (A8 m c)).trans ?_
  rfl

theorem at6_v1 (c : Dev nD) :
    W6 m ρ c (Proc.devRef .tc main_v1) = Cert.ReferenceIdeal.Read.val_main_v5 (F := Ideal) (A2 m c) :=
  (W6_of_ne m ρ c main_v1 (by decide)).trans (at5_v1 m ρ c)

/-! ## Boundary 7: after the fourth stretch -/

set_option maxHeartbeats 1600000 in
theorem at7_v39 (c : Dev nD) (hr : RealArgs m c) :
    W7 m ρ c (Proc.devRef .tc main_v39) = Cert.ReferenceIdeal.Read.val_main_v43 (F := Ideal) (A0 m c) (A1 m c) (A2 m c) (A3 m c) (A4 m c) (A5 m c) (A6 m c) (A7 m c) (A8 m c) := by
  show StableHlo.after hostOps3 (W6 m ρ c) (Proc.devRef .tc main_v39) = _
  after_results_simp
  rw [at6_v32 m ρ c hr, at6_v1 m ρ c]
  all_goals rfl

theorem at7_e2 (c : Dev nD) (hr : RealArgs m c) :
    W7 m ρ c (Proc.devRef .tc main_v19_1) = Cert.ReferenceIdeal.Read.val_main_v36 (F := Ideal) (A1 m c) (A3 m c) (A4 m c) (A9 m c) (A10 m c) :=
  ((by carry_host hostOps3 : W7 m ρ c (Proc.devRef .tc main_v19_1) = W6 m ρ c (Proc.devRef .tc main_v19_1)).trans (W6_of_ne m ρ c main_v19_1 (by decide))).trans (at5_e2 m ρ c hr)

/-! ## Boundary 8: after region 3 -/

theorem at8_v40 (c : Dev nD) (hr : RealArgs m c) :
    W8 m ρ c (Proc.devRef .tc main_v40) = Cert.ReferenceIdeal.Read.val_main_v45 (F := Ideal) (A0 m c) (A1 m c) (A2 m c) (A3 m c) (A4 m c) (A5 m c) (A6 m c) (A7 m c) (A8 m c) (A9 m c) (A10 m c) := by
  refine (W8_arr m ρ c 2).trans ((Regions.region3_out (V7 m ρ) c).trans ?_)
  refine (msgFold_congr (s := S800000x128) (at7_v39 m ρ c hr) (at7_e2 m ρ c hr)).trans ?_
  rfl

theorem at8_v3 (c : Dev nD) :
    W8 m ρ c (Proc.devRef .tc main_v3) = Cert.ReferenceIdeal.Read.val_main_v7 (F := Ideal) (A2 m c) :=
  ((W8_of_ne m ρ c main_v3 (by decide)).trans ((by carry_host hostOps3 : W7 m ρ c (Proc.devRef .tc main_v3) = W6 m ρ c (Proc.devRef .tc main_v3)).trans (W6_of_ne m ρ c main_v3 (by decide)))).trans (at5_v3 m ρ c)

theorem at8_arg12 (c : Dev nD) :
    W8 m ρ c (Proc.devRef .tc main_arg12) = (A12 m c) :=
  ((W8_of_ne m ρ c main_arg12 (by decide)).trans ((by carry_host hostOps3 : W7 m ρ c (Proc.devRef .tc main_arg12) = W6 m ρ c (Proc.devRef .tc main_arg12)).trans ((W6_of_ne m ρ c main_arg12 (by decide)).trans ((by carry_host hostOps2 : W5 m ρ c (Proc.devRef .tc main_arg12) = W4 m ρ c (Proc.devRef .tc main_arg12)).trans ((W4_of_ne m ρ c main_arg12 (by decide)).trans ((by carry_host hostOps1 : W3 m ρ c (Proc.devRef .tc main_arg12) = W2 m ρ c (Proc.devRef .tc main_arg12)).trans ((W2_of_ne m ρ c main_arg12 (by decide)).trans (by carry_host hostOps0 : W1 m ρ c (Proc.devRef .tc main_arg12) = W0 m ρ c (Proc.devRef .tc main_arg12))))))))).trans rfl

/-! ## Boundary 9: after the fifth stretch -/

set_option maxHeartbeats 1600000 in
theorem at9_v43 (c : Dev nD) (hr : RealArgs m c) :
    W9 m ρ c (Proc.devRef .tc main_v43) = Cert.ReferenceIdeal.Read.val_main_v48 (F := Ideal) (A0 m c) (A1 m c) (A2 m c) (A3 m c) (A4 m c) (A5 m c) (A6 m c) (A7 m c) (A8 m c) (A9 m c) (A10 m c) := by
  show StableHlo.after hostOps4 (W8 m ρ c) (Proc.devRef .tc main_v43) = _
  after_results_simp
  rw [at8_v3 m ρ c, at8_v40 m ρ c hr]
  all_goals rfl

set_option maxHeartbeats 1600000 in
theorem at9_v44 (c : Dev nD) :
    W9 m ρ c (Proc.devRef .tc main_v44) = shapeCast S1x128 (A12 m c) shapeCasts_S128_S1x128 := by
  show StableHlo.after hostOps4 (W8 m ρ c) (Proc.devRef .tc main_v44) = _
  after_results_simp
  rw [at8_arg12 m ρ c]
  all_goals rfl

theorem at9_v32 (c : Dev nD) (hr : RealArgs m c) :
    W9 m ρ c (Proc.devRef .tc main_v32) = Cert.ReferenceIdeal.Read.val_main_v28 (F := Ideal) (A0 m c) (A1 m c) (A2 m c) (A3 m c) (A4 m c) (A5 m c) (A6 m c) (A7 m c) (A8 m c) :=
  ((by carry_host hostOps4 : W9 m ρ c (Proc.devRef .tc main_v32) = W8 m ρ c (Proc.devRef .tc main_v32)).trans ((W8_of_ne m ρ c main_v32 (by decide)).trans (by carry_host hostOps3 : W7 m ρ c (Proc.devRef .tc main_v32) = W6 m ρ c (Proc.devRef .tc main_v32)))).trans (at6_v32 m ρ c hr)

theorem at9_arg11 (c : Dev nD) :
    W9 m ρ c (Proc.devRef .tc main_arg11) = (A11 m c) :=
  ((by carry_host hostOps4 : W9 m ρ c (Proc.devRef .tc main_arg11) = W8 m ρ c (Proc.devRef .tc main_arg11)).trans ((W8_of_ne m ρ c main_arg11 (by decide)).trans ((by carry_host hostOps3 : W7 m ρ c (Proc.devRef .tc main_arg11) = W6 m ρ c (Proc.devRef .tc main_arg11)).trans ((W6_of_ne m ρ c main_arg11 (by decide)).trans ((by carry_host hostOps2 : W5 m ρ c (Proc.devRef .tc main_arg11) = W4 m ρ c (Proc.devRef .tc main_arg11)).trans ((W4_of_ne m ρ c main_arg11 (by decide)).trans ((by carry_host hostOps1 : W3 m ρ c (Proc.devRef .tc main_arg11) = W2 m ρ c (Proc.devRef .tc main_arg11)).trans ((W2_of_ne m ρ c main_arg11 (by decide)).trans (by carry_host hostOps0 : W1 m ρ c (Proc.devRef .tc main_arg11) = W0 m ρ c (Proc.devRef .tc main_arg11)))))))))).trans rfl

/-! ## Boundary 10: after region 4 -/

theorem at10_v45 (c : Dev nD) (hr : RealArgs m c) :
    W10 m ρ c (Proc.devRef .tc main_v45) = Cert.ReferenceIdeal.Read.val_main_v54 (F := Ideal) (A0 m c) (A1 m c) (A2 m c) (A3 m c) (A4 m c) (A5 m c) (A6 m c) (A7 m c) (A8 m c) (A9 m c) (A10 m c) (A11 m c) (A12 m c) := by
  refine (W10_arr m ρ c 4).trans ((Regions.region4_out (V9 m ρ) c).trans ?_)
  refine (projReluFold_congr (n := 50000) (K := 128) (N := 128) (at9_v32 m ρ c hr) (at9_v43 m ρ c hr) (at9_arg11 m ρ c) (at9_v44 m ρ c)).trans ?_
  refine (Cert.Bridge.projRelu128_host (Cert.ReferenceIdeal.Read.val_main_v28 (F := Ideal) (A0 m c) (A1 m c) (A2 m c) (A3 m c) (A4 m c) (A5 m c) (A6 m c) (A7 m c) (A8 m c)) (Cert.ReferenceIdeal.Read.val_main_v48 (F := Ideal) (A0 m c) (A1 m c) (A2 m c) (A3 m c) (A4 m c) (A5 m c) (A6 m c) (A7 m c) (A8 m c) (A9 m c) (A10 m c)) (A11 m c) (A12 m c)).trans ?_
  rfl

theorem at10_v1 (c : Dev nD) :
    W10 m ρ c (Proc.devRef .tc main_v1) = Cert.ReferenceIdeal.Read.val_main_v5 (F := Ideal) (A2 m c) :=
  ((W10_of_ne m ρ c main_v1 (by decide)).trans ((by carry_host hostOps4 : W9 m ρ c (Proc.devRef .tc main_v1) = W8 m ρ c (Proc.devRef .tc main_v1)).trans ((W8_of_ne m ρ c main_v1 (by decide)).trans (by carry_host hostOps3 : W7 m ρ c (Proc.devRef .tc main_v1) = W6 m ρ c (Proc.devRef .tc main_v1))))).trans (at6_v1 m ρ c)

theorem at10_v3 (c : Dev nD) :
    W10 m ρ c (Proc.devRef .tc main_v3) = Cert.ReferenceIdeal.Read.val_main_v7 (F := Ideal) (A2 m c) :=
  ((W10_of_ne m ρ c main_v3 (by decide)).trans (by carry_host hostOps4 : W9 m ρ c (Proc.devRef .tc main_v3) = W8 m ρ c (Proc.devRef .tc main_v3))).trans (at8_v3 m ρ c)

theorem at10_e3 (c : Dev nD) (hr : RealArgs m c) :
    W10 m ρ c (Proc.devRef .tc main_v19_2) = Cert.ReferenceIdeal.Read.val_main_v62 (F := Ideal) (A1 m c) (A3 m c) (A4 m c) (A13 m c) (A14 m c) :=
  ((W10_of_ne m ρ c main_v19_2 (by decide)).trans ((by carry_host hostOps4 : W9 m ρ c (Proc.devRef .tc main_v19_2) = W8 m ρ c (Proc.devRef .tc main_v19_2)).trans ((W8_of_ne m ρ c main_v19_2 (by decide)).trans ((by carry_host hostOps3 : W7 m ρ c (Proc.devRef .tc main_v19_2) = W6 m ρ c (Proc.devRef .tc main_v19_2)).trans (W6_of_ne m ρ c main_v19_2 (by decide)))))).trans (at5_e3 m ρ c hr)

end Cert.KernelIdeal.Walk

end
-- ==== Proof.WalkC.lean ====
/-
  The idealized kernel's buffers at boundaries 11 to 16 of @main: the third layer's gather, messages, scatter-sum and
  node features, the two gathers of the hidden features by source and by target, and the decoder's result, which is
  the reference's result: the decoder's two half contractions are the reference's one contraction of the joined rows.
-/
import proofs.«107775_j22110491640097_1_alg».proof.Proof.Gen.KernelIdeal.Frame
import proofs.«107775_j22110491640097_1_alg».proof.Proof.Gen.ReferenceIdeal.Read
import proofs.«107775_j22110491640097_1_alg».proof.Proof.Folds
import proofs.«107775_j22110491640097_1_alg».proof.Proof.Region5
import proofs.«107775_j22110491640097_1_alg».proof.Proof.Region6
import proofs.«107775_j22110491640097_1_alg».proof.Proof.Region7
import proofs.«107775_j22110491640097_1_alg».proof.Proof.HostProj
import proofs.«107775_j22110491640097_1_alg».proof.Proof.DecodeLaw
import proofs.«107775_j22110491640097_1_alg».proof.Proof.WalkB
import Idealize.ShloMosaic.Lib.StableHlo.Run

set_option maxRecDepth 16384

noncomputable section

namespace Cert.KernelIdeal.Walk

open Cert.KernelIdeal Cert.KernelIdeal.Gen Cert.Bridge
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg)

/-! ## Boundary 11: after the sixth stretch -/

set_option maxHeartbeats 1600000 in
theorem at11_v52 (c : Dev nD) (hr : RealArgs m c) :
    W11 m ρ c (Proc.devRef .tc main_v52) = Cert.ReferenceIdeal.Read.val_main_v69 (F := Ideal) (A0 m c) (A1 m c) (A2 m c) (A3 m c) (A4 m c) (A5 m c) (A6 m c) (A7 m c) (A8 m c) (A9 m c) (A10 m c) (A11 m c) (A12 m c) := by
  show StableHlo.after hostOps5 (W10 m ρ c) (Proc.devRef .tc main_v52) = _
  after_results_simp
  rw [at10_v45 m ρ c hr, at10_v1 m ρ c]
  all_goals rfl

theorem at11_e3 (c : Dev nD) (hr : RealArgs m c) :
    W11 m ρ c (Proc.devRef .tc main_v19_2) = Cert.ReferenceIdeal.Read.val_main_v62 (F := Ideal) (A1 m c) (A3 m c) (A4 m c) (A13 m c) (A14 m c) :=
  (by carry_host hostOps5 : W11 m ρ c (Proc.devRef .tc main_v19_2) = W10 m ρ c (Proc.devRef .tc main_v19_2)).trans (at10_e3 m ρ c hr)

/-! ## Boundary 12: after region 5 -/

theorem at12_v53 (c : Dev nD) (hr : RealArgs m c) :
    W12 m ρ c (Proc.devRef .tc main_v53) = Cert.ReferenceIdeal.Read.val_main_v71 (F := Ideal) (A0 m c) (A1 m c) (A2 m c) (A3 m c) (A4 m c) (A5 m c) (A6 m c) (A7 m c) (A8 m c) (A9 m c) (A10 m c) (A11 m c) (A12 m c) (A13 m c) (A14 m c) := by
  refine (W12_arr m ρ c 2).trans ((Regions.region5_out (V11 m ρ) c).trans ?_)
  refine (msgFold_congr (s := S800000x128) (at11_v52 m ρ c hr) (at11_e3 m ρ c hr)).trans ?_
  rfl

theorem at12_v3 (c : Dev nD) :
    W12 m ρ c (Proc.devRef .tc main_v3) = Cert.ReferenceIdeal.Read.val_main_v7 (F := Ideal) (A2 m c) :=
  ((W12_of_ne m ρ c main_v3 (by decide)).trans (by carry_host hostOps5 : W11 m ρ c (Proc.devRef .tc main_v3) = W10 m ρ c (Proc.devRef .tc main_v3))).trans (at10_v3 m ρ c)

theorem at12_arg16 (c : Dev nD) :
    W12 m ρ c (Proc.devRef .tc main_arg16) = (A16 m c) :=
  ((W12_of_ne m ρ c main_arg16 (by decide)).trans ((by carry_host hostOps5 : W11 m ρ c (Proc.devRef .tc main_arg16) = W10 m ρ c (Proc.devRef .tc main_arg16)).trans ((W10_of_ne m ρ c main_arg16 (by decide)).trans ((by carry_host hostOps4 : W9 m ρ c (Proc.devRef .tc main_arg16) = W8 m ρ c (Proc.devRef .tc main_arg16)).trans ((W8_of_ne m ρ c main_arg16 (by decide)).trans ((by carry_host hostOps3 : W7 m ρ c (Proc.devRef .tc main_arg16) = W6 m ρ c (Proc.devRef .tc main_arg16)).trans ((W6_of_ne m ρ c main_arg16 (by decide)).trans ((by carry_host hostOps2 : W5 m ρ c (Proc.devRef .tc main_arg16) = W4 m ρ c (Proc.devRef .tc main_arg16)).trans ((W4_of_ne m ρ c main_arg16 (by decide)).trans ((by carry_host hostOps1 : W3 m ρ c (Proc.devRef .tc main_arg16) = W2 m ρ c (Proc.devRef .tc main_arg16)).trans ((W2_of_ne m ρ c main_arg16 (by decide)).trans (by carry_host hostOps0 : W1 m ρ c (Proc.devRef .tc main_arg16) = W0 m ρ c (Proc.devRef .tc main_arg16))))))))))))).trans rfl

/-! ## Boundary 13: after the seventh stretch -/

set_option maxHeartbeats 1600000 in
theorem at13_v56 (c : Dev nD) (hr : RealArgs m c) :
    W13 m ρ c (Proc.devRef .tc main_v56) = Cert.ReferenceIdeal.Read.val_main_v74 (F := Ideal) (A0 m c) (A1 m c) (A2 m c) (A3 m c) (A4 m c) (A5 m c) (A6 m c) (A7 m c) (A8 m c) (A9 m c) (A10 m c) (A11 m c) (A12 m c) (A13 m c) (A14 m c) := by
  show StableHlo.after hostOps6 (W12 m ρ c) (Proc.devRef .tc main_v56) = _
  after_results_simp
  rw [at12_v3 m ρ c, at12_v53 m ρ c hr]
  all_goals rfl

set_option maxHeartbeats 1600000 in
theorem at13_v57 (c : Dev nD) :
    W13 m ρ c (Proc.devRef .tc main_v57) = shapeCast S1x128 (A16 m c) shapeCasts_S128_S1x128 := by
  show StableHlo.after hostOps6 (W12 m ρ c) (Proc.devRef .tc main_v57) = _
  after_results_simp
  rw [at12_arg16 m ρ c]
  all_goals rfl

theorem at13_v45 (c : Dev nD) (hr : RealArgs m c) :
    W13 m ρ c (Proc.devRef .tc main_v45) = Cert.ReferenceIdeal.Read.val_main_v54 (F := Ideal) (A0 m c) (A1 m c) (A2 m c) (A3 m c) (A4 m c) (A5 m c) (A6 m c) (A7 m c) (A8 m c) (A9 m c) (A10 m c) (A11 m c) (A12 m c) :=
  ((by carry_host hostOps6 : W13 m ρ c (Proc.devRef .tc main_v45) = W12 m ρ c (Proc.devRef .tc main_v45)).trans ((W12_of_ne m ρ c main_v45 (by decide)).trans (by carry_host hostOps5 : W11 m ρ c (Proc.devRef .tc main_v45) = W10 m ρ c (Proc.devRef .tc main_v45)))).trans (at10_v45 m ρ c hr)

theorem at13_arg15 (c : Dev nD) :
    W13 m ρ c (Proc.devRef .tc main_arg15) = (A15 m c) :=
  ((by carry_host hostOps6 : W13 m ρ c (Proc.devRef .tc main_arg15) = W12 m ρ c (Proc.devRef .tc main_arg15)).trans ((W12_of_ne m ρ c main_arg15 (by decide)).trans ((by carry_host hostOps5 : W11 m ρ c (Proc.devRef .tc main_arg15) = W10 m ρ c (Proc.devRef .tc main_arg15)).trans ((W10_of_ne m ρ c main_arg15 (by decide)).trans ((by carry_host hostOps4 : W9 m ρ c (Proc.devRef .tc main_arg15) = W8 m ρ c (Proc.devRef .tc main_arg15)).trans ((W8_of_ne m ρ c main_arg15 (by decide)).trans ((by carry_host hostOps3 : W7 m ρ c (Proc.devRef .tc main_arg15) = W6 m ρ c (Proc.devRef .tc main_arg15)).trans ((W6_of_ne m ρ c main_arg15 (by decide)).trans ((by carry_host hostOps2 : W5 m ρ c (Proc.devRef .tc main_arg15) = W4 m ρ c (Proc.devRef .tc main_arg15)).trans ((W4_of_ne m ρ c main_arg15 (by decide)).trans ((by carry_host hostOps1 : W3 m ρ c (Proc.devRef .tc main_arg15) = W2 m ρ c (Proc.devRef .tc main_arg15)).trans ((W2_of_ne m ρ c main_arg15 (by decide)).trans (by carry_host hostOps0 : W1 m ρ c (Proc.devRef .tc main_arg15) = W0 m ρ c (Proc.devRef .tc main_arg15)))))))))))))).trans rfl

/-! ## Boundary 14: after region 6 -/

theorem at14_v58 (c : Dev nD) (hr : RealArgs m c) :
    W14 m ρ c (Proc.devRef .tc main_v58) = Cert.ReferenceIdeal.Read.val_main_v79 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) := by
  refine (W14_arr m ρ c 4).trans ((Regions.region6_out (V13 m ρ) c).trans ?_)
  refine (projFold_congr (n := 50000) (K := 128) (N := 128) (at13_v45 m ρ c hr) (at13_v56 m ρ c hr) (at13_arg15 m ρ c) (at13_v57 m ρ c)).trans ?_
  refine (Cert.Bridge.proj128_host (Cert.ReferenceIdeal.Read.val_main_v54 (F := Ideal) (A0 m c) (A1 m c) (A2 m c) (A3 m c) (A4 m c) (A5 m c) (A6 m c) (A7 m c) (A8 m c) (A9 m c) (A10 m c) (A11 m c) (A12 m c)) (Cert.ReferenceIdeal.Read.val_main_v74 (F := Ideal) (A0 m c) (A1 m c) (A2 m c) (A3 m c) (A4 m c) (A5 m c) (A6 m c) (A7 m c) (A8 m c) (A9 m c) (A10 m c) (A11 m c) (A12 m c) (A13 m c) (A14 m c)) (A15 m c) (A16 m c)).trans ?_
  rfl

theorem at14_v1 (c : Dev nD) :
    W14 m ρ c (Proc.devRef .tc main_v1) = Cert.ReferenceIdeal.Read.val_main_v5 (F := Ideal) (A2 m c) :=
  ((W14_of_ne m ρ c main_v1 (by decide)).trans ((by carry_host hostOps6 : W13 m ρ c (Proc.devRef .tc main_v1) = W12 m ρ c (Proc.devRef .tc main_v1)).trans ((W12_of_ne m ρ c main_v1 (by decide)).trans (by carry_host hostOps5 : W11 m ρ c (Proc.devRef .tc main_v1) = W10 m ρ c (Proc.devRef .tc main_v1))))).trans (at10_v1 m ρ c)

theorem at14_v3 (c : Dev nD) :
    W14 m ρ c (Proc.devRef .tc main_v3) = Cert.ReferenceIdeal.Read.val_main_v7 (F := Ideal) (A2 m c) :=
  ((W14_of_ne m ρ c main_v3 (by decide)).trans (by carry_host hostOps6 : W13 m ρ c (Proc.devRef .tc main_v3) = W12 m ρ c (Proc.devRef .tc main_v3))).trans (at12_v3 m ρ c)

theorem at14_arg17 (c : Dev nD) :
    W14 m ρ c (Proc.devRef .tc main_arg17) = (A17 m c) :=
  ((W14_of_ne m ρ c main_arg17 (by decide)).trans ((by carry_host hostOps6 : W13 m ρ c (Proc.devRef .tc main_arg17) = W12 m ρ c (Proc.devRef .tc main_arg17)).trans ((W12_of_ne m ρ c main_arg17 (by decide)).trans ((by carry_host hostOps5 : W11 m ρ c (Proc.devRef .tc main_arg17) = W10 m ρ c (Proc.devRef .tc main_arg17)).trans ((W10_of_ne m ρ c main_arg17 (by decide)).trans ((by carry_host hostOps4 : W9 m ρ c (Proc.devRef .tc main_arg17) = W8 m ρ c (Proc.devRef .tc main_arg17)).trans ((W8_of_ne m ρ c main_arg17 (by decide)).trans ((by carry_host hostOps3 : W7 m ρ c (Proc.devRef .tc main_arg17) = W6 m ρ c (Proc.devRef .tc main_arg17)).trans ((W6_of_ne m ρ c main_arg17 (by decide)).trans ((by carry_host hostOps2 : W5 m ρ c (Proc.devRef .tc main_arg17) = W4 m ρ c (Proc.devRef .tc main_arg17)).trans ((W4_of_ne m ρ c main_arg17 (by decide)).trans ((by carry_host hostOps1 : W3 m ρ c (Proc.devRef .tc main_arg17) = W2 m ρ c (Proc.devRef .tc main_arg17)).trans ((W2_of_ne m ρ c main_arg17 (by decide)).trans (by carry_host hostOps0 : W1 m ρ c (Proc.devRef .tc main_arg17) = W0 m ρ c (Proc.devRef .tc main_arg17))))))))))))))).trans rfl

theorem at14_arg18 (c : Dev nD) :
    W14 m ρ c (Proc.devRef .tc main_arg18) = (A18 m c) :=
  ((W14_of_ne m ρ c main_arg18 (by decide)).trans ((by carry_host hostOps6 : W13 m ρ c (Proc.devRef .tc main_arg18) = W12 m ρ c (Proc.devRef .tc main_arg18)).trans ((W12_of_ne m ρ c main_arg18 (by decide)).trans ((by carry_host hostOps5 : W11 m ρ c (Proc.devRef .tc main_arg18) = W10 m ρ c (Proc.devRef .tc main_arg18)).trans ((W10_of_ne m ρ c main_arg18 (by decide)).trans ((by carry_host hostOps4 : W9 m ρ c (Proc.devRef .tc main_arg18) = W8 m ρ c (Proc.devRef .tc main_arg18)).trans ((W8_of_ne m ρ c main_arg18 (by decide)).trans ((by carry_host hostOps3 : W7 m ρ c (Proc.devRef .tc main_arg18) = W6 m ρ c (Proc.devRef .tc main_arg18)).trans ((W6_of_ne m ρ c main_arg18 (by decide)).trans ((by carry_host hostOps2 : W5 m ρ c (Proc.devRef .tc main_arg18) = W4 m ρ c (Proc.devRef .tc main_arg18)).trans ((W4_of_ne m ρ c main_arg18 (by decide)).trans ((by carry_host hostOps1 : W3 m ρ c (Proc.devRef .tc main_arg18) = W2 m ρ c (Proc.devRef .tc main_arg18)).trans ((W2_of_ne m ρ c main_arg18 (by decide)).trans (by carry_host hostOps0 : W1 m ρ c (Proc.devRef .tc main_arg18) = W0 m ρ c (Proc.devRef .tc main_arg18))))))))))))))).trans rfl

/-! ## Boundary 15: after the last stretch -/

set_option maxHeartbeats 1600000 in
theorem at15_v65 (c : Dev nD) (hr : RealArgs m c) :
    W15 m ρ c (Proc.devRef .tc main_v65) = Cert.ReferenceIdeal.Read.val_main_v88 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) := by
  show StableHlo.after hostOps7 (W14 m ρ c) (Proc.devRef .tc main_v65) = _
  after_results_simp
  rw [at14_v58 m ρ c hr, at14_v1 m ρ c]
  all_goals rfl

set_option maxHeartbeats 1600000 in
theorem at15_v72 (c : Dev nD) (hr : RealArgs m c) :
    W15 m ρ c (Proc.devRef .tc main_v72) = Cert.ReferenceIdeal.Read.val_main_v97 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) := by
  show StableHlo.after hostOps7 (W14 m ρ c) (Proc.devRef .tc main_v72) = _
  after_results_simp
  rw [at14_v58 m ρ c hr, at14_v3 m ρ c]
  all_goals rfl

set_option maxHeartbeats 1600000 in
theorem at15_v73 (c : Dev nD) :
    W15 m ρ c (Proc.devRef .tc main_v73) = extractStridedSlice S128x1 ![0, 0] (A17 m c) slices_S256x1_S128x1_0_0 := by
  show StableHlo.after hostOps7 (W14 m ρ c) (Proc.devRef .tc main_v73) = _
  after_results_simp
  rw [at14_arg17 m ρ c]
  all_goals rfl

set_option maxHeartbeats 1600000 in
theorem at15_v74 (c : Dev nD) :
    W15 m ρ c (Proc.devRef .tc main_v74) = extractStridedSlice S128x1 ![128, 0] (A17 m c) slices_S256x1_S128x1_128_0 := by
  show StableHlo.after hostOps7 (W14 m ρ c) (Proc.devRef .tc main_v74) = _
  after_results_simp
  rw [at14_arg17 m ρ c]
  all_goals rfl

set_option maxHeartbeats 1600000 in
theorem at15_v75 (c : Dev nD) :
    W15 m ρ c (Proc.devRef .tc main_v75) = shapeCast S1x1 (A18 m c) shapeCasts_S1_S1x1 := by
  show StableHlo.after hostOps7 (W14 m ρ c) (Proc.devRef .tc main_v75) = _
  after_results_simp
  rw [at14_arg18 m ρ c]
  all_goals rfl

/-! ## Boundary 16: after region 7 — the result -/

/-- The kernel's result buffer ends at the reference's result stage of the arguments. -/
theorem result_eq (c : Dev nD) (hr : RealArgs m c) :
    W16 m ρ c (Proc.devRef .tc main_v76) = Cert.ReferenceIdeal.Read.val_main_v102 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) := by
  refine (W16_arr m ρ c 5).trans ((Regions.region7_out (V15 m ρ) c).trans ?_)
  refine (decodeFold_congr (E := 800000) (K := 128) (at15_v65 m ρ c hr) (at15_v72 m ρ c hr) (at15_v73 m ρ c) (at15_v74 m ρ c) (at15_v75 m ρ c)).trans ?_
  refine (Cert.Bridge.decode_eq (Cert.ReferenceIdeal.Read.val_main_v88 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c)) (Cert.ReferenceIdeal.Read.val_main_v97 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c)) (A17 m c) (A18 m c)).trans ?_
  rfl

end Cert.KernelIdeal.Walk

end
-- ==== Proof.lean ====
/-
  The certificate of a three-layer edge-conditioned graph network with a pairwise decoder, a Pallas kernel program
  against its jnp reference, on the extended reals.

  Both programs compute, for 50000 nodes and 800000 edges: an edge feature per layer, e = (a·w + b)·L + lb from the
  edge attribute a; per layer, messages max(x[src] + e, 0), their sum over the edges into each target node, and the
  node projection (x + aggr)·W + bias (rectified in the second layer); and at the end, for each edge, the hidden
  features of its two end nodes contracted with a [256, 1] weight plus a bias.

  The kernel program differs from the reference in two arrangements only. It folds the edge embedding into each
  layer's edge projection on the host, a·(w·L) + (b·L + lb), which equals the reference's (a·w + b)·L + lb by
  distributivity — a law of the reals, so it is used where every entry involved is a real number, which the
  precondition (every float input finite) provides for the nine arrays it touches. And it contracts the two gathered
  halves of the decoder's input separately with the two halves of the weight, which is the reference's one
  contraction of the joined rows by splitting a sum over 256 positions into two sums over 128 — a law of any
  commutative monoid, needing no finiteness. Every other step is the same arithmetic on both sides: the kernel's
  regions compute blocks of rows of exactly the whole-array operations the reference applies (changes of float format
  are the identity on the extended reals, a product into a zero accumulator is the contraction), and the gathers and
  scatter-sums are the same host operations applied to equal operands.

  The three frames are the generated ones (the reference's is its generated run with the result dropped); there is no
  idealization rewrite to preserve. The kernel's run with its result named is `ValueRun.run_value`; the result buffer
  read back through the sixteen segments of @main is the reference's result stage (`Walk.result_eq`).
-/
import proofs.«107775_j22110491640097_1_alg».proof.Defs
import proofs.«107775_j22110491640097_1_alg».proof.Proof.Gen.Kernel
import proofs.«107775_j22110491640097_1_alg».proof.Proof.Gen.Kernel.Skeleton
import proofs.«107775_j22110491640097_1_alg».proof.Proof.Gen.Kernel.Launch
import proofs.«107775_j22110491640097_1_alg».proof.Proof.Gen.Kernel.Points
import proofs.«107775_j22110491640097_1_alg».proof.Proof.Gen.Kernel.Frame
import proofs.«107775_j22110491640097_1_alg».proof.Proof.Gen.KernelIdeal
import proofs.«107775_j22110491640097_1_alg».proof.Proof.Gen.KernelIdeal.Skeleton
import proofs.«107775_j22110491640097_1_alg».proof.Proof.Gen.KernelIdeal.Launch
import proofs.«107775_j22110491640097_1_alg».proof.Proof.Gen.KernelIdeal.Points
import proofs.«107775_j22110491640097_1_alg».proof.Proof.Gen.KernelIdeal.Frame
import proofs.«107775_j22110491640097_1_alg».proof.Proof.Gen.ReferenceIdeal
import proofs.«107775_j22110491640097_1_alg».proof.Proof.Gen.Pre_finite_inputs
import proofs.«107775_j22110491640097_1_alg».proof.Proof.Gen.ReferenceIdeal.Run
import proofs.«107775_j22110491640097_1_alg».proof.Proof.Gen.ReferenceIdeal.Read
import proofs.«107775_j22110491640097_1_alg».proof.Proof.KernelRun
import proofs.«107775_j22110491640097_1_alg».proof.Proof.RealInputs
import proofs.«107775_j22110491640097_1_alg».proof.Proof.WalkC
import Idealize.ShloMosaic.Adequacy
import Idealize.ShloMosaic.Init

noncomputable section

namespace Cert.Proof

open Idealize.ShloMosaic Idealize.ShloMosaic.TcCoe Idealize.SL.Sem

/-- A function of nineteen arguments takes equal values at argument lists equal entry by entry. -/
theorem congr19 {α0 α1 α2 α3 α4 α5 α6 α7 α8 α9 α10 α11 α12 α13 α14 α15 α16 α17 α18 β : Type} (f : α0 → α1 → α2 → α3 → α4 → α5 → α6 → α7 → α8 → α9 → α10 → α11 → α12 → α13 → α14 → α15 → α16 → α17 → α18 → β)
    {x0 y0 : α0} {x1 y1 : α1} {x2 y2 : α2} {x3 y3 : α3} {x4 y4 : α4} {x5 y5 : α5} {x6 y6 : α6} {x7 y7 : α7} {x8 y8 : α8} {x9 y9 : α9} {x10 y10 : α10} {x11 y11 : α11} {x12 y12 : α12} {x13 y13 : α13} {x14 y14 : α14} {x15 y15 : α15} {x16 y16 : α16} {x17 y17 : α17} {x18 y18 : α18}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) (e17 : x17 = y17) (e18 : x18 = y18) :
    f x0 x1 x2 x3 x4 x5 x6 x7 x8 x9 x10 x11 x12 x13 x14 x15 x16 x17 x18 = f y0 y1 y2 y3 y4 y5 y6 y7 y8 y9 y10 y11 y12 y13 y14 y15 y16 y17 y18 := by
  subst e0 e1 e2 e3 e4 e5 e6 e7 e8 e9 e10 e11 e12 e13 e14 e15 e16 e17 e18
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass applied no rewrite to this kernel: nothing to preserve. -/
theorem preserves : Cert.preserves_Kernel_KernelIdeal := trivial

/-- From memories agreeing on the arguments, both idealized programs end at the reference's result stage of the
    kernel's arguments: the kernel by its run read back through @main's segments, the reference by its generated run. -/
theorem algebraic : Cert.algebraic_KernelIdeal_ReferenceIdeal := by
  intro m ρ m' ρ' hpre hagree
  refine ⟨fun c => Cert.ReferenceIdeal.Read.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.Walk.result_eq m ρ c (Cert.Bridge.real_inputs m hpre c)), (h c).2⟩)
      (Cert.KernelIdeal.ValueRun.run_value m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11, a12, a13, a14, a15, a16, a17, a18⟩ := hagree c
    exact ((h c).1.trans (Cert.ReferenceIdeal.Read.val_main_v102_eq m' c)).trans
      (congr19 (Cert.ReferenceIdeal.Read.val_main_v102 (F := Ideal)) a0 a1 a2 a3 a4 a5 a6 a7 a8 a9 a10 a11 a12 a13 a14 a15 a16 a17 a18)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
